-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32 .f32) (main_arg5 : FVec F S256x256 .f32) (main_arg6 : FVec F S256 .f32) (main_arg7 : FVec F S1 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S8x64x64x256 .f32) (main_arg1 : FVec F S256x32 .f32) (main_arg2 : FVec F S32 .f32) (main_arg3 : FVec F S256x32 .f32) (main_arg4 : FVec F S32 .f32) (main_arg5 : FVec F S256x256 .f32) (main_arg6 : FVec F S256 .f32) (main_arg7 : FVec F S1 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_arg7 main_v13 main_v16
-- ==== Kernel.lean ====
abbrev S8x64x64x256 : Shape := ⟨4, ![8, 64, 64, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S1 : Shape := ⟨1, ![1]⟩
abbrev S8x4096x256 : Shape := ⟨3, ![8, 4096, 256]⟩
abbrev S8x4096x32 : Shape := ⟨3, ![8, 4096, 32]⟩
abbrev S1x1024x256 : Shape := ⟨3, ![1, 1024, 256]⟩
abbrev S1x1024x32 : Shape := ⟨3, ![1, 1024, 32]⟩
abbrev S1024x256 : Shape := ⟨2, ![1024, 256]⟩
abbrev S1024x32 : Shape := ⟨2, ![1024, 32]⟩
abbrev S1x1x32 : Shape := ⟨3, ![1, 1, 32]⟩
abbrev S1x1x256 : Shape := ⟨3, ![1, 1, 256]⟩
abbrev S8x32x4096 : Shape := ⟨3, ![8, 32, 4096]⟩
abbrev S8x256x4096 : Shape := ⟨3, ![8, 256, 4096]⟩
abbrev S1x32x1024 : Shape := ⟨3, ![1, 32, 1024]⟩
abbrev S1x256x1024 : Shape := ⟨3, ![1, 256, 1024]⟩
abbrev S256x1024 : Shape := ⟨2, ![256, 1024]⟩
abbrev S32x1024 : Shape := ⟨2, ![32, 1024]⟩
abbrev S1024x1024 : Shape := ⟨2, ![1024, 1024]⟩
abbrev S1x1x1x1 : Shape := ⟨4, ![1, 1, 1, 1]⟩

abbrev nBuf : Space → Nat
  | .hbm => 37
  | .vmem => 20
  | .smem => 0
  | _ => 0

abbrev bufTy : (tb : Table) → Fin (tcTables nBuf tb) → BufTy
  | .hbm, ⟨0, _⟩ => ⟨S8x64x64x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S8x4096x256, .f32⟩
  | .hbm, ⟨9, _⟩ => ⟨S8x4096x32, .bf16⟩
  | .hbm, ⟨10, _⟩ => ⟨S8x4096x32, .bf16⟩
  | .hbm, ⟨11, _⟩ => ⟨S8x4096x256, .bf16⟩
  | .hbm, ⟨12, _⟩ => ⟨S8x4096x32, .f32⟩
  | .hbm, ⟨13, _⟩ => ⟨S1x1x32, .f32⟩
  | .hbm, ⟨14, _⟩ => ⟨S8x4096x32, .f32⟩
  | .hbm, ⟨15, _⟩ => ⟨S8x4096x32, .f32⟩
  | .hbm, ⟨16, _⟩ => ⟨S8x4096x32, .bf16⟩
  | .hbm, ⟨17, _⟩ => ⟨S8x4096x32, .f32⟩
  | .hbm, ⟨18, _⟩ => ⟨S1x1x32, .f32⟩
  | .hbm, ⟨19, _⟩ => ⟨S8x4096x32, .f32⟩
  | .hbm, ⟨20, _⟩ => ⟨S8x4096x32, .f32⟩
  | .hbm, ⟨21, _⟩ => ⟨S8x4096x32, .bf16⟩
  | .hbm, ⟨22, _⟩ => ⟨S8x4096x256, .f32⟩
  | .hbm, ⟨23, _⟩ => ⟨S1x1x256, .f32⟩
  | .hbm, ⟨24, _⟩ => ⟨S8x4096x256, .f32⟩
  | .hbm, ⟨25, _⟩ => ⟨S8x4096x256, .f32⟩
  | .hbm, ⟨26, _⟩ => ⟨S8x4096x256, .bf16⟩
  | .hbm, ⟨27, _⟩ => ⟨S8x32x4096, .bf16⟩
  | .hbm, ⟨28, _⟩ => ⟨S8x4096x32, .bf16⟩
  | .hbm, ⟨29, _⟩ => ⟨S8x32x4096, .bf16⟩
  | .hbm, ⟨30, _⟩ => ⟨S8x256x4096, .bf16⟩
  | .hbm, ⟨31, _⟩ => ⟨S8x256x4096, .f32⟩
  | .hbm, ⟨32, _⟩ => ⟨S8x64x64x256, .f32⟩
  | .hbm, ⟨33, _⟩ => ⟨S1x1x1x1, .f32⟩
  | .hbm, ⟨34, _⟩ => ⟨S8x64x64x256, .f32⟩
  | .hbm, ⟨35, _⟩ => ⟨S8x64x64x256, .f32⟩
  | .hbm, ⟨36, _⟩ => ⟨S8x64x64x256, .f32⟩
  | .local _ .vmem, ⟨0, _⟩ => ⟨S1x1024x256, .f32⟩
  | .local _ .vmem, ⟨1, _⟩ => ⟨S1x1024x256, .f32⟩
  | .local _ .vmem, ⟨2, _⟩ => ⟨S256x32, .f32⟩
  | .local _ .vmem, ⟨3, _⟩ => ⟨S256x32, .f32⟩
  | .local _ .vmem, ⟨4, _⟩ => ⟨S256x256, .f32⟩
  | .local _ .vmem, ⟨5, _⟩ => ⟨S1x1024x32, .bf16⟩
  | .local _ .vmem, ⟨6, _⟩ => ⟨S1x1024x32, .bf16⟩
  | .local _ .vmem, ⟨7, _⟩ => ⟨S1x1024x32, .bf16⟩
  | .local _ .vmem, ⟨8, _⟩ => ⟨S1x1024x32, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x32, .bf16⟩
  | .local _ .vmem, ⟨12, _⟩ => ⟨S1x1024x32, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .f32⟩
  | .local _ .vmem, ⟨18, _⟩ => ⟨S1x256x1024, .f32⟩
  | .local _ .vmem, ⟨19, _⟩ => ⟨S256x1024, .f32⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_14 : BitVec 32 := 0#32
  let v20 : BitVec 1 := Scalar.cmpi .ne v19 c0_i32_14
  v20

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x32x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x64x64x256_S8x4096x256 : S8x64x64x256.ShapeCasts S8x4096x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S256x256_S256x256_0_0 : ∀ a, (![0, 0] : Fin 2 → Nat) a + S256x256.size a ≤ S256x256.size a
  h_S256x256 : 0 < S256x256.numel
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  packedbf16_S1x1024x32_S1x1024x32_0_0_0 : (Rect.unit (s := S1x1024x32) ![0, 0, 0] S1x1024x32.size inb_S1x1024x32_S1x1024x32_0_0_0).PackedRows (EltTy.packing .bf16)
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  bcast_S32_S1x1x32_2 : S32.BroadcastsInDim S1x1x32 (![2] : Fin 1 → Fin S1x1x32.rank)
  bcast_S1x1x32_S8x4096x32_0_1_2 : S1x1x32.BroadcastsInDim S8x4096x32 (![0, 1, 2] : Fin 3 → Fin S8x4096x32.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  shapeCasts_S8x4096x32_S8x32x4096 : S8x4096x32.ShapeCasts S8x32x4096
  transposes_S8x32x4096_S8x4096x32_0_2_1 : S8x32x4096.Transposes [0, 2, 1] S8x4096x32
  shapeCasts_S8x4096x256_S8x256x4096 : S8x4096x256.ShapeCasts S8x256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  shapeCasts_S8x256x4096_S8x64x64x256 : S8x256x4096.ShapeCasts S8x64x64x256
  bcast_S1_S1x1x1x1_3 : S1.BroadcastsInDim S1x1x1x1 (![3] : Fin 1 → Fin S1x1x1x1.rank)
  bcast_S1x1x1x1_S8x64x64x256_0_1_2_3 : S1x1x1x1.BroadcastsInDim S8x64x64x256 (![0, 1, 2, 3] : Fin 4 → Fin S8x64x64x256.rank)
  dot_S1024x256_S256x32_S1024x32_1_0_0_1_n_n_wf : DotDims.WF S1024x256 S256x32 S1024x32 [1] [0] [0] [1] [] []
  dot_S1024x256_S256x256_S1024x256_1_0_0_1_n_n_wf : DotDims.WF S1024x256 S256x256 S1024x256 [1] [0] [0] [1] [] []
  dot_S1024x32_S32x1024_S1024x1024_1_0_0_1_n_n_wf : DotDims.WF S1024x32 S32x1024 S1024x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x32.size a ≤ S8x4096x32.size a
  hwx0_4 : ∀ i : grid0.Coords, EltTy.bits .bf16 = 32 ∨ (Rect.block (s := S8x4096x32) S1x1024x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x32.size a ≤ S8x4096x32.size a
  hwx0_5 : ∀ i : grid0.Coords, EltTy.bits .bf16 = 32 ∨ (Rect.block (s := S8x4096x32) S1x1024x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S8x4096x256.size a
  hwx0_6 : ∀ i : grid0.Coords, EltTy.bits .bf16 = 32 ∨ (Rect.block (s := S8x4096x256) S1x1024x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x32.size a ≤ S8x4096x32.size a
  hwx1_0 : ∀ i : grid1.Coords, EltTy.bits .bf16 = 32 ∨ (Rect.block (s := S8x4096x32) S1x1024x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x1024.size a ≤ S8x32x4096.size a
  hwx1_1 : ∀ i : grid1.Coords, EltTy.bits .bf16 = 32 ∨ (Rect.block (s := S8x32x4096) S1x32x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S8x256x4096.size a
  hwx1_2 : ∀ i : grid1.Coords, EltTy.bits .bf16 = 32 ∨ (Rect.block (s := S8x256x4096) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x256x4096.size a
  hwx1_3 : ∀ i : grid1.Coords, EltTy.bits .f32 = 32 ∨ (Rect.block (s := S8x256x4096) S1x256x1024.size (cc1_transform_3 i) (hinb1_3 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1024x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S1x1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x32x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x64x64x256 : Shape := ⟨4, ![8, 64, 64, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S1 : Shape := ⟨1, ![1]⟩
abbrev S8x64x64x32 : Shape := ⟨4, ![8, 64, 64, 32]⟩
abbrev S1x1x1x32 : Shape := ⟨4, ![1, 1, 1, 32]⟩
abbrev S1x1x1x256 : Shape := ⟨4, ![1, 1, 1, 256]⟩
abbrev S8x32x4096 : Shape := ⟨3, ![8, 32, 4096]⟩
abbrev S8x4096x32 : Shape := ⟨3, ![8, 4096, 32]⟩
abbrev S8x256x4096 : Shape := ⟨3, ![8, 256, 4096]⟩
abbrev S8x4096x4096 : Shape := ⟨3, ![8, 4096, 4096]⟩
abbrev S_ : Shape := ⟨0, ![]⟩
abbrev S1x1x1x1 : Shape := ⟨4, ![1, 1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S8x64x64x32, .f32⟩
  | .hbm, ⟨9, _⟩ => ⟨S1x1x1x32, .f32⟩
  | .hbm, ⟨10, _⟩ => ⟨S8x64x64x32, .f32⟩
  | .hbm, ⟨11, _⟩ => ⟨S8x64x64x32, .f32⟩
  | .hbm, ⟨12, _⟩ => ⟨S8x64x64x32, .f32⟩
  | .hbm, ⟨13, _⟩ => ⟨S1x1x1x32, .f32⟩
  | .hbm, ⟨14, _⟩ => ⟨S8x64x64x32, .f32⟩
  | .hbm, ⟨15, _⟩ => ⟨S8x64x64x32, .f32⟩
  | .hbm, ⟨16, _⟩ => ⟨S8x64x64x256, .f32⟩
  | .hbm, ⟨17, _⟩ => ⟨S1x1x1x256, .f32⟩
  | .hbm, ⟨18, _⟩ => ⟨S8x64x64x256, .f32⟩
  | .hbm, ⟨19, _⟩ => ⟨S8x64x64x256, .f32⟩
  | .hbm, ⟨20, _⟩ => ⟨S8x32x4096, .f32⟩
  | .hbm, ⟨21, _⟩ => ⟨S8x4096x32, .f32⟩
  | .hbm, ⟨22, _⟩ => ⟨S8x32x4096, .f32⟩
  | .hbm, ⟨23, _⟩ => ⟨S8x256x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x256x4096, .f32⟩
  | .hbm, ⟨34, _⟩ => ⟨S8x64x64x256, .f32⟩
  | .hbm, ⟨35, _⟩ => ⟨S1x1x1x1, .f32⟩
  | .hbm, ⟨36, _⟩ => ⟨S8x64x64x256, .f32⟩
  | .hbm, ⟨37, _⟩ => ⟨S8x64x64x256, .f32⟩
  | .hbm, ⟨38, _⟩ => ⟨S8x64x64x256, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S8x64x64x32_0_1_2_3 : S1x1x1x32.BroadcastsInDim S8x64x64x32 (![0, 1, 2, 3] : Fin 4 → Fin S8x64x64x32.rank)
  bcast_S256_S1x1x1x256_3 : S256.BroadcastsInDim S1x1x1x256 (![3] : Fin 1 → Fin S1x1x1x256.rank)
  bcast_S1x1x1x256_S8x64x64x256_0_1_2_3 : S1x1x1x256.BroadcastsInDim S8x64x64x256 (![0, 1, 2, 3] : Fin 4 → Fin S8x64x64x256.rank)
  shapeCasts_S8x64x64x32_S8x32x4096 : S8x64x64x32.ShapeCasts S8x32x4096
  transposes_S8x32x4096_S8x4096x32_0_2_1 : S8x32x4096.Transposes [0, 2, 1] S8x4096x32
  shapeCasts_S8x64x64x256_S8x256x4096 : S8x64x64x256.ShapeCasts S8x256x4096
  bcast_S_S8x4096x4096 : S_.BroadcastsInDim S8x4096x4096 (![] : Fin 0 → Fin S8x4096x4096.rank)
  shapeCasts_S8x256x4096_S8x64x64x256 : S8x256x4096.ShapeCasts S8x64x64x256
  bcast_S1_S1x1x1x1_3 : S1.BroadcastsInDim S1x1x1x1 (![3] : Fin 1 → Fin S1x1x1x1.rank)
  bcast_S1x1x1x1_S8x64x64x256_0_1_2_3 : S1x1x1x1.BroadcastsInDim S8x64x64x256 (![0, 1, 2, 3] : Fin 4 → Fin S8x64x64x256.rank)
  dot_S8x64x64x256_S256x32_S8x64x64x32_3_0_012_1_n_n_wf : DotDims.WF S8x64x64x256 S256x32 S8x64x64x32 [3] [0] [0, 1, 2] [1] [] []
  dot_S8x64x64x256_S256x256_S8x64x64x256_3_0_012_1_n_n_wf : DotDims.WF S8x64x64x256 S256x256 S8x64x64x256 [3] [0] [0, 1, 2] [1] [] []
  dot_S8x4096x32_S8x32x4096_S8x4096x4096_2_1_1_2_0_0_wf : DotDims.WF S8x4096x32 S8x32x4096 S8x4096x4096 [2] [1] [1] [2] [0] [0]
  dot_S8x256x4096_S8x4096x4096_S8x256x4096_2_1_1_2_0_0_wf : DotDims.WF S8x256x4096 S8x4096x4096 S8x256x4096 [2] [1] [1] [2] [0] [0]

variable [Facts₀]

def dot_S8x64x64x256_S256x32_S8x64x64x32_3_0_012_1_n_n : DotDims S8x64x64x256 S256x32 S8x64x64x32 where
  lhsContracting := [3]
  rhsContracting := [0]
  lhsNonContracting := [0, 1, 2]
  rhsNonContracting := [1]
  lhsBatch := []
  rhsBatch := []
  wf := dot_S8x64x64x256_S256x32_S8x64x64x32_3_0_012_1_n_n_wf
def dot_S8x64x64x256_S256x256_S8x64x64x256_3_0_012_1_n_n : DotDims S8x64x64x256 S256x256 S8x64x64x256 where
  lhsContracting := [3]
  rhsContracting := [0]
  lhsNonContracting := [0, 1, 2]
  rhsNonContracting := [1]
  lhsBatch := []
  rhsBatch := []
  wf := dot_S8x64x64x256_S256x256_S8x64x64x256_3_0_012_1_n_n_wf
def dot_S8x4096x32_S8x32x4096_S8x4096x4096_2_1_1_2_0_0 : DotDims S8x4096x32 S8x32x4096 S8x4096x4096 where
  lhsContracting := [2]
  rhsContracting := [1]
  lhsNonContracting := [1]
  rhsNonContracting := [2]
  lhsBatch := [0]
  rhsBatch := [0]
  wf := dot_S8x4096x32_S8x32x4096_S8x4096x4096_2_1_1_2_0_0_wf
def dot_S8x256x4096_S8x4096x4096_S8x256x4096_2_1_1_2_0_0 : DotDims S8x256x4096 S8x4096x4096 S8x256x4096 where
  lhsContracting := [2]
  rhsContracting := [1]
  lhsNonContracting := [1]
  rhsNonContracting := [2]
  lhsBatch := [0]
  rhsBatch := [0]
  wf := dot_S8x256x4096_S8x4096x4096_S8x256x4096_2_1_1_2_0_0_wf

class Facts : Prop extends Facts₀ where

variable [Facts]
-- ==== Proof.KB.Region0.lean ====
/-
  The first kernel region: at grid point (b, i) the body reads the block of 1024 pixel rows [1024 i, 1024 (i+1)) of
  batch b (all 256 channels) and the three weight matrices whole, and writes the three products of that block with the
  weights into the matching row blocks of the three projection arrays. Nothing is carried from one point to the next:
  what each output buffer holds after the body is one function of the point's input blocks.
-/
import proofs.«166255_j60060822667534_1_alg».proof.Proof.Gen.Kernel.Launch
import proofs.«166255_j60060822667534_1_alg».proof.Proof.Gen.Kernel.Skeleton
import proofs.«166255_j60060822667534_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept from
    the point before (a weight matrix is fetched once: its block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and store takes a whole buffer -/

abbrev rX : Rect S1x1024x256 := Rect.unit (s := S1x1024x256) ![0, 0, 0] S1x1024x256.size inb_S1x1024x256_S1x1024x256_0_0_0
abbrev rW32 : Rect S256x32 := Rect.unit (s := S256x32) ![0, 0] S256x32.size inb_S256x32_S256x32_0_0
abbrev rW256 : Rect S256x256 := Rect.unit (s := S256x256) ![0, 0] S256x256.size inb_S256x256_S256x256_0_0
abbrev rO32 : Rect S1x1024x32 := Rect.unit (s := S1x1024x32) ![0, 0, 0] S1x1024x32.size inb_S1x1024x32_S1x1024x32_0_0_0

/-! ## What the body leaves in each output buffer: one whole-buffer store of a product -/

def out0_4 (x0 : Vec F S1x1024x256 .f32) (x1 : Vec F S256x32 .f32) : Vec F S1x1024x32 .bf16 :=
  View.canon [⟨rO32, k0_pay2 (View.ld x0 rX) (View.ld x1 rW32)⟩]
def out0_5 (x0 : Vec F S1x1024x256 .f32) (x2 : Vec F S256x32 .f32) : Vec F S1x1024x32 .bf16 :=
  View.canon [⟨rO32, k0_pay3 (View.ld x0 rX) (View.ld x2 rW32)⟩]
def out0_6 (x0 : Vec F S1x1024x256 .f32) (x3 : Vec F S256x256 .f32) : Vec F S1x1024x256 .bf16 :=
  View.canon [⟨rX, k0_pay4 (View.ld x0 rX) (View.ld x3 rW256)⟩]

theorem cover0_32 (p0 : rO32.shape.Idx → Elt F .bf16) (y : S1x1024x32.Idx) :
    ∃ pc ∈ ([⟨rO32, p0⟩] : List (View.Piece (Elt F) S1x1024x32 .bf16)), y ∈ pc.1.set :=
  View.cover_of_tiled [⟨rO32, p0⟩] S1x1024x32.size (by rfl) y
theorem cover0_256 (p0 : rX.shape.Idx → Elt F .bf16) (y : S1x1024x256.Idx) :
    ∃ pc ∈ ([⟨rX, p0⟩] : List (View.Piece (Elt F) S1x1024x256 .bf16)), y ∈ pc.1.set :=
  View.cover_of_tiled [⟨rX, p0⟩] S1x1024x256.size (by rfl) y

/-! ## The body's triple -/

set_option maxHeartbeats 1000000 in
/-- On whole staging buffers, the four inputs at read contents and the three outputs at anything, the body runs to
    the continuation with the inputs as they were and each output at its product. -/
theorem sound_kernel0 (c : Dev nD) (E : Set ℕ) (i : grid0.Coords)
    (arg2 : Memref sig .tc .vmem S1x1024x256 .f32) (harg2 : arg2.IsWhole) (arg3 : Memref sig .tc .vmem S256x32 .f32) (harg3 : arg3.IsWhole)
    (arg4 : Memref sig .tc .vmem S256x32 .f32) (harg4 : arg4.IsWhole) (arg5 : Memref sig .tc .vmem S256x256 .f32) (harg5 : arg5.IsWhole)
    (arg6 : Memref sig .tc .vmem S1x1024x32 .bf16) (harg6 : arg6.IsWhole) (arg7 : Memref sig .tc .vmem S1x1024x32 .bf16) (harg7 : arg7.IsWhole)
    (arg8 : Memref sig .tc .vmem S1x1024x256 .bf16) (harg8 : arg8.IsWhole)
    (x0 : Vec F S1x1024x256 .f32) (x1 : Vec F S256x32 .f32) (x2 : Vec F S256x32 .f32) (x3 : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_32 _)
  isplitl [H5]
  · iexists _; isplitr
    swap; · iexact H5
    ipureintro
    exact View.read_writes_eq_canon _ _ _ (cover0_32 _)
  iexists _; isplitr
  swap; · iexact H6
  ipureintro
  exact View.read_writes_eq_canon _ _ _ (cover0_256 _)

/-! ## The proof data -/

/-- After the body at point t each input buffer holds its block and each output buffer its product of the point's
    blocks; the invariant is the scoped rest and the generator register, untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KB.R1Runs.lean ====
/-
  The second kernel region, shared definitions. A grid point is (b, m, n): the body adds to a 256 x 1024 accumulator,
  kept in a scratch buffer, the product of the block n of the re-read V rows with the sigmoid of the logits of the
  query block n against the key block m. The accumulator is zeroed at n = 0 and copied to the output block (b, m) at
  n = 3; the output buffer is left alone, and not written back, at the other points. In the row-major order of the
  grid, n is the point's number modulo 4.
-/
import proofs.«166255_j60060822667534_1_alg».proof.Proof.Gen.Kernel.Launch
import proofs.«166255_j60060822667534_1_alg».proof.Proof.Gen.Kernel.Skeleton
import proofs.«166255_j60060822667534_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The buffers the body is called with -/

abbrev VO1_3 : View sig .tc .vmem S1x256x1024 .f32 := (Memref.whole cc1_stg3_0 : Memref sig .tc .vmem S1x256x1024 .f32).view
abbrev ms1_0 (t : Fin cfg1.N) : Memref sig .tc .vmem S1x1024x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S256x1024 .f32 := Memref.whole cc1_scratch0
abbrev VS1 : View sig .tc .vmem S256x1024 .f32 := scM1.view

/-- The class invariant with the accumulator split out of the scoped rest. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Fr

end
-- ==== Proof.KB.R1RunA.lean ====
/- The body at a point with n = 0: the accumulator, found at anything, is zeroed and then takes the first product; the
   output buffer is handed back untouched. The pieces the accumulator ends with are found by running the body. -/
import proofs.«166255_j60060822667534_1_alg».proof.Proof.KB.R1Runs
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i)
    (x0 : Vec F S1x1024x32 .bf16) (x1 : Vec F S1x32x1024 .bf16) (x2 : Vec F S1x256x1024 .bf16) :
    Σ' (L3 : List (View.Piece (Elt F) S1x256x1024 .f32)), { LS0 : List (View.Piece (Elt F) S256x1024 .f32) //
      ∀ (xi3 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KB.R1RunB.lean ====
/- The body at a point with n = 1 or 2: the accumulator, found at what the point before left, takes one more product;
   the output buffer is handed back untouched. -/
import proofs.«166255_j60060822667534_1_alg».proof.Proof.KB.R1Runs
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i)
    (x0 : Vec F S1x1024x32 .bf16) (x1 : Vec F S1x32x1024 .bf16) (x2 : Vec F S1x256x1024 .bf16) (xs0 : Vec F S256x1024 .f32) :
    Σ' (L3 : List (View.Piece (Elt F) S1x256x1024 .f32)), { LS0 : List (View.Piece (Elt F) S256x1024 .f32) //
      ∀ (xi3 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KB.R1RunC.lean ====
/- The body at a point with n = 3: the accumulator, found at what the point before left, takes the last product and is
   then copied whole into the output buffer, found at anything. -/
import proofs.«166255_j60060822667534_1_alg».proof.Proof.KB.R1Runs
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i)
    (x0 : Vec F S1x1024x32 .bf16) (x1 : Vec F S1x32x1024 .bf16) (x2 : Vec F S1x256x1024 .bf16) (xs0 : Vec F S256x1024 .f32) :
    Σ' (L3 : List (View.Piece (Elt F) S1x256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Region1.lean ====
/-
  The second kernel region: what each case of the body leaves, what the accumulator and the output buffer hold after
  each grid point (by recursion on the point: a point with n > 0 starts from what the point before left in the
  accumulator), the invariant that carries the accumulator from point to point, and the body obligation.
-/
import proofs.«166255_j60060822667534_1_alg».proof.Proof.KB.R1RunA
import proofs.«166255_j60060822667534_1_alg».proof.Proof.KB.R1RunB
import proofs.«166255_j60060822667534_1_alg».proof.Proof.KB.R1RunC
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class invariant as: the other scoped buffers, the accumulator, the generator register -/

/-- The scoped buffers that are neither a staging buffer of this region nor the accumulator, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem PhiA1_split (c : Dev nD) :
    (Pipeline.ΦA spec1 c : sProp 𝕄) ⊢ iprop(rest1 c ∗ (∃ d, owns (c : Thread nD τ) scM1 fullShare d) ∗ (∃ r, prngReg c r)) := by
  rw [PhiA1_eq]; unfold rest1
  iintro ⟨⟨R1, R2, R3, R4, R5, R6, R7, R8, R9, R10, R11, HS⟩, Hg⟩
  isplitl [R1 R2 R3 R4 R5 R6 R7 R8 R9 R10 R11]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HS]; · iexact HS
  iexact Hg

theorem PhiA1_join (c : Dev nD) :
    iprop(rest1 c ∗ (∃ d, owns (c : Thread nD τ) scM1 fullShare d) ∗ (∃ r, prngReg c r)) ⊢ (Pipeline.ΦA spec1 c : sProp 𝕄) := by
  rw [PhiA1_eq]; unfold rest1
  iintro ⟨⟨R1, R2, R3, R4, R5, R6, R7, R8, R9, R10, R11⟩, HS, Hg⟩
  isplitl [R1 R2 R3 R4 R5 R6 R7 R8 R9 R10 R11 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

/-! ## What each case leaves in the accumulator and in the output buffer -/

/-- n = 0: nothing is stored into the output buffer (a placeholder no one reads: the window is idle there). -/
def out1_A_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) : Vec F S1x256x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) (y : S256x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S256x1024.size (by sl_kernel_rfl) y
def sout1_A (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) : Vec F S256x1024 .f32 :=
  VS1.read (Elt F) (VS1.writes (Elt F) VS1.junk (kernelRun1_A c i arg3 harg3 arg4 harg4 arg5 harg5 arg6 harg6 arg7 harg7 hc0 hc1 x0 x1 x2).2.1)

/-- n = 1, 2. -/
def out1_B_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) : Vec F S1x256x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) (y : S256x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S256x1024.size (by sl_kernel_rfl) y
def sout1_B (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) : Vec F S256x1024 .f32 :=
  VS1.read (Elt F) (VS1.writes (Elt F) VS1.junk (kernelRun1_B c i arg3 harg3 arg4 harg4 arg5 harg5 arg6 harg6 arg7 harg7 hc0 hc1 x0 x1 x2 xs0).2.1)

/-- n = 3: the output buffer is stored whole. -/
theorem cover1_C_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) (y : S1x256x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x256x1024.size (by sl_kernel_rfl) y
def out1_C_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) : Vec F S1x256x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) (y : S256x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S256x1024.size (by sl_kernel_rfl) y
def sout1_C (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) : Vec F S256x1024 .f32 :=
  VS1.read (Elt F) (VS1.writes (Elt F) VS1.junk (kernelRun1_C c i arg3 harg3 arg4 harg4 arg5 harg5 arg6 harg6 arg7 harg7 hc0 hc1 x0 x1 x2 xs0).2.1)

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation: the output buffer and the accumulator after each point -/

def caseA (c : Dev nD) (t : Fin cfg1.N) (h0 : t.val % 4 = 0) (h1 : ¬t.val % 4 = 3) : Vec F S1x256x1024 .f32 × Vec F S256x1024 .f32 :=
  (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
   sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t))
def caseB (c : Dev nD) (t : Fin cfg1.N) (h0 : ¬t.val % 4 = 0) (h1 : ¬t.val % 4 = 3) (xs : Vec F S256x1024 .f32) : Vec F S1x256x1024 .f32 × Vec F S256x1024 .f32 :=
  (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs,
   sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs)
def caseC (c : Dev nD) (t : Fin cfg1.N) (h0 : ¬t.val % 4 = 0) (h1 : t.val % 4 = 3) (xs : Vec F S256x1024 .f32) : Vec F S1x256x1024 .f32 × Vec F S256x1024 .f32 :=
  (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs)

/-- After the body at position n: the case n % 4 selects, run at the point's buffers and input blocks, from what the
    position before left in the accumulator. -/
def outsAt1 (c : Dev nD) : (n : ℕ) → n < cfg1.N → Vec F S1x256x1024 .f32 × Vec F S256x1024 .f32
  | 0, hn => caseA V c ⟨0, hn⟩ (Nat.zero_mod _) (fun h => by have h' : (0 : ℕ) % 4 = 3 := h; omega)
  | n + 1, hn =>
    if h0 : (n + 1) % 4 = 0 then
      if h1 : (n + 1) % 4 = 3 then False.elim (by omega)
      else caseA V c ⟨n + 1, hn⟩ h0 h1
    else
      if h1 : (n + 1) % 4 = 3 then caseC V c ⟨n + 1, hn⟩ h0 h1 (outsAt1 c n (Nat.lt_of_succ_lt hn)).2
      else caseB V c ⟨n + 1, hn⟩ h0 h1 (outsAt1 c n (Nat.lt_of_succ_lt hn)).2

theorem outsAt1_A (c : Dev nD) (t : Fin cfg1.N) (h0 : t.val % 4 = 0) (h1 : ¬t.val % 4 = 3) :
    outsAt1 V c t.val t.isLt = caseA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 4 = 0) (h1 : ¬t.val % 4 = 3) :
    outsAt1 V c t.val t.isLt = caseB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 4 = 0) (h1 : t.val % 4 = 3) :
    outsAt1 V c t.val t.isLt = caseC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant: before the first point the class's; afterwards the accumulator at what the point before left -/

def PhiS1 (c : Dev nD) : (n : ℕ) → n ≤ cfg1.N → sProp 𝕄
  | 0, _ => Pipeline.ΦA spec1 c
  | n + 1, hn => iprop(rest1 c ∗ owns (c : Thread nD τ) scM1 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c ∗ owns (c : Thread nD τ) scM1 fullShare ((outsAt1 V c n hn).2) ∗ (∃ r, prngReg c r)) := rfl
theorem PhiS1_pos (c : Dev nD) (n : ℕ) (h : n ≤ cfg1.N) (hz : n ≠ 0) :
    PhiS1 V c n h = iprop(rest1 c ∗ owns (c : Thread nD τ) scM1 fullShare ((outsAt1 V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; n = t % 4 selects the case; the invariant hands the
    body the accumulator (at anything before the first point, at what the point before left afterwards) and takes it
    back at this point's contents; an output buffer the case does not store into is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold caseA sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨Hrest, HS0, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC out1_C_3 sout1_C; (try dsimp only)
      rw [PhiS1_castSucc V c t, PhiS1_pos V c _ _ hz]
      iintro ⟨⟨Hrest, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB sout1_B; (try dsimp only)
      rw [PhiS1_castSucc V c t, PhiS1_pos V c _ _ hz]
      iintro ⟨⟨Hrest, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hrest, HS0, Hg⟩
  iapply (PhiA1_join c)
  isplitl [Hrest]; · iexact Hrest
  isplitl [HS0]; · iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Fr

end
-- ==== Proof.KB.Run.lean ====
/-
  The whole run: @main is a host stretch (the re-reading of x as [8,4096,256]), the first kernel region, a host stretch
  (biases added, the three projections re-read row-major), the second kernel region, and a last host stretch (the
  output re-read, scaled and added to x). The contents of every unscoped buffer at each boundary are folded from the
  launch memory: a host stretch applies its operations, a region replaces its output arrays by what its write-backs
  leave. Every weakly fair execution terminates with every unscoped buffer at the last boundary's contents.
-/
import proofs.«166255_j60060822667534_1_alg».proof.Proof.KB.Region0
import proofs.«166255_j60060822667534_1_alg».proof.Proof.KB.Region1
import proofs.«166255_j60060822667534_1_alg».proof.Proof.Gen.Kernel.Regions
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W1 : Dev nD → Valuation τ sig (Elt F) := fun c => StableHlo.after hostOps0 (V0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## A buffer no operation of a stretch writes keeps its contents through the stretch -/

theorem keep0 (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h
theorem keep2 (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := keep2 (W4 m c) main_arg0 (by decide)
    _ = W3 m c (Proc.devRef .tc main_arg0) := W4_of_ne m c main_arg0 (by decide)
    _ = W2 m c (Proc.devRef .tc main_arg0) := keep1 (W2 m c) main_arg0 (by decide)
    _ = W1 m c (Proc.devRef .tc main_arg0) := W2_of_ne m c main_arg0 (by decide)
    _ = V0 m c (Proc.devRef .tc main_arg0) := keep0 (V0 m c) main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := keep2 (W4 m c) main_arg1 (by decide)
    _ = W3 m c (Proc.devRef .tc main_arg1) := W4_of_ne m c main_arg1 (by decide)
    _ = W2 m c (Proc.devRef .tc main_arg1) := keep1 (W2 m c) main_arg1 (by decide)
    _ = W1 m c (Proc.devRef .tc main_arg1) := (W2_arr m c 1).trans (((dat0 (U1 m) c).arrAt_in 1 rfl _).trans (A_eq0 (U1 m) c 1))
    _ = V0 m c (Proc.devRef .tc main_arg1) := keep0 (V0 m c) main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := keep2 (W4 m c) main_arg2 (by decide)
    _ = W3 m c (Proc.devRef .tc main_arg2) := W4_of_ne m c main_arg2 (by decide)
    _ = W2 m c (Proc.devRef .tc main_arg2) := keep1 (W2 m c) main_arg2 (by decide)
    _ = W1 m c (Proc.devRef .tc main_arg2) := W2_of_ne m c main_arg2 (by decide)
    _ = V0 m c (Proc.devRef .tc main_arg2) := keep0 (V0 m c) main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := keep2 (W4 m c) main_arg3 (by decide)
    _ = W3 m c (Proc.devRef .tc main_arg3) := W4_of_ne m c main_arg3 (by decide)
    _ = W2 m c (Proc.devRef .tc main_arg3) := keep1 (W2 m c) main_arg3 (by decide)
    _ = W1 m c (Proc.devRef .tc main_arg3) := (W2_arr m c 2).trans (((dat0 (U1 m) c).arrAt_in 2 rfl _).trans (A_eq0 (U1 m) c 2))
    _ = V0 m c (Proc.devRef .tc main_arg3) := keep0 (V0 m c) main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := keep2 (W4 m c) main_arg4 (by decide)
    _ = W3 m c (Proc.devRef .tc main_arg4) := W4_of_ne m c main_arg4 (by decide)
    _ = W2 m c (Proc.devRef .tc main_arg4) := keep1 (W2 m c) main_arg4 (by decide)
    _ = W1 m c (Proc.devRef .tc main_arg4) := W2_of_ne m c main_arg4 (by decide)
    _ = V0 m c (Proc.devRef .tc main_arg4) := keep0 (V0 m c) main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := keep2 (W4 m c) main_arg5 (by decide)
    _ = W3 m c (Proc.devRef .tc main_arg5) := W4_of_ne m c main_arg5 (by decide)
    _ = W2 m c (Proc.devRef .tc main_arg5) := keep1 (W2 m c) main_arg5 (by decide)
    _ = W1 m c (Proc.devRef .tc main_arg5) := (W2_arr m c 3).trans (((dat0 (U1 m) c).arrAt_in 3 rfl _).trans (A_eq0 (U1 m) c 3))
    _ = V0 m c (Proc.devRef .tc main_arg5) := keep0 (V0 m c) main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := keep2 (W4 m c) main_arg6 (by decide)
    _ = W3 m c (Proc.devRef .tc main_arg6) := W4_of_ne m c main_arg6 (by decide)
    _ = W2 m c (Proc.devRef .tc main_arg6) := keep1 (W2 m c) main_arg6 (by decide)
    _ = W1 m c (Proc.devRef .tc main_arg6) := W2_of_ne m c main_arg6 (by decide)
    _ = V0 m c (Proc.devRef .tc main_arg6) := keep0 (V0 m c) main_arg6 (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := keep2 (W4 m c) main_arg7 (by decide)
    _ = W3 m c (Proc.devRef .tc main_arg7) := W4_of_ne m c main_arg7 (by decide)
    _ = W2 m c (Proc.devRef .tc main_arg7) := keep1 (W2 m c) main_arg7 (by decide)
    _ = W1 m c (Proc.devRef .tc main_arg7) := W2_of_ne m c main_arg7 (by decide)
    _ = V0 m c (Proc.devRef .tc main_arg7) := keep0 (V0 m c) main_arg7 (by decide)
    _ = m ((c : Thread nD τ).loc main_arg7) := rfl

/-! ## The proof data family and what rides beside the buffers -/

abbrev admF : (p : Fin 2) → (pcfgs (F := F) p).Adm := fun p => (cfgs p).toPCfg_adm
def pd : (p : Fin 2) → (c : Dev nD) → Dat τ (Elt F) Unit ℕ (UR sig nD τ) ℕ (Pipeline.pin (pcfgs (F := F)) admF p) c
  | ⟨0, _⟩ => fun c => dat0 (U1 m) c
  | ⟨1, _⟩ => fun c => dat1 (U3 m) c
abbrev 𝒱F : Variants := Variants.none
abbrev LF : GSem nD τ sig → Finset Unit := fun _ => ∅
abbrev lvF : GSem nD τ sig → Unit → ℕ := fun _ _ => 0
/-- The generator register at some state, and the core owing nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (W5 m c) ∗ ∃ r, prngReg c r)

/-! ## The two regions as segments -/

set_option backward.isDefEq.respectTransparency.types false in
def rg0 : Pipeline.RegionSeg (pcfgs (F := F)) admF (pd m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admF (pd m) launch0.win launch0.arr_whole c
      ((pd m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pd m) ((pd m 0 c).share_full fun _ => rfl)
      (U1 m c) (fun b => W2 m c b) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem PhiA_of1 (c : Dev nD) : iprop((∃ r, prngReg c r) ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, Hr⟩
  isplitl [Hr]; · iexact Hr
  iexact Hp
theorem of_PhiA1 (c : Dev nD) : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
def rg1 : Pipeline.RegionSeg (pcfgs (F := F)) admF (pd m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admF (pd m) launch1.win launch1.arr_whole c
      ((pd m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = (dat1 (U3 m) c).Φ 0 from rfl]
    iintro ⟨Hp, -, Hr⟩
    iapply (hin1 (U3 m) c)
    iapply (PhiA_of1 c)
    isplitl [Hp]; · iexact Hp
    iexact Hr
  hout c := by
    rw [Pipeline.ownSems0_none, show (pd m 1 c).Φ (Fin.last _) = (dat1 (U3 m) c).Φ (Fin.last cfg1.N) from rfl]
    iintro HΦ
    iapply (of_PhiA1 c)
    iapply (hout1 (U3 m) c)
    iexact HΦ
  hexit c := by
    have hjoin := Pipeline.unscopedBufs_of_arrays (p := 1) (pcfgs (F := F)) admF (Ix := Unit) (Name := ℕ) (U := UR sig nD τ) (Lvl := ℕ)
      launch1.win launch1.arr_whole c (pd m) ((pd m 1 c).share_full fun _ => rfl)
      (U3 m c) (fun b => W4 m c b) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

variable (ρ : Dev nD → PrngReg)

abbrev sgs : List (Pipeline.Seg (pcfgs (F := F)) admF (pd m) () defs₀ 𝒱F LF lvF) :=
  [ .host (hsegF hostOps0 hostOps0_sub hostOps0_fresh (V0 m)),
    .region (rg0 m),
    .host (hsegF hostOps1 hostOps1_sub hostOps1_fresh (W2 m)),
    .region (rg1 m),
    .host (hsegF hostOps2 hostOps2_sub hostOps2_fresh (W4 m)) ]
theorem main_run (c : Dev nD) : main (F := F) c = Pipeline.Seg.run (sgs m) := (main_chain c).trans (by chain_rfl)

set_option backward.isDefEq.respectTransparency.types false in
/-- Every weakly fair execution of @main from memory m with zero counters terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admF (pd m) () cellOf_inj emb₁ defs₀ 𝒱F LF lvF m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RF c)) (Tₙ := TnF m)
    (hch := ⟨fun _ => .rfl, fun _ => .rfl, fun _ => .rfl, fun _ => .rfl, fun _ => .rfl, fun c => by
      show iprop(StableHlo.held (c : Thread nD τ) (Pipeline.ucRefs τ sig) (W5 m c) ∗ RF c)
        ⊢ iprop(TnF m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩)
    (run_all m ρ)

end Cert.Kernel.Fr

end
-- ==== Proof.KI.Region0.lean ====
/-
  The first kernel region: at grid point (b, i) the body reads the block of 1024 pixel rows [1024 i, 1024 (i+1)) of
  batch b (all 256 channels) and the three weight matrices whole, and writes the three products of that block with the
  weights into the matching row blocks of the three projection arrays. Nothing is carried from one point to the next:
  what each output buffer holds after the body is one function of the point's input blocks.
-/
import proofs.«166255_j60060822667534_1_alg».proof.Proof.Gen.KernelIdeal.Launch
import proofs.«166255_j60060822667534_1_alg».proof.Proof.Gen.KernelIdeal.Skeleton
import proofs.«166255_j60060822667534_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept from
    the point before (a weight matrix is fetched once: its block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and store takes a whole buffer -/

abbrev rX : Rect S1x1024x256 := Rect.unit (s := S1x1024x256) ![0, 0, 0] S1x1024x256.size inb_S1x1024x256_S1x1024x256_0_0_0
abbrev rW32 : Rect S256x32 := Rect.unit (s := S256x32) ![0, 0] S256x32.size inb_S256x32_S256x32_0_0
abbrev rW256 : Rect S256x256 := Rect.unit (s := S256x256) ![0, 0] S256x256.size inb_S256x256_S256x256_0_0
abbrev rO32 : Rect S1x1024x32 := Rect.unit (s := S1x1024x32) ![0, 0, 0] S1x1024x32.size inb_S1x1024x32_S1x1024x32_0_0_0

/-! ## What the body leaves in each output buffer: one whole-buffer store of a product -/

def out0_4 (x0 : Vec F S1x1024x256 .f32) (x1 : Vec F S256x32 .f32) : Vec F S1x1024x32 .bf16 :=
  View.canon [⟨rO32, k0_pay2 (View.ld x0 rX) (View.ld x1 rW32)⟩]
def out0_5 (x0 : Vec F S1x1024x256 .f32) (x2 : Vec F S256x32 .f32) : Vec F S1x1024x32 .bf16 :=
  View.canon [⟨rO32, k0_pay3 (View.ld x0 rX) (View.ld x2 rW32)⟩]
def out0_6 (x0 : Vec F S1x1024x256 .f32) (x3 : Vec F S256x256 .f32) : Vec F S1x1024x256 .bf16 :=
  View.canon [⟨rX, k0_pay4 (View.ld x0 rX) (View.ld x3 rW256)⟩]

theorem cover0_32 (p0 : rO32.shape.Idx → Elt F .bf16) (y : S1x1024x32.Idx) :
    ∃ pc ∈ ([⟨rO32, p0⟩] : List (View.Piece (Elt F) S1x1024x32 .bf16)), y ∈ pc.1.set :=
  View.cover_of_tiled [⟨rO32, p0⟩] S1x1024x32.size (by rfl) y
theorem cover0_256 (p0 : rX.shape.Idx → Elt F .bf16) (y : S1x1024x256.Idx) :
    ∃ pc ∈ ([⟨rX, p0⟩] : List (View.Piece (Elt F) S1x1024x256 .bf16)), y ∈ pc.1.set :=
  View.cover_of_tiled [⟨rX, p0⟩] S1x1024x256.size (by rfl) y

/-! ## The body's triple -/

set_option maxHeartbeats 1000000 in
/-- On whole staging buffers, the four inputs at read contents and the three outputs at anything, the body runs to
    the continuation with the inputs as they were and each output at its product. -/
theorem sound_kernel0 (c : Dev nD) (E : Set ℕ) (i : grid0.Coords)
    (arg2 : Memref sig .tc .vmem S1x1024x256 .f32) (harg2 : arg2.IsWhole) (arg3 : Memref sig .tc .vmem S256x32 .f32) (harg3 : arg3.IsWhole)
    (arg4 : Memref sig .tc .vmem S256x32 .f32) (harg4 : arg4.IsWhole) (arg5 : Memref sig .tc .vmem S256x256 .f32) (harg5 : arg5.IsWhole)
    (arg6 : Memref sig .tc .vmem S1x1024x32 .bf16) (harg6 : arg6.IsWhole) (arg7 : Memref sig .tc .vmem S1x1024x32 .bf16) (harg7 : arg7.IsWhole)
    (arg8 : Memref sig .tc .vmem S1x1024x256 .bf16) (harg8 : arg8.IsWhole)
    (x0 : Vec F S1x1024x256 .f32) (x1 : Vec F S256x32 .f32) (x2 : Vec F S256x32 .f32) (x3 : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_32 _)
  isplitl [H5]
  · iexists _; isplitr
    swap; · iexact H5
    ipureintro
    exact View.read_writes_eq_canon _ _ _ (cover0_32 _)
  iexists _; isplitr
  swap; · iexact H6
  ipureintro
  exact View.read_writes_eq_canon _ _ _ (cover0_256 _)

/-! ## The proof data -/

/-- After the body at point t each input buffer holds its block and each output buffer its product of the point's
    blocks; the invariant is the scoped rest and the generator register, untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1Runs.lean ====
/-
  The second kernel region, shared definitions. A grid point is (b, m, n): the body adds to a 256 x 1024 accumulator,
  kept in a scratch buffer, the product of the block n of the re-read V rows with the sigmoid of the logits of the
  query block n against the key block m. The accumulator is zeroed at n = 0 and copied to the output block (b, m) at
  n = 3; the output buffer is left alone, and not written back, at the other points. In the row-major order of the
  grid, n is the point's number modulo 4.
-/
import proofs.«166255_j60060822667534_1_alg».proof.Proof.Gen.KernelIdeal.Launch
import proofs.«166255_j60060822667534_1_alg».proof.Proof.Gen.KernelIdeal.Skeleton
import proofs.«166255_j60060822667534_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The buffers the body is called with -/

abbrev VO1_3 : View sig .tc .vmem S1x256x1024 .f32 := (Memref.whole cc1_stg3_0 : Memref sig .tc .vmem S1x256x1024 .f32).view
abbrev ms1_0 (t : Fin cfg1.N) : Memref sig .tc .vmem S1x1024x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S256x1024 .f32 := Memref.whole cc1_scratch0
abbrev VS1 : View sig .tc .vmem S256x1024 .f32 := scM1.view

/-- The class invariant with the accumulator split out of the scoped rest. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Fr

end
-- ==== Proof.KI.R1RunA.lean ====
/- The body at a point with n = 0: the accumulator, found at anything, is zeroed and then takes the first product; the
   output buffer is handed back untouched. The pieces the accumulator ends with are found by running the body. -/
import proofs.«166255_j60060822667534_1_alg».proof.Proof.KI.R1Runs
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i)
    (x0 : Vec F S1x1024x32 .bf16) (x1 : Vec F S1x32x1024 .bf16) (x2 : Vec F S1x256x1024 .bf16) :
    Σ' (L3 : List (View.Piece (Elt F) S1x256x1024 .f32)), { LS0 : List (View.Piece (Elt F) S256x1024 .f32) //
      ∀ (xi3 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunB.lean ====
/- The body at a point with n = 1 or 2: the accumulator, found at what the point before left, takes one more product;
   the output buffer is handed back untouched. -/
import proofs.«166255_j60060822667534_1_alg».proof.Proof.KI.R1Runs
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i)
    (x0 : Vec F S1x1024x32 .bf16) (x1 : Vec F S1x32x1024 .bf16) (x2 : Vec F S1x256x1024 .bf16) (xs0 : Vec F S256x1024 .f32) :
    Σ' (L3 : List (View.Piece (Elt F) S1x256x1024 .f32)), { LS0 : List (View.Piece (Elt F) S256x1024 .f32) //
      ∀ (xi3 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunC.lean ====
/- The body at a point with n = 3: the accumulator, found at what the point before left, takes the last product and is
   then copied whole into the output buffer, found at anything. -/
import proofs.«166255_j60060822667534_1_alg».proof.Proof.KI.R1Runs
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i)
    (x0 : Vec F S1x1024x32 .bf16) (x1 : Vec F S1x32x1024 .bf16) (x2 : Vec F S1x256x1024 .bf16) (xs0 : Vec F S256x1024 .f32) :
    Σ' (L3 : List (View.Piece (Elt F) S1x256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Region1.lean ====
/-
  The second kernel region: what each case of the body leaves, what the accumulator and the output buffer hold after
  each grid point (by recursion on the point: a point with n > 0 starts from what the point before left in the
  accumulator), the invariant that carries the accumulator from point to point, and the body obligation.
-/
import proofs.«166255_j60060822667534_1_alg».proof.Proof.KI.R1RunA
import proofs.«166255_j60060822667534_1_alg».proof.Proof.KI.R1RunB
import proofs.«166255_j60060822667534_1_alg».proof.Proof.KI.R1RunC
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class invariant as: the other scoped buffers, the accumulator, the generator register -/

/-- The scoped buffers that are neither a staging buffer of this region nor the accumulator, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem PhiA1_split (c : Dev nD) :
    (Pipeline.ΦA spec1 c : sProp 𝕄) ⊢ iprop(rest1 c ∗ (∃ d, owns (c : Thread nD τ) scM1 fullShare d) ∗ (∃ r, prngReg c r)) := by
  rw [PhiA1_eq]; unfold rest1
  iintro ⟨⟨R1, R2, R3, R4, R5, R6, R7, R8, R9, R10, R11, HS⟩, Hg⟩
  isplitl [R1 R2 R3 R4 R5 R6 R7 R8 R9 R10 R11]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HS]; · iexact HS
  iexact Hg

theorem PhiA1_join (c : Dev nD) :
    iprop(rest1 c ∗ (∃ d, owns (c : Thread nD τ) scM1 fullShare d) ∗ (∃ r, prngReg c r)) ⊢ (Pipeline.ΦA spec1 c : sProp 𝕄) := by
  rw [PhiA1_eq]; unfold rest1
  iintro ⟨⟨R1, R2, R3, R4, R5, R6, R7, R8, R9, R10, R11⟩, HS, Hg⟩
  isplitl [R1 R2 R3 R4 R5 R6 R7 R8 R9 R10 R11 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

/-! ## What each case leaves in the accumulator and in the output buffer -/

/-- n = 0: nothing is stored into the output buffer (a placeholder no one reads: the window is idle there). -/
def out1_A_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) : Vec F S1x256x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) (y : S256x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S256x1024.size (by sl_kernel_rfl) y
def sout1_A (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) : Vec F S256x1024 .f32 :=
  VS1.read (Elt F) (VS1.writes (Elt F) VS1.junk (kernelRun1_A c i arg3 harg3 arg4 harg4 arg5 harg5 arg6 harg6 arg7 harg7 hc0 hc1 x0 x1 x2).2.1)

/-- n = 1, 2. -/
def out1_B_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) : Vec F S1x256x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) (y : S256x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S256x1024.size (by sl_kernel_rfl) y
def sout1_B (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) : Vec F S256x1024 .f32 :=
  VS1.read (Elt F) (VS1.writes (Elt F) VS1.junk (kernelRun1_B c i arg3 harg3 arg4 harg4 arg5 harg5 arg6 harg6 arg7 harg7 hc0 hc1 x0 x1 x2 xs0).2.1)

/-- n = 3: the output buffer is stored whole. -/
theorem cover1_C_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) (y : S1x256x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x256x1024.size (by sl_kernel_rfl) y
def out1_C_3 (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) : Vec F S1x256x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) (y : S256x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S256x1024.size (by sl_kernel_rfl) y
def sout1_C (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) : Vec F S256x1024 .f32 :=
  VS1.read (Elt F) (VS1.writes (Elt F) VS1.junk (kernelRun1_C c i arg3 harg3 arg4 harg4 arg5 harg5 arg6 harg6 arg7 harg7 hc0 hc1 x0 x1 x2 xs0).2.1)

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation: the output buffer and the accumulator after each point -/

def caseA (c : Dev nD) (t : Fin cfg1.N) (h0 : t.val % 4 = 0) (h1 : ¬t.val % 4 = 3) : Vec F S1x256x1024 .f32 × Vec F S256x1024 .f32 :=
  (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
   sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t))
def caseB (c : Dev nD) (t : Fin cfg1.N) (h0 : ¬t.val % 4 = 0) (h1 : ¬t.val % 4 = 3) (xs : Vec F S256x1024 .f32) : Vec F S1x256x1024 .f32 × Vec F S256x1024 .f32 :=
  (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs,
   sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs)
def caseC (c : Dev nD) (t : Fin cfg1.N) (h0 : ¬t.val % 4 = 0) (h1 : t.val % 4 = 3) (xs : Vec F S256x1024 .f32) : Vec F S1x256x1024 .f32 × Vec F S256x1024 .f32 :=
  (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs)

/-- After the body at position n: the case n % 4 selects, run at the point's buffers and input blocks, from what the
    position before left in the accumulator. -/
def outsAt1 (c : Dev nD) : (n : ℕ) → n < cfg1.N → Vec F S1x256x1024 .f32 × Vec F S256x1024 .f32
  | 0, hn => caseA V c ⟨0, hn⟩ (Nat.zero_mod _) (fun h => by have h' : (0 : ℕ) % 4 = 3 := h; omega)
  | n + 1, hn =>
    if h0 : (n + 1) % 4 = 0 then
      if h1 : (n + 1) % 4 = 3 then False.elim (by omega)
      else caseA V c ⟨n + 1, hn⟩ h0 h1
    else
      if h1 : (n + 1) % 4 = 3 then caseC V c ⟨n + 1, hn⟩ h0 h1 (outsAt1 c n (Nat.lt_of_succ_lt hn)).2
      else caseB V c ⟨n + 1, hn⟩ h0 h1 (outsAt1 c n (Nat.lt_of_succ_lt hn)).2

theorem outsAt1_A (c : Dev nD) (t : Fin cfg1.N) (h0 : t.val % 4 = 0) (h1 : ¬t.val % 4 = 3) :
    outsAt1 V c t.val t.isLt = caseA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 4 = 0) (h1 : ¬t.val % 4 = 3) :
    outsAt1 V c t.val t.isLt = caseB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 4 = 0) (h1 : t.val % 4 = 3) :
    outsAt1 V c t.val t.isLt = caseC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant: before the first point the class's; afterwards the accumulator at what the point before left -/

def PhiS1 (c : Dev nD) : (n : ℕ) → n ≤ cfg1.N → sProp 𝕄
  | 0, _ => Pipeline.ΦA spec1 c
  | n + 1, hn => iprop(rest1 c ∗ owns (c : Thread nD τ) scM1 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c ∗ owns (c : Thread nD τ) scM1 fullShare ((outsAt1 V c n hn).2) ∗ (∃ r, prngReg c r)) := rfl
theorem PhiS1_pos (c : Dev nD) (n : ℕ) (h : n ≤ cfg1.N) (hz : n ≠ 0) :
    PhiS1 V c n h = iprop(rest1 c ∗ owns (c : Thread nD τ) scM1 fullShare ((outsAt1 V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; n = t % 4 selects the case; the invariant hands the
    body the accumulator (at anything before the first point, at what the point before left afterwards) and takes it
    back at this point's contents; an output buffer the case does not store into is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold caseA sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨Hrest, HS0, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hrest, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC out1_C_3 sout1_C; (try dsimp only)
      rw [PhiS1_castSucc V c t, PhiS1_pos V c _ _ hz]
      iintro ⟨⟨Hrest, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB sout1_B; (try dsimp only)
      rw [PhiS1_castSucc V c t, PhiS1_pos V c _ _ hz]
      iintro ⟨⟨Hrest, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hrest, HS0, Hg⟩
  iapply (PhiA1_join c)
  isplitl [Hrest]; · iexact Hrest
  isplitl [HS0]; · iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Fr

end
-- ==== Proof.KI.Run.lean ====
/-
  The whole run: @main is a host stretch (the re-reading of x as [8,4096,256]), the first kernel region, a host stretch
  (biases added, the three projections re-read row-major), the second kernel region, and a last host stretch (the
  output re-read, scaled and added to x). The contents of every unscoped buffer at each boundary are folded from the
  launch memory: a host stretch applies its operations, a region replaces its output arrays by what its write-backs
  leave. Every weakly fair execution terminates with every unscoped buffer at the last boundary's contents.
-/
import proofs.«166255_j60060822667534_1_alg».proof.Proof.KI.Region0
import proofs.«166255_j60060822667534_1_alg».proof.Proof.KI.Region1
import proofs.«166255_j60060822667534_1_alg».proof.Proof.Gen.KernelIdeal.Regions
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W1 : Dev nD → Valuation τ sig (Elt F) := fun c => StableHlo.after hostOps0 (V0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## A buffer no operation of a stretch writes keeps its contents through the stretch -/

theorem keep0 (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h
theorem keep2 (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := keep2 (W4 m c) main_arg0 (by decide)
    _ = W3 m c (Proc.devRef .tc main_arg0) := W4_of_ne m c main_arg0 (by decide)
    _ = W2 m c (Proc.devRef .tc main_arg0) := keep1 (W2 m c) main_arg0 (by decide)
    _ = W1 m c (Proc.devRef .tc main_arg0) := W2_of_ne m c main_arg0 (by decide)
    _ = V0 m c (Proc.devRef .tc main_arg0) := keep0 (V0 m c) main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := keep2 (W4 m c) main_arg1 (by decide)
    _ = W3 m c (Proc.devRef .tc main_arg1) := W4_of_ne m c main_arg1 (by decide)
    _ = W2 m c (Proc.devRef .tc main_arg1) := keep1 (W2 m c) main_arg1 (by decide)
    _ = W1 m c (Proc.devRef .tc main_arg1) := (W2_arr m c 1).trans (((dat0 (U1 m) c).arrAt_in 1 rfl _).trans (A_eq0 (U1 m) c 1))
    _ = V0 m c (Proc.devRef .tc main_arg1) := keep0 (V0 m c) main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := keep2 (W4 m c) main_arg2 (by decide)
    _ = W3 m c (Proc.devRef .tc main_arg2) := W4_of_ne m c main_arg2 (by decide)
    _ = W2 m c (Proc.devRef .tc main_arg2) := keep1 (W2 m c) main_arg2 (by decide)
    _ = W1 m c (Proc.devRef .tc main_arg2) := W2_of_ne m c main_arg2 (by decide)
    _ = V0 m c (Proc.devRef .tc main_arg2) := keep0 (V0 m c) main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := keep2 (W4 m c) main_arg3 (by decide)
    _ = W3 m c (Proc.devRef .tc main_arg3) := W4_of_ne m c main_arg3 (by decide)
    _ = W2 m c (Proc.devRef .tc main_arg3) := keep1 (W2 m c) main_arg3 (by decide)
    _ = W1 m c (Proc.devRef .tc main_arg3) := (W2_arr m c 2).trans (((dat0 (U1 m) c).arrAt_in 2 rfl _).trans (A_eq0 (U1 m) c 2))
    _ = V0 m c (Proc.devRef .tc main_arg3) := keep0 (V0 m c) main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := keep2 (W4 m c) main_arg4 (by decide)
    _ = W3 m c (Proc.devRef .tc main_arg4) := W4_of_ne m c main_arg4 (by decide)
    _ = W2 m c (Proc.devRef .tc main_arg4) := keep1 (W2 m c) main_arg4 (by decide)
    _ = W1 m c (Proc.devRef .tc main_arg4) := W2_of_ne m c main_arg4 (by decide)
    _ = V0 m c (Proc.devRef .tc main_arg4) := keep0 (V0 m c) main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := keep2 (W4 m c) main_arg5 (by decide)
    _ = W3 m c (Proc.devRef .tc main_arg5) := W4_of_ne m c main_arg5 (by decide)
    _ = W2 m c (Proc.devRef .tc main_arg5) := keep1 (W2 m c) main_arg5 (by decide)
    _ = W1 m c (Proc.devRef .tc main_arg5) := (W2_arr m c 3).trans (((dat0 (U1 m) c).arrAt_in 3 rfl _).trans (A_eq0 (U1 m) c 3))
    _ = V0 m c (Proc.devRef .tc main_arg5) := keep0 (V0 m c) main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := keep2 (W4 m c) main_arg6 (by decide)
    _ = W3 m c (Proc.devRef .tc main_arg6) := W4_of_ne m c main_arg6 (by decide)
    _ = W2 m c (Proc.devRef .tc main_arg6) := keep1 (W2 m c) main_arg6 (by decide)
    _ = W1 m c (Proc.devRef .tc main_arg6) := W2_of_ne m c main_arg6 (by decide)
    _ = V0 m c (Proc.devRef .tc main_arg6) := keep0 (V0 m c) main_arg6 (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := keep2 (W4 m c) main_arg7 (by decide)
    _ = W3 m c (Proc.devRef .tc main_arg7) := W4_of_ne m c main_arg7 (by decide)
    _ = W2 m c (Proc.devRef .tc main_arg7) := keep1 (W2 m c) main_arg7 (by decide)
    _ = W1 m c (Proc.devRef .tc main_arg7) := W2_of_ne m c main_arg7 (by decide)
    _ = V0 m c (Proc.devRef .tc main_arg7) := keep0 (V0 m c) main_arg7 (by decide)
    _ = m ((c : Thread nD τ).loc main_arg7) := rfl

/-! ## The proof data family and what rides beside the buffers -/

abbrev admF : (p : Fin 2) → (pcfgs (F := F) p).Adm := fun p => (cfgs p).toPCfg_adm
def pd : (p : Fin 2) → (c : Dev nD) → Dat τ (Elt F) Unit ℕ (UR sig nD τ) ℕ (Pipeline.pin (pcfgs (F := F)) admF p) c
  | ⟨0, _⟩ => fun c => dat0 (U1 m) c
  | ⟨1, _⟩ => fun c => dat1 (U3 m) c
abbrev 𝒱F : Variants := Variants.none
abbrev LF : GSem nD τ sig → Finset Unit := fun _ => ∅
abbrev lvF : GSem nD τ sig → Unit → ℕ := fun _ _ => 0
/-- The generator register at some state, and the core owing nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (W5 m c) ∗ ∃ r, prngReg c r)

/-! ## The two regions as segments -/

set_option backward.isDefEq.respectTransparency.types false in
def rg0 : Pipeline.RegionSeg (pcfgs (F := F)) admF (pd m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admF (pd m) launch0.win launch0.arr_whole c
      ((pd m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pd m) ((pd m 0 c).share_full fun _ => rfl)
      (U1 m c) (fun b => W2 m c b) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem PhiA_of1 (c : Dev nD) : iprop((∃ r, prngReg c r) ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, Hr⟩
  isplitl [Hr]; · iexact Hr
  iexact Hp
theorem of_PhiA1 (c : Dev nD) : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
def rg1 : Pipeline.RegionSeg (pcfgs (F := F)) admF (pd m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admF (pd m) launch1.win launch1.arr_whole c
      ((pd m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = (dat1 (U3 m) c).Φ 0 from rfl]
    iintro ⟨Hp, -, Hr⟩
    iapply (hin1 (U3 m) c)
    iapply (PhiA_of1 c)
    isplitl [Hp]; · iexact Hp
    iexact Hr
  hout c := by
    rw [Pipeline.ownSems0_none, show (pd m 1 c).Φ (Fin.last _) = (dat1 (U3 m) c).Φ (Fin.last cfg1.N) from rfl]
    iintro HΦ
    iapply (of_PhiA1 c)
    iapply (hout1 (U3 m) c)
    iexact HΦ
  hexit c := by
    have hjoin := Pipeline.unscopedBufs_of_arrays (p := 1) (pcfgs (F := F)) admF (Ix := Unit) (Name := ℕ) (U := UR sig nD τ) (Lvl := ℕ)
      launch1.win launch1.arr_whole c (pd m) ((pd m 1 c).share_full fun _ => rfl)
      (U3 m c) (fun b => W4 m c b) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

variable (ρ : Dev nD → PrngReg)

abbrev sgs : List (Pipeline.Seg (pcfgs (F := F)) admF (pd m) () defs₀ 𝒱F LF lvF) :=
  [ .host (hsegF hostOps0 hostOps0_sub hostOps0_fresh (V0 m)),
    .region (rg0 m),
    .host (hsegF hostOps1 hostOps1_sub hostOps1_fresh (W2 m)),
    .region (rg1 m),
    .host (hsegF hostOps2 hostOps2_sub hostOps2_fresh (W4 m)) ]
theorem main_run (c : Dev nD) : main (F := F) c = Pipeline.Seg.run (sgs m) := (main_chain c).trans (by chain_rfl)

set_option backward.isDefEq.respectTransparency.types false in
/-- Every weakly fair execution of @main from memory m with zero counters terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admF (pd m) () cellOf_inj emb₁ defs₀ 𝒱F LF lvF m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RF c)) (Tₙ := TnF m)
    (hch := ⟨fun _ => .rfl, fun _ => .rfl, fun _ => .rfl, fun _ => .rfl, fun _ => .rfl, fun c => by
      show iprop(StableHlo.held (c : Thread nD τ) (Pipeline.ucRefs τ sig) (W5 m c) ∗ RF c)
        ⊢ iprop(TnF m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩)
    (run_all m ρ)

end Cert.KernelIdeal.Fr

end
-- ==== Proof.KernelPurePay.lean ====
/-
  The arithmetic of the two kernel bodies, read at one index over the extended reals.

  The projection body computes, for a block of 1024 rows, each row's product with a weight matrix: a format change is
  the identity on extended reals, a leading unit axis neither adds nor moves an entry, and a matrix product into the
  zero accumulator is the sum over the contracted coordinate.  The attention body accumulates, over a block of 1024
  positions n, the value v[c, n] times the sigmoid of the logit Σ_e q[n, e]·k[e, m].
-/
import proofs.«166255_j60060822667534_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelPure

open Cert.KernelIdeal Cert.KernelIdeal.Gen Idealize.ShloMosaic Idealize.ShloMosaic.ValueIdx

/-! ### The product of a [1024, 256] by a [256, 32] matrix -/

theorem mm_x_w32_lhs0 (i : S1024x32.Idx) (q : dot_S1024x256_S256x32_S1024x32_1_0_0_1_n_n.contr.Idx) :
    (dot_S1024x256_S256x32_S1024x32_1_0_0_1_n_n.lhsIdx i q 0).val = (i 0).val := by
  unfold DotDims.lhsIdx
  rw [dif_neg (show ¬(0 : Fin S1024x256.rank) ∈ dot_S1024x256_S256x32_S1024x32_1_0_0_1_n_n.lhsBatch by decide), dif_pos (show (0 : Fin S1024x256.rank) ∈ dot_S1024x256_S256x32_S1024x32_1_0_0_1_n_n.lhsNonContracting by decide)]
  rfl
theorem mm_x_w32_lhs1 (i : S1024x32.Idx) (q : dot_S1024x256_S256x32_S1024x32_1_0_0_1_n_n.contr.Idx) :
    (dot_S1024x256_S256x32_S1024x32_1_0_0_1_n_n.lhsIdx i q 1).val = (q ⟨0, by decide⟩).val :=
  dot_S1024x256_S256x32_S1024x32_1_0_0_1_n_n.lhsIdx_val_of_single rfl i q
theorem mm_x_w32_rhs0 (i : S1024x32.Idx) (q : dot_S1024x256_S256x32_S1024x32_1_0_0_1_n_n.contr.Idx) :
    (dot_S1024x256_S256x32_S1024x32_1_0_0_1_n_n.rhsIdx i q 0).val = (q ⟨0, by decide⟩).val :=
  dot_S1024x256_S256x32_S1024x32_1_0_0_1_n_n.rhsIdx_val_of_single rfl i q
theorem mm_x_w32_rhs1 (i : S1024x32.Idx) (q : dot_S1024x256_S256x32_S1024x32_1_0_0_1_n_n.contr.Idx) :
    (dot_S1024x256_S256x32_S1024x32_1_0_0_1_n_n.rhsIdx i q 1).val = (i 1).val := by
  unfold DotDims.rhsIdx
  rw [dif_neg (show ¬(1 : Fin S256x32.rank) ∈ dot_S1024x256_S256x32_S1024x32_1_0_0_1_n_n.rhsBatch by decide), dif_pos (show (1 : Fin S256x32.rank) ∈ dot_S1024x256_S256x32_S1024x32_1_0_0_1_n_n.rhsNonContracting by decide)]
  rfl

/-- Into the zero accumulator, entry (i, j) of the product is Σ_c lhs[i, c] · rhs[c, j]. -/
theorem mm_x_w32_apply {φ₁ φ₂ : FTy} (lhs : FVec Ideal S1024x256 φ₁) (rhs : FVec Ideal S256x32 φ₂) (i : Fin 1024) (j : Fin 32) :
    matmul (F := Ideal) dot_S1024x256_S256x32_S1024x32_1_0_0_1_n_n none lhs rhs (constant (F := Ideal) S1024x32 .f32 0x00000000#32) (ix2 i j)
      = ∑ c : Fin 256, lhs (ix2 i c) * rhs (ix2 c j) := by
  refine (Ideal.matmul_constant_zero_apply dot_S1024x256_S256x32_S1024x32_1_0_0_1_n_n none lhs rhs (ix2 i j)).trans ?_
  rw [← Equiv.sum_comp (contrEquiv1 dot_S1024x256_S256x32_S1024x32_1_0_0_1_n_n 256 rfl rfl).symm]
  refine Finset.sum_congr rfl fun c _ => ?_
  have hc := contrEquiv1_symm_val dot_S1024x256_S256x32_S1024x32_1_0_0_1_n_n 256 rfl rfl c
  have el : dot_S1024x256_S256x32_S1024x32_1_0_0_1_n_n.lhsIdx (ix2 i j) ((contrEquiv1 dot_S1024x256_S256x32_S1024x32_1_0_0_1_n_n 256 rfl rfl).symm c) = ix2 i c := funext fun a => Fin.ext (by
    match a with
    | ⟨0, _⟩ => exact mm_x_w32_lhs0 _ _
    | ⟨1, _⟩ => exact (mm_x_w32_lhs1 _ _).trans hc)
  have er : dot_S1024x256_S256x32_S1024x32_1_0_0_1_n_n.rhsIdx (ix2 i j) ((contrEquiv1 dot_S1024x256_S256x32_S1024x32_1_0_0_1_n_n 256 rfl rfl).symm c) = ix2 c j := funext fun a => Fin.ext (by
    match a with
    | ⟨0, _⟩ => exact (mm_x_w32_rhs0 _ _).trans hc
    | ⟨1, _⟩ => exact mm_x_w32_rhs1 _ _)
  rw [el, er]

/-! ### The product of a [1024, 256] by a [256, 256] matrix -/

theorem mm_x_w256_lhs0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm_x_w256_lhs1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem mm_x_w256_rhs0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem mm_x_w256_rhs1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Into the zero accumulator, entry (i, j) of the product is Σ_c lhs[i, c] · rhs[c, j]. -/
theorem mm_x_w256_apply {φ₁ φ₂ : FTy} (lhs : FVec Ideal S1024x256 φ₁) (rhs : FVec Ideal S256x256 φ₂) (i : Fin 1024) (j : Fin 256) :
    matmul (F := Ideal) dot_S1024x256_S256x256_S1024x256_1_0_0_1_n_n none lhs rhs (constant (F := Ideal) S1024x256 .f32 0x00000000#32) (ix2 i j)
      = ∑ c : Fin 256, lhs (ix2 i c) * rhs (ix2 c j) := by
  refine (Ideal.matmul_constant_zero_apply dot_S1024x256_S256x256_S1024x256_1_0_0_1_n_n none lhs rhs (ix2 i j)).trans ?_
  rw [← Equiv.sum_comp (contrEquiv1 dot_S1024x256_S256x256_S1024x256_1_0_0_1_n_n 256 rfl rfl).symm]
  refine Finset.sum_congr rfl fun c _ => ?_
  have hc := contrEquiv1_symm_val dot_S1024x256_S256x256_S1024x256_1_0_0_1_n_n 256 rfl rfl c
  have el : dot_S1024x256_S256x256_S1024x256_1_0_0_1_n_n.lhsIdx (ix2 i j) ((contrEquiv1 dot_S1024x256_S256x256_S1024x256_1_0_0_1_n_n 256 rfl rfl).symm c) = ix2 i c := funext fun a => Fin.ext (by
    match a with
    | ⟨0, _⟩ => exact mm_x_w256_lhs0 _ _
    | ⟨1, _⟩ => exact (mm_x_w256_lhs1 _ _).trans hc)
  have er : dot_S1024x256_S256x256_S1024x256_1_0_0_1_n_n.rhsIdx (ix2 i j) ((contrEquiv1 dot_S1024x256_S256x256_S1024x256_1_0_0_1_n_n 256 rfl rfl).symm c) = ix2 c j := funext fun a => Fin.ext (by
    match a with
    | ⟨0, _⟩ => exact (mm_x_w256_rhs0 _ _).trans hc
    | ⟨1, _⟩ => exact mm_x_w256_rhs1 _ _)
  rw [el, er]

/-! ### The product of a [1024, 32] by a [32, 1024] matrix -/

theorem mm_q_k_lhs0 (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem mm_q_k_lhs1 (i : S1024x1024.Idx) (q : dot_S1024x32_S32x1024_S1024x1024_1_0_0_1_n_n.contr.Idx) :
    (dot_S1024x32_S32x1024_S1024x1024_1_0_0_1_n_n.lhsIdx i q 1).val = (q ⟨0, by decide⟩).val :=
  dot_S1024x32_S32x1024_S1024x1024_1_0_0_1_n_n.lhsIdx_val_of_single rfl i q
theorem mm_q_k_rhs0 (i : S1024x1024.Idx) (q : dot_S1024x32_S32x1024_S1024x1024_1_0_0_1_n_n.contr.Idx) :
    (dot_S1024x32_S32x1024_S1024x1024_1_0_0_1_n_n.rhsIdx i q 0).val = (q ⟨0, by decide⟩).val :=
  dot_S1024x32_S32x1024_S1024x1024_1_0_0_1_n_n.rhsIdx_val_of_single rfl i q
theorem mm_q_k_rhs1 (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- Into the zero accumulator, entry (i, j) of the product is Σ_c lhs[i, c] · rhs[c, j]. -/
theorem mm_q_k_apply {φ₁ φ₂ : FTy} (lhs : FVec Ideal S1024x32 φ₁) (rhs : FVec Ideal S32x1024 φ₂) (i : Fin 1024) (j : Fin 1024) :
    matmul (F := Ideal) dot_S1024x32_S32x1024_S1024x1024_1_0_0_1_n_n none lhs rhs (constant (F := Ideal) S1024x1024 .f32 0x00000000#32) (ix2 i j)
      = ∑ c : Fin 32, lhs (ix2 i c) * rhs (ix2 c j) := by
  refine (Ideal.matmul_constant_zero_apply dot_S1024x32_S32x1024_S1024x1024_1_0_0_1_n_n none lhs rhs (ix2 i j)).trans ?_
  rw [← Equiv.sum_comp (contrEquiv1 dot_S1024x32_S32x1024_S1024x1024_1_0_0_1_n_n 32 rfl rfl).symm]
  refine Finset.sum_congr rfl fun c _ => ?_
  have hc := contrEquiv1_symm_val dot_S1024x32_S32x1024_S1024x1024_1_0_0_1_n_n 32 rfl rfl c
  have el : dot_S1024x32_S32x1024_S1024x1024_1_0_0_1_n_n.lhsIdx (ix2 i j) ((contrEquiv1 dot_S1024x32_S32x1024_S1024x1024_1_0_0_1_n_n 32 rfl rfl).symm c) = ix2 i c := funext fun a => Fin.ext (by
    match a with
    | ⟨0, _⟩ => exact mm_q_k_lhs0 _ _
    | ⟨1, _⟩ => exact (mm_q_k_lhs1 _ _).trans hc)
  have er : dot_S1024x32_S32x1024_S1024x1024_1_0_0_1_n_n.rhsIdx (ix2 i j) ((contrEquiv1 dot_S1024x32_S32x1024_S1024x1024_1_0_0_1_n_n 32 rfl rfl).symm c) = ix2 c j := funext fun a => Fin.ext (by
    match a with
    | ⟨0, _⟩ => exact (mm_q_k_rhs0 _ _).trans hc
    | ⟨1, _⟩ => exact mm_q_k_rhs1 _ _)
  rw [el, er]

/-! ### The product of a [256, 1024] by a [1024, 1024] matrix -/

theorem mm_v_p_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mm_v_p_lhs1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem mm_v_p_rhs0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem mm_v_p_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Into the zero accumulator, entry (i, j) of the product is Σ_c lhs[i, c] · rhs[c, j]. -/
theorem mm_v_p_apply {φ₁ φ₂ : FTy} (lhs : FVec Ideal S256x1024 φ₁) (rhs : FVec Ideal S1024x1024 φ₂) (i : Fin 256) (j : Fin 1024) :
    matmul (F := Ideal) dot_S256x1024_S1024x1024_S256x1024_1_0_0_1_n_n none lhs rhs (constant (F := Ideal) S256x1024 .f32 0x00000000#32) (ix2 i j)
      = ∑ c : Fin 1024, lhs (ix2 i c) * rhs (ix2 c j) := by
  refine (Ideal.matmul_constant_zero_apply dot_S256x1024_S1024x1024_S256x1024_1_0_0_1_n_n none lhs rhs (ix2 i j)).trans ?_
  rw [← Equiv.sum_comp (contrEquiv1 dot_S256x1024_S1024x1024_S256x1024_1_0_0_1_n_n 1024 rfl rfl).symm]
  refine Finset.sum_congr rfl fun c _ => ?_
  have hc := contrEquiv1_symm_val dot_S256x1024_S1024x1024_S256x1024_1_0_0_1_n_n 1024 rfl rfl c
  have el : dot_S256x1024_S1024x1024_S256x1024_1_0_0_1_n_n.lhsIdx (ix2 i j) ((contrEquiv1 dot_S256x1024_S1024x1024_S256x1024_1_0_0_1_n_n 1024 rfl rfl).symm c) = ix2 i c := funext fun a => Fin.ext (by
    match a with
    | ⟨0, _⟩ => exact mm_v_p_lhs0 _ _
    | ⟨1, _⟩ => exact (mm_v_p_lhs1 _ _).trans hc)
  have er : dot_S256x1024_S1024x1024_S256x1024_1_0_0_1_n_n.rhsIdx (ix2 i j) ((contrEquiv1 dot_S256x1024_S1024x1024_S256x1024_1_0_0_1_n_n 1024 rfl rfl).symm c) = ix2 c j := funext fun a => Fin.ext (by
    match a with
    | ⟨0, _⟩ => exact (mm_v_p_rhs0 _ _).trans hc
    | ⟨1, _⟩ => exact mm_v_p_rhs1 _ _)
  rw [el, er]

/-! ## The projection body -/

/-- A block of the projection: entry (r, d) is Σ_c x[r, c] · w[c, d]. -/
theorem pay_q (x0 : Vec Ideal S1x1024x256 .f32) (w : Vec Ideal S256x32 .f32) (r : Fin 1024) (d : Fin 32) :
    k0_pay2 (F := Ideal) x0 w (ix3 (0 : Fin 1) r d) = ∑ c : Fin 256, x0 (ix3 (0 : Fin 1) r c) * w (ix2 c d) := by
  unfold k0_pay2 k0_pay1
  dsimp only
  refine (shapeCast_ab_1ab_apply _ _ (0 : Fin 1) r d).trans ?_
  refine (truncf_apply (ψ := .bf16) _ bitsLt_bf16_f32 _).trans ?_
  refine (mm_x_w32_apply _ _ r d).trans ?_
  refine Finset.sum_congr rfl fun c _ => ?_
  rw [truncf_apply, truncf_apply, shapeCast_1ab_ab_apply]

/-- A block of the projection: entry (r, d) is Σ_c x[r, c] · w[c, d]. -/
theorem pay_k (x0 : Vec Ideal S1x1024x256 .f32) (w : Vec Ideal S256x32 .f32) (r : Fin 1024) (d : Fin 32) :
    k0_pay3 (F := Ideal) x0 w (ix3 (0 : Fin 1) r d) = ∑ c : Fin 256, x0 (ix3 (0 : Fin 1) r c) * w (ix2 c d) := by
  unfold k0_pay3 k0_pay1
  dsimp only
  refine (shapeCast_ab_1ab_apply _ _ (0 : Fin 1) r d).trans ?_
  refine (truncf_apply (ψ := .bf16) _ bitsLt_bf16_f32 _).trans ?_
  refine (mm_x_w32_apply _ _ r d).trans ?_
  refine Finset.sum_congr rfl fun c _ => ?_
  rw [truncf_apply, truncf_apply, shapeCast_1ab_ab_apply]

/-- A block of the projection: entry (r, d) is Σ_c x[r, c] · w[c, d]. -/
theorem pay_v (x0 : Vec Ideal S1x1024x256 .f32) (w : Vec Ideal S256x256 .f32) (r : Fin 1024) (d : Fin 256) :
    k0_pay4 (F := Ideal) x0 w (ix3 (0 : Fin 1) r d) = ∑ c : Fin 256, x0 (ix3 (0 : Fin 1) r c) * w (ix2 c d) := by
  unfold k0_pay4 k0_pay1
  dsimp only
  refine (shapeCast_ab_1ab_apply _ _ (0 : Fin 1) r d).trans ?_
  refine (truncf_apply (ψ := .bf16) _ bitsLt_bf16_f32 _).trans ?_
  refine (mm_x_w256_apply _ _ r d).trans ?_
  refine Finset.sum_congr rfl fun c _ => ?_
  rw [truncf_apply, truncf_apply, shapeCast_1ab_ab_apply]

/-! ## The attention body's initial value and its stored block -/

/-- The accumulator's initial value is zero everywhere. -/
theorem pay_zero (c : Fin 256) (mm : Fin 1024) : k1_pay1 (F := Ideal) (ix2 c mm) = 0 := by
  unfold k1_pay1
  rw [shapeCast_self]
  exact Ideal.ofBits_zero_f32

/-- The stored block is the accumulator with a leading unit axis. -/
theorem pay_out (a : Vec Ideal S256x1024 .f32) (c : Fin 256) (mm : Fin 1024) :
    k1_pay3 (F := Ideal) a (ix3 (0 : Fin 1) c mm) = a (ix2 c mm) := by
  unfold k1_pay3
  exact shapeCast_ab_1ab_apply a _ (0 : Fin 1) c mm

/-! ## The attention body's accumulation step -/

/-- The sigmoid of a vector, read at an index. -/
theorem logistic_apply {s : Shape} {φ : FTy} (x : FVec Ideal s φ) (i : s.Idx) :
    Idealize.ShloMosaic.logistic x i = Ideal.logistic (x i) := rfl

/-- One step over a block of 1024 positions n: the accumulator gains Σ_n v[c, n] · σ(Σ_e q[n, e] · k[e, m]). -/
theorem pay_acc (q : Vec Ideal S1x1024x32 .bf16) (k : Vec Ideal S1x32x1024 .bf16) (v : Vec Ideal S1x256x1024 .bf16)
    (acc : Vec Ideal S256x1024 .f32) (c : Fin 256) (mm : Fin 1024) :
    k1_pay2 (F := Ideal) q k v acc (ix2 c mm)
      = acc (ix2 c mm) + ∑ n : Fin 1024, v (ix3 (0 : Fin 1) c n)
          * Ideal.logistic (∑ e : Fin 32, q (ix3 (0 : Fin 1) n e) * k (ix3 (0 : Fin 1) e mm)) := by
  unfold k1_pay2
  rw [shapeCast_self]
  refine (addf_apply _ _ _).trans ?_
  refine congrArg (acc (ix2 c mm) + ·) ?_
  refine (mm_v_p_apply _ _ c mm).trans ?_
  refine Finset.sum_congr rfl fun n _ => ?_
  rw [shapeCast_1ab_ab_apply, truncf_apply, logistic_apply]
  refine congrArg (fun t => v (ix3 (0 : Fin 1) c n) * Ideal.logistic t) ?_
  refine (mm_q_k_apply _ _ n mm).trans ?_
  refine Finset.sum_congr rfl fun e _ => ?_
  rw [shapeCast_1ab_ab_apply, shapeCast_1ab_ab_apply]

end Cert.KernelPure

end
-- ==== Proof.KI.Value0.lean ====
/-
  The first kernel region's three output arrays, read at an index.

  At grid point t = 4 b + i the body writes rows [1024 i, 1024 (i+1)) of batch b of each projection array: entry (r, d)
  of the block is the sum over the 256 channels of the pixel block's entry (r, k) times the weight's entry (k, d).
  The pixel block is rows [1024 i, 1024 (i+1)) of batch b of the pixel array and the weights are whole, so what
  every point writes back is its block of ONE function of the region's input arrays, and the 32 blocks cover each
  output array: row r of batch b lies in the block of the point 4 b + r / 1024.
-/
import proofs.«166255_j60060822667534_1_alg».proof.Proof.KI.Region0
import proofs.«166255_j60060822667534_1_alg».proof.Proof.KernelPurePay
import Idealize.ShloMosaic.Lib.Pipeline.Value

set_option maxRecDepth 16384

noncomputable section

namespace Cert.KernelIdeal.Fr0

open Cert.KernelIdeal Cert.KernelIdeal.Gen Cert.KernelIdeal.Fr Idealize.ShloMosaic Idealize.ShloMosaic.ValueIdx
open Idealize.ShloMosaic.Pipeline Idealize.ShloMosaic.TcCoe

/-! ## The function each output array ends holding -/

/-- Entry (b, r, d) of a projection: Σ_k X[b, r, k] · W[k, d]. -/
def PqAt (X : S8x4096x256.Idx → EReal) (W : S256x32.Idx → EReal) (b : Fin 8) (r : Fin 4096) (d : Fin 32) : EReal :=
  ∑ k : Fin 256, X (ix3 b r k) * W (ix2 k d)
/-- The projection array [8, 4096, 32]. -/
def Pq (X : S8x4096x256.Idx → EReal) (W : S256x32.Idx → EReal) : S8x4096x32.Idx → EReal :=
  fun i => PqAt X W (i 0) (i 1) (i 2)
/-- Entry (b, r, d) of the value projection: Σ_k X[b, r, k] · W[k, d]. -/
def PvAt (X : S8x4096x256.Idx → EReal) (W : S256x256.Idx → EReal) (b : Fin 8) (r : Fin 4096) (d : Fin 256) : EReal :=
  ∑ k : Fin 256, X (ix3 b r k) * W (ix2 k d)
/-- The value projection array [8, 4096, 256]. -/
def Pv (X : S8x4096x256.Idx → EReal) (W : S256x256.Idx → EReal) : S8x4096x256.Idx → EReal :=
  fun i => PvAt X W (i 0) (i 1) (i 2)

theorem PqAt_def (X : S8x4096x256.Idx → EReal) (W : S256x32.Idx → EReal) (b : Fin 8) (r : Fin 4096) (d : Fin 32) :
    PqAt X W b r d = ∑ k : Fin 256, X (ix3 b r k) * W (ix2 k d) := rfl
theorem PvAt_def (X : S8x4096x256.Idx → EReal) (W : S256x256.Idx → EReal) (b : Fin 8) (r : Fin 4096) (d : Fin 256) :
    PvAt X W b r d = ∑ k : Fin 256, X (ix3 b r k) * W (ix2 k d) := rfl

/-! ## The body's result block at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- Every index of a [1, 1024, n] block has leading coordinate 0. -/
theorem eq_ix3_unit {n : Nat} (y : (⟨3, ![1, 1024, n]⟩ : Shape).Idx) : y = ix3 (0 : Fin 1) (y 1) (y 2) := by
  funext a
  refine Fin.ext ?_
  match a with
  | ⟨0, _⟩ =>
    have h : (y 0).val < 1 := (y 0).isLt
    show (y 0).val = 0
    omega
  | ⟨1, _⟩ => rfl
  | ⟨2, _⟩ => rfl

/-- The query block the body leaves: entry (r, d) is Σ_k x[r, k] · w[k, d]. -/
theorem out_q_apply (x0 : Vec Ideal S1x1024x256 .f32) (w : Vec Ideal S256x32 .f32) (r : Fin 1024) (d : Fin 32) :
    out0_4 (F := Ideal) x0 w (ix3 (0 : Fin 1) r d) = ∑ k : Fin 256, x0 (ix3 (0 : Fin 1) r k) * w (ix2 k d) := by
  unfold out0_4
  rw [View.canon_unit_zero hz3]
  simp only [View.ld_unit_zero (S := S1x1024x256) hz3, View.ld_unit_zero (S := S256x32) hz2]
  exact Cert.KernelPure.pay_q x0 w r d

/-- The key block the body leaves: entry (r, d) is Σ_k x[r, k] · w[k, d]. -/
theorem out_k_apply (x0 : Vec Ideal S1x1024x256 .f32) (w : Vec Ideal S256x32 .f32) (r : Fin 1024) (d : Fin 32) :
    out0_5 (F := Ideal) x0 w (ix3 (0 : Fin 1) r d) = ∑ k : Fin 256, x0 (ix3 (0 : Fin 1) r k) * w (ix2 k d) := by
  unfold out0_5
  rw [View.canon_unit_zero hz3]
  simp only [View.ld_unit_zero (S := S1x1024x256) hz3, View.ld_unit_zero (S := S256x32) hz2]
  exact Cert.KernelPure.pay_k x0 w r d

/-- The value block the body leaves: entry (r, d) is Σ_k x[r, k] · w[k, d]. -/
theorem out_v_apply (x0 : Vec Ideal S1x1024x256 .f32) (w : Vec Ideal S256x256 .f32) (r : Fin 1024) (d : Fin 256) :
    out0_6 (F := Ideal) x0 w (ix3 (0 : Fin 1) r d) = ∑ k : Fin 256, x0 (ix3 (0 : Fin 1) r k) * w (ix2 k d) := by
  unfold out0_6
  rw [View.canon_unit_zero hz3]
  simp only [View.ld_unit_zero (S := S1x1024x256) hz3, View.ld_unit_zero (S := S256x256) hz2]
  exact Cert.KernelPure.pay_v x0 w r d

/-! ## The index maps, decided over the grid -/

theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)
theorem idx5 : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, _)
theorem idx6 : ∀ t : Fin cfg0.N, win0_6.index t (0 : Fin 3) = t.val / 4 ∧ win0_6.index t (1 : Fin 3) = t.val % 4
    ∧ win0_6.index t (2 : Fin 3) = 0 :=
  (by decide +kernel : ∀ t : Fin grid0.N, _)

section Arrays
variable (V : (c : Dev nD) → (b : Ref sig .tc) → Buf (Elt Ideal) ((c : Thread nD τ).loc b)) (c : Dev nD)

/-! ## An input block is the region's input array read where the point's rectangle says -/

/-- The pixel block at point t = 4 b + i: entry (0, r, k) is entry (b, 1024 i + r, k) of the pixel array. -/
theorem blkX_at (t : Fin cfg0.N) (r : Fin 1024) (k : Fin 256) (i : S8x4096x256.Idx) (h0 : (i 0).val = t.val / 4)
    (h1 : (i 1).val = t.val % 4 * 1024 + r.val) (h2 : (i 2).val = k.val) :
    iblk0 (F := Ideal) V c 0 t (ix3 (0 : Fin 1) r k) = V c (Pipeline.arrRef spec0 0) i := by
  obtain ⟨e0, e1, e2⟩ := idx0 t
  show V c (Pipeline.arrRef spec0 0) (((cfg0.win 0).blk t).view.emb (ix3 (0 : Fin 1) r k)) = _
  refine congrArg _ ?_
  funext a
  refine Fin.ext ?_
  match a with
  | ⟨0, _⟩ =>
    show win0_0.index t (0 : Fin 3) * 1 + 1 * 0 = (i 0).val
    omega
  | ⟨1, _⟩ =>
    show win0_0.index t (1 : Fin 3) * 1024 + 1 * r.val = (i 1).val
    omega
  | ⟨2, _⟩ =>
    show win0_0.index t (2 : Fin 3) * 256 + 1 * k.val = (i 2).val
    omega

/-- The query weights' block at every point is the whole matrix. -/
theorem blkWq_at (t : Fin cfg0.N) (k : Fin 256) (d : Fin 32) (i : S256x32.Idx) (h0 : (i 0).val = k.val) (h1 : (i 1).val = d.val) :
    iblk0 (F := Ideal) V c 1 t (ix2 k d) = V c (Pipeline.arrRef spec0 1) i := by
  obtain ⟨e0, e1⟩ := idx1 t
  show V c (Pipeline.arrRef spec0 1) (((cfg0.win 1).blk t).view.emb (ix2 k d)) = _
  refine congrArg _ ?_
  funext a
  refine Fin.ext ?_
  match a with
  | ⟨0, _⟩ =>
    show win0_1.index t (0 : Fin 2) * 256 + 1 * k.val = (i 0).val
    omega
  | ⟨1, _⟩ =>
    show win0_1.index t (1 : Fin 2) * 32 + 1 * d.val = (i 1).val
    omega

/-! ## What a point writes back is its block of the projection -/

theorem flushed_q (t : Fin cfg0.N) :
    (dat0 (F := Ideal) V c).flushed 4 t
      = ((cfg0.win 4).blk t).view.read (Elt Ideal) (Pq (V c (Pipeline.arrRef spec0 0)) (V c (Pipeline.arrRef spec0 1))) := by
  show (cfg0.win 4).cut (grid0.coords t) ((dat0 V c).after 4 t) = _
  rw [after0_4]
  obtain ⟨f0, f1, f2⟩ := idx4 t
  funext j
  have hj0 : (j 0).val < 1 := (j 0).isLt
  have hj1 : (j 1).val < 1024 := (j 1).isLt
  have hj2 : (j 2).val < 32 := (j 2).isLt
  have hy : (cfg0.win 4).xinj (grid0.coords t) j = ix3 (0 : Fin 1) (⟨(j 1).val, hj1⟩ : Fin 1024) (⟨(j 2).val, hj2⟩ : Fin 32) := by
    funext a
    refine Fin.ext ?_
    match a with
    | ⟨0, _⟩ =>
      show (j 0).val = 0
      omega
    | ⟨1, _⟩ => rfl
    | ⟨2, _⟩ => rfl
  refine (congrArg (out0_4 (F := Ideal) (iblk0 V c 0 t) (iblk0 V c 1 t)) hy).trans ?_
  refine (out_q_apply _ _ _ _).trans ?_
  show _ = PqAt (V c (Pipeline.arrRef spec0 0)) (V c (Pipeline.arrRef spec0 1)) ((((cfg0.win 4).blk t).view.emb j) 0)
    ((((cfg0.win 4).blk t).view.emb j) 1) ((((cfg0.win 4).blk t).view.emb j) 2)
  unfold PqAt
  refine Finset.sum_congr rfl fun k _ => ?_
  rw [blkX_at V c t ⟨(j 1).val, hj1⟩ k (ix3 ((((cfg0.win 4).blk t).view.emb j) 0) ((((cfg0.win 4).blk t).view.emb j) 1) k)
      (by show win0_4.index t (0 : Fin 3) * 1 + 1 * (j 0).val = t.val / 4; omega)
      (by show win0_4.index t (1 : Fin 3) * 1024 + 1 * (j 1).val = t.val % 4 * 1024 + (j 1).val; omega)
      rfl,
    blkWq_at V c t k ⟨(j 2).val, hj2⟩ (ix2 k ((((cfg0.win 4).blk t).view.emb j) 2)) rfl
      (by show win0_4.index t (2 : Fin 3) * 32 + 1 * (j 2).val = (j 2).val; omega)]

/-! ## The blocks cover the array -/

/-- An index of the query array is in point t's block iff each coordinate is in the block's range on its axis. -/
theorem mem_blk_q (t : Fin cfg0.N) (i : S8x4096x32.Idx) :
    i ∈ ((cfg0.win 4).blk t).view.set ↔ ∀ a : Fin 3, win0_4.index t a * S1x1024x32.size a ≤ (i a).val
      ∧ (i a).val < win0_4.index t a * S1x1024x32.size a + S1x1024x32.size a := by
  show i ∈ ((View.whole main_v1_0).slice (win0_4.rect t)).set ↔ _
  rw [View.set_slice_whole, Rect.mem_set_unit]
  exact Iff.rfl

/-- Row r of batch b lies in the block of the point 4 b + r / 1024. -/
theorem cover_q (i : S8x4096x32.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 32 := (i 2).isLt
  have hN : cfg0.N = 32 := N_0
  have ht : 4 * (i 0).val + (i 1).val / 1024 < cfg0.N := by rw [hN]; omega
  obtain ⟨f0, f1, f2⟩ := idx4 ⟨4 * (i 0).val + (i 1).val / 1024, ht⟩
  have f0' : win0_4.index ⟨4 * (i 0).val + (i 1).val / 1024, ht⟩ (0 : Fin 3) = (4 * (i 0).val + (i 1).val / 1024) / 4 := f0
  have f1' : win0_4.index ⟨4 * (i 0).val + (i 1).val / 1024, ht⟩ (1 : Fin 3) = (4 * (i 0).val + (i 1).val / 1024) % 4 := f1
  refine ⟨⟨4 * (i 0).val + (i 1).val / 1024, ht⟩, flush0_4 _, ?_⟩
  rw [mem_blk_q]
  intro a
  match a with
  | ⟨0, _⟩ =>
    show win0_4.index ⟨4 * (i 0).val + (i 1).val / 1024, ht⟩ (0 : Fin 3) * 1 ≤ (i 0).val
      ∧ (i 0).val < win0_4.index ⟨4 * (i 0).val + (i 1).val / 1024, ht⟩ (0 : Fin 3) * 1 + 1
    omega
  | ⟨1, _⟩ =>
    show win0_4.index ⟨4 * (i 0).val + (i 1).val / 1024, ht⟩ (1 : Fin 3) * 1024 ≤ (i 1).val
      ∧ (i 1).val < win0_4.index ⟨4 * (i 0).val + (i 1).val / 1024, ht⟩ (1 : Fin 3) * 1024 + 1024
    omega
  | ⟨2, _⟩ =>
    show win0_4.index ⟨4 * (i 0).val + (i 1).val / 1024, ht⟩ (2 : Fin 3) * 32 ≤ (i 2).val
      ∧ (i 2).val < win0_4.index ⟨4 * (i 0).val + (i 1).val / 1024, ht⟩ (2 : Fin 3) * 32 + 32
    omega

/-! ## The array after the region -/

/-- After the region the query array is the projection of the region's pixel array by the query weights. -/
theorem arr_q_eq : (dat0 (F := Ideal) V c).arrAt 4 cfg0.N = Pq (V c (Pipeline.arrRef spec0 0)) (V c (Pipeline.arrRef spec0 1)) :=
  (dat0 (F := Ideal) V c).arrAt_eq_of_cover 4 (Pq (V c (Pipeline.arrRef spec0 0)) (V c (Pipeline.arrRef spec0 1)))
    (fun t _ => flushed_q V c t) (fun i => cover_q i)

/-- Entry (b, r, d) of the query array after the region. -/
theorem arr_q (b : Fin 8) (r : Fin 4096) (d : Fin 32) :
    (dat0 (F := Ideal) V c).arrAt 4 cfg0.N (ix3 b r d)
      = PqAt (V c (Pipeline.arrRef spec0 0)) (V c (Pipeline.arrRef spec0 1)) b r d :=
  congrFun (arr_q_eq V c) (ix3 b r d)

/-! ## The key array -/

/-- The key weights' block at every point is the whole matrix. -/
theorem blkWk_at (t : Fin cfg0.N) (k : Fin 256) (d : Fin 32) (i : S256x32.Idx) (h0 : (i 0).val = k.val) (h1 : (i 1).val = d.val) :
    iblk0 (F := Ideal) V c 2 t (ix2 k d) = V c (Pipeline.arrRef spec0 2) i := by
  obtain ⟨e0, e1⟩ := idx2 t
  show V c (Pipeline.arrRef spec0 2) (((cfg0.win 2).blk t).view.emb (ix2 k d)) = _
  refine congrArg _ ?_
  funext a
  refine Fin.ext ?_
  match a with
  | ⟨0, _⟩ =>
    show win0_2.index t (0 : Fin 2) * 256 + 1 * k.val = (i 0).val
    omega
  | ⟨1, _⟩ =>
    show win0_2.index t (1 : Fin 2) * 32 + 1 * d.val = (i 1).val
    omega

theorem flushed_k (t : Fin cfg0.N) :
    (dat0 (F := Ideal) V c).flushed 5 t
      = ((cfg0.win 5).blk t).view.read (Elt Ideal) (Pq (V c (Pipeline.arrRef spec0 0)) (V c (Pipeline.arrRef spec0 2))) := by
  show (cfg0.win 5).cut (grid0.coords t) ((dat0 V c).after 5 t) = _
  rw [after0_5]
  obtain ⟨f0, f1, f2⟩ := idx5 t
  funext j
  have hj0 : (j 0).val < 1 := (j 0).isLt
  have hj1 : (j 1).val < 1024 := (j 1).isLt
  have hj2 : (j 2).val < 32 := (j 2).isLt
  have hy : (cfg0.win 5).xinj (grid0.coords t) j = ix3 (0 : Fin 1) (⟨(j 1).val, hj1⟩ : Fin 1024) (⟨(j 2).val, hj2⟩ : Fin 32) := by
    funext a
    refine Fin.ext ?_
    match a with
    | ⟨0, _⟩ =>
      show (j 0).val = 0
      omega
    | ⟨1, _⟩ => rfl
    | ⟨2, _⟩ => rfl
  refine (congrArg (out0_5 (F := Ideal) (iblk0 V c 0 t) (iblk0 V c 2 t)) hy).trans ?_
  refine (out_k_apply _ _ _ _).trans ?_
  show _ = PqAt (V c (Pipeline.arrRef spec0 0)) (V c (Pipeline.arrRef spec0 2)) ((((cfg0.win 5).blk t).view.emb j) 0)
    ((((cfg0.win 5).blk t).view.emb j) 1) ((((cfg0.win 5).blk t).view.emb j) 2)
  unfold PqAt
  refine Finset.sum_congr rfl fun k _ => ?_
  rw [blkX_at V c t ⟨(j 1).val, hj1⟩ k (ix3 ((((cfg0.win 5).blk t).view.emb j) 0) ((((cfg0.win 5).blk t).view.emb j) 1) k)
      (by show win0_5.index t (0 : Fin 3) * 1 + 1 * (j 0).val = t.val / 4; omega)
      (by show win0_5.index t (1 : Fin 3) * 1024 + 1 * (j 1).val = t.val % 4 * 1024 + (j 1).val; omega)
      rfl,
    blkWk_at V c t k ⟨(j 2).val, hj2⟩ (ix2 k ((((cfg0.win 5).blk t).view.emb j) 2)) rfl
      (by show win0_5.index t (2 : Fin 3) * 32 + 1 * (j 2).val = (j 2).val; omega)]

/-- An index of the key array is in point t's block iff each coordinate is in the block's range on its axis. -/
theorem mem_blk_k (t : Fin cfg0.N) (i : S8x4096x32.Idx) :
    i ∈ ((cfg0.win 5).blk t).view.set ↔ ∀ a : Fin 3, win0_5.index t a * S1x1024x32.size a ≤ (i a).val
      ∧ (i a).val < win0_5.index t a * S1x1024x32.size a + S1x1024x32.size a := by
  show i ∈ ((View.whole main_v1_1).slice (win0_5.rect t)).set ↔ _
  rw [View.set_slice_whole, Rect.mem_set_unit]
  exact Iff.rfl

/-- Row r of batch b lies in the block of the point 4 b + r / 1024. -/
theorem cover_k (i : S8x4096x32.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 32 := (i 2).isLt
  have hN : cfg0.N = 32 := N_0
  have ht : 4 * (i 0).val + (i 1).val / 1024 < cfg0.N := by rw [hN]; omega
  obtain ⟨f0, f1, f2⟩ := idx5 ⟨4 * (i 0).val + (i 1).val / 1024, ht⟩
  have f0' : win0_5.index ⟨4 * (i 0).val + (i 1).val / 1024, ht⟩ (0 : Fin 3) = (4 * (i 0).val + (i 1).val / 1024) / 4 := f0
  have f1' : win0_5.index ⟨4 * (i 0).val + (i 1).val / 1024, ht⟩ (1 : Fin 3) = (4 * (i 0).val + (i 1).val / 1024) % 4 := f1
  refine ⟨⟨4 * (i 0).val + (i 1).val / 1024, ht⟩, flush0_5 _, ?_⟩
  rw [mem_blk_k]
  intro a
  match a with
  | ⟨0, _⟩ =>
    show win0_5.index ⟨4 * (i 0).val + (i 1).val / 1024, ht⟩ (0 : Fin 3) * 1 ≤ (i 0).val
      ∧ (i 0).val < win0_5.index ⟨4 * (i 0).val + (i 1).val / 1024, ht⟩ (0 : Fin 3) * 1 + 1
    omega
  | ⟨1, _⟩ =>
    show win0_5.index ⟨4 * (i 0).val + (i 1).val / 1024, ht⟩ (1 : Fin 3) * 1024 ≤ (i 1).val
      ∧ (i 1).val < win0_5.index ⟨4 * (i 0).val + (i 1).val / 1024, ht⟩ (1 : Fin 3) * 1024 + 1024
    omega
  | ⟨2, _⟩ =>
    show win0_5.index ⟨4 * (i 0).val + (i 1).val / 1024, ht⟩ (2 : Fin 3) * 32 ≤ (i 2).val
      ∧ (i 2).val < win0_5.index ⟨4 * (i 0).val + (i 1).val / 1024, ht⟩ (2 : Fin 3) * 32 + 32
    omega

/-- After the region the key array is the projection of the region's pixel array by the key weights. -/
theorem arr_k_eq : (dat0 (F := Ideal) V c).arrAt 5 cfg0.N = Pq (V c (Pipeline.arrRef spec0 0)) (V c (Pipeline.arrRef spec0 2)) :=
  (dat0 (F := Ideal) V c).arrAt_eq_of_cover 5 (Pq (V c (Pipeline.arrRef spec0 0)) (V c (Pipeline.arrRef spec0 2)))
    (fun t _ => flushed_k V c t) (fun i => cover_k i)

/-- Entry (b, r, d) of the key array after the region. -/
theorem arr_k (b : Fin 8) (r : Fin 4096) (d : Fin 32) :
    (dat0 (F := Ideal) V c).arrAt 5 cfg0.N (ix3 b r d)
      = PqAt (V c (Pipeline.arrRef spec0 0)) (V c (Pipeline.arrRef spec0 2)) b r d :=
  congrFun (arr_k_eq V c) (ix3 b r d)

/-! ## The value array -/

/-- The value weights' block at every point is the whole matrix. -/
theorem blkWv_at (t : Fin cfg0.N) (k : Fin 256) (d : Fin 256) (i : S256x256.Idx) (h0 : (i 0).val = k.val) (h1 : (i 1).val = d.val) :
    iblk0 (F := Ideal) V c 3 t (ix2 k d) = V c (Pipeline.arrRef spec0 3) i := by
  obtain ⟨e0, e1⟩ := idx3 t
  show V c (Pipeline.arrRef spec0 3) (((cfg0.win 3).blk t).view.emb (ix2 k d)) = _
  refine congrArg _ ?_
  funext a
  refine Fin.ext ?_
  match a with
  | ⟨0, _⟩ =>
    show win0_3.index t (0 : Fin 2) * 256 + 1 * k.val = (i 0).val
    omega
  | ⟨1, _⟩ =>
    show win0_3.index t (1 : Fin 2) * 256 + 1 * d.val = (i 1).val
    omega

theorem flushed_v (t : Fin cfg0.N) :
    (dat0 (F := Ideal) V c).flushed 6 t
      = ((cfg0.win 6).blk t).view.read (Elt Ideal) (Pv (V c (Pipeline.arrRef spec0 0)) (V c (Pipeline.arrRef spec0 3))) := by
  show (cfg0.win 6).cut (grid0.coords t) ((dat0 V c).after 6 t) = _
  rw [after0_6]
  obtain ⟨f0, f1, f2⟩ := idx6 t
  funext j
  have hj0 : (j 0).val < 1 := (j 0).isLt
  have hj1 : (j 1).val < 1024 := (j 1).isLt
  have hj2 : (j 2).val < 256 := (j 2).isLt
  have hy : (cfg0.win 6).xinj (grid0.coords t) j = ix3 (0 : Fin 1) (⟨(j 1).val, hj1⟩ : Fin 1024) (⟨(j 2).val, hj2⟩ : Fin 256) := by
    funext a
    refine Fin.ext ?_
    match a with
    | ⟨0, _⟩ =>
      show (j 0).val = 0
      omega
    | ⟨1, _⟩ => rfl
    | ⟨2, _⟩ => rfl
  refine (congrArg (out0_6 (F := Ideal) (iblk0 V c 0 t) (iblk0 V c 3 t)) hy).trans ?_
  refine (out_v_apply _ _ _ _).trans ?_
  show _ = PvAt (V c (Pipeline.arrRef spec0 0)) (V c (Pipeline.arrRef spec0 3)) ((((cfg0.win 6).blk t).view.emb j) 0)
    ((((cfg0.win 6).blk t).view.emb j) 1) ((((cfg0.win 6).blk t).view.emb j) 2)
  unfold PvAt
  refine Finset.sum_congr rfl fun k _ => ?_
  rw [blkX_at V c t ⟨(j 1).val, hj1⟩ k (ix3 ((((cfg0.win 6).blk t).view.emb j) 0) ((((cfg0.win 6).blk t).view.emb j) 1) k)
      (by show win0_6.index t (0 : Fin 3) * 1 + 1 * (j 0).val = t.val / 4; omega)
      (by show win0_6.index t (1 : Fin 3) * 1024 + 1 * (j 1).val = t.val % 4 * 1024 + (j 1).val; omega)
      rfl,
    blkWv_at V c t k ⟨(j 2).val, hj2⟩ (ix2 k ((((cfg0.win 6).blk t).view.emb j) 2)) rfl
      (by show win0_6.index t (2 : Fin 3) * 256 + 1 * (j 2).val = (j 2).val; omega)]

/-- An index of the value array is in point t's block iff each coordinate is in the block's range on its axis. -/
theorem mem_blk_v (t : Fin cfg0.N) (i : S8x4096x256.Idx) :
    i ∈ ((cfg0.win 6).blk t).view.set ↔ ∀ a : Fin 3, win0_6.index t a * S1x1024x256.size a ≤ (i a).val
      ∧ (i a).val < win0_6.index t a * S1x1024x256.size a + S1x1024x256.size a := by
  show i ∈ ((View.whole main_v1_2).slice (win0_6.rect t)).set ↔ _
  rw [View.set_slice_whole, Rect.mem_set_unit]
  exact Iff.rfl

/-- Row r of batch b lies in the block of the point 4 b + r / 1024. -/
theorem cover_v (i : S8x4096x256.Idx) :
    ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 256 := (i 2).isLt
  have hN : cfg0.N = 32 := N_0
  have ht : 4 * (i 0).val + (i 1).val / 1024 < cfg0.N := by rw [hN]; omega
  obtain ⟨f0, f1, f2⟩ := idx6 ⟨4 * (i 0).val + (i 1).val / 1024, ht⟩
  have f0' : win0_6.index ⟨4 * (i 0).val + (i 1).val / 1024, ht⟩ (0 : Fin 3) = (4 * (i 0).val + (i 1).val / 1024) / 4 := f0
  have f1' : win0_6.index ⟨4 * (i 0).val + (i 1).val / 1024, ht⟩ (1 : Fin 3) = (4 * (i 0).val + (i 1).val / 1024) % 4 := f1
  refine ⟨⟨4 * (i 0).val + (i 1).val / 1024, ht⟩, flush0_6 _, ?_⟩
  rw [mem_blk_v]
  intro a
  match a with
  | ⟨0, _⟩ =>
    show win0_6.index ⟨4 * (i 0).val + (i 1).val / 1024, ht⟩ (0 : Fin 3) * 1 ≤ (i 0).val
      ∧ (i 0).val < win0_6.index ⟨4 * (i 0).val + (i 1).val / 1024, ht⟩ (0 : Fin 3) * 1 + 1
    omega
  | ⟨1, _⟩ =>
    show win0_6.index ⟨4 * (i 0).val + (i 1).val / 1024, ht⟩ (1 : Fin 3) * 1024 ≤ (i 1).val
      ∧ (i 1).val < win0_6.index ⟨4 * (i 0).val + (i 1).val / 1024, ht⟩ (1 : Fin 3) * 1024 + 1024
    omega
  | ⟨2, _⟩ =>
    show win0_6.index ⟨4 * (i 0).val + (i 1).val / 1024, ht⟩ (2 : Fin 3) * 256 ≤ (i 2).val
      ∧ (i 2).val < win0_6.index ⟨4 * (i 0).val + (i 1).val / 1024, ht⟩ (2 : Fin 3) * 256 + 256
    omega

/-- After the region the value array is the projection of the region's pixel array by the value weights. -/
theorem arr_v_eq : (dat0 (F := Ideal) V c).arrAt 6 cfg0.N = Pv (V c (Pipeline.arrRef spec0 0)) (V c (Pipeline.arrRef spec0 3)) :=
  (dat0 (F := Ideal) V c).arrAt_eq_of_cover 6 (Pv (V c (Pipeline.arrRef spec0 0)) (V c (Pipeline.arrRef spec0 3)))
    (fun t _ => flushed_v V c t) (fun i => cover_v i)

/-- Entry (b, r, d) of the value array after the region. -/
theorem arr_v (b : Fin 8) (r : Fin 4096) (d : Fin 256) :
    (dat0 (F := Ideal) V c).arrAt 6 cfg0.N (ix3 b r d)
      = PvAt (V c (Pipeline.arrRef spec0 0)) (V c (Pipeline.arrRef spec0 3)) b r d :=
  congrFun (arr_v_eq V c) (ix3 b r d)

end Arrays

end Cert.KernelIdeal.Fr0

end
-- ==== Proof.KI.Pieces1.lean ====
/-
  What each case of the second kernel's body leaves, as the body's arithmetic: at n = 0 the accumulator ends at the
  first product added to zeros; at n > 0 at one more product added to what it held; at n = 3 the output buffer ends at
  the accumulator's final contents.
-/
import proofs.«166255_j60060822667534_1_alg».proof.Proof.KI.Region1
import Idealize.ShloMosaic.Lib.Pipeline.Value
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sout1_A_eq (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : cond1_0 i) (hc1 : ¬cond1_1 i) (x0 : Vec F S1x1024x32 .bf16) (x1 : Vec F S1x32x1024 .bf16) (x2 : Vec F S1x256x1024 .bf16) :
    sout1_A (F := F) c i arg3 harg3 arg4 harg4 arg5 harg5 arg6 harg6 arg7 harg7 hc0 hc1 x0 x1 x2 = k1_pay2 x0 x1 x2 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_run_names
  have hz2 : (![0, 0] : Fin 2 → Nat) = fun _ => 0 := by funext a; fin_cases a <;> rfl
  have hz3 : (![0, 0, 0] : Fin 3 → Nat) = fun _ => 0 := by funext a; fin_cases a <;> rfl
  simp only [View.canon_cons_unit_zero (S := S256x1024) hz2, View.canon_cons_unit_zero (S := S1x256x1024) hz3,
    View.readAt_eq_ld, harg3.read_unread, harg4.read_unread, harg5.read_unread, harg7.read_unread,
    View.ld_unit_zero (S := S1x1024x32) hz3, View.ld_unit_zero (S := S1x32x1024) hz3, View.ld_unit_zero (S := S1x256x1024) hz3,
    View.ld_unit_zero (S := S256x1024) hz2, View.readCov_unit_zero (S := S256x1024) arg7.view hz2]

theorem sout1_B_eq (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : ¬cond1_1 i) (x0 : Vec F S1x1024x32 .bf16) (x1 : Vec F S1x32x1024 .bf16) (x2 : Vec F S1x256x1024 .bf16) (xs0 : Vec F S256x1024 .f32) :
    sout1_B (F := F) c i arg3 harg3 arg4 harg4 arg5 harg5 arg6 harg6 arg7 harg7 hc0 hc1 x0 x1 x2 xs0 = k1_pay2 x0 x1 x2 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_run_names
  have hz2 : (![0, 0] : Fin 2 → Nat) = fun _ => 0 := by funext a; fin_cases a <;> rfl
  have hz3 : (![0, 0, 0] : Fin 3 → Nat) = fun _ => 0 := by funext a; fin_cases a <;> rfl
  simp only [View.canon_cons_unit_zero (S := S256x1024) hz2, View.canon_cons_unit_zero (S := S1x256x1024) hz3,
    View.readAt_eq_ld, harg3.read_unread, harg4.read_unread, harg5.read_unread, harg7.read_unread,
    View.ld_unit_zero (S := S1x1024x32) hz3, View.ld_unit_zero (S := S1x32x1024) hz3, View.ld_unit_zero (S := S1x256x1024) hz3,
    View.ld_unit_zero (S := S256x1024) hz2, View.readCov_unit_zero (S := S256x1024) arg7.view hz2]

theorem sout1_C_eq (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) :
    sout1_C (F := F) c i arg3 harg3 arg4 harg4 arg5 harg5 arg6 harg6 arg7 harg7 hc0 hc1 x0 x1 x2 xs0 = k1_pay2 x0 x1 x2 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_run_names
  have hz2 : (![0, 0] : Fin 2 → Nat) = fun _ => 0 := by funext a; fin_cases a <;> rfl
  have hz3 : (![0, 0, 0] : Fin 3 → Nat) = fun _ => 0 := by funext a; fin_cases a <;> rfl
  simp only [View.canon_cons_unit_zero (S := S256x1024) hz2, View.canon_cons_unit_zero (S := S1x256x1024) hz3,
    View.readAt_eq_ld, harg3.read_unread, harg4.read_unread, harg5.read_unread, harg7.read_unread,
    View.ld_unit_zero (S := S1x1024x32) hz3, View.ld_unit_zero (S := S1x32x1024) hz3, View.ld_unit_zero (S := S1x256x1024) hz3,
    View.ld_unit_zero (S := S256x1024) hz2, View.readCov_unit_zero (S := S256x1024) arg7.view hz2]

theorem out1_C_3_eq (c : Dev nD) (i : grid1.Coords) (arg3 : Memref sig .tc .vmem S1x1024x32 .bf16) (harg3 : arg3.IsWhole) (arg4 : Memref sig .tc .vmem S1x32x1024 .bf16) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S256x1024 .f32) (harg7 : arg7.IsWhole) (hc0 : ¬cond1_0 i) (hc1 : cond1_1 i) (x0 : Vec F S1x1024x32 .bf16) (x1 : Vec F S1x32x1024 .bf16) (x2 : Vec F S1x256x1024 .bf16) (xs0 : Vec F S256x1024 .f32) :
    out1_C_3 (F := F) c i arg3 harg3 arg4 harg4 arg5 harg5 arg6 harg6 arg7 harg7 hc0 hc1 x0 x1 x2 xs0 = k1_pay3 (k1_pay2 x0 x1 x2 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_run_names
  have hz2 : (![0, 0] : Fin 2 → Nat) = fun _ => 0 := by funext a; fin_cases a <;> rfl
  have hz3 : (![0, 0, 0] : Fin 3 → Nat) = fun _ => 0 := by funext a; fin_cases a <;> rfl
  simp only [View.canon_cons_unit_zero (S := S256x1024) hz2, View.canon_cons_unit_zero (S := S1x256x1024) hz3,
    View.readAt_eq_ld, harg3.read_unread, harg4.read_unread, harg5.read_unread, harg7.read_unread,
    View.ld_unit_zero (S := S1x1024x32) hz3, View.ld_unit_zero (S := S1x32x1024) hz3, View.ld_unit_zero (S := S1x256x1024) hz3,
    View.ld_unit_zero (S := S256x1024) hz2, View.readCov_unit_zero (S := S256x1024) arg7.view hz2]

end Cert.KernelIdeal.Fr

end
-- ==== Proof.KI.Blocks1.lean ====
/-
  The second kernel region's blocks, by coordinates.

  A grid point t = 16·b + 4·m + n reads the query block (b, n) ([1024, 32]: positions 1024·n …), the key block (b, m)
  ([32, 1024]: positions 1024·m …) and the value block (b, n) ([256, 1024]), and, when n = 3, writes back the output
  block (b, m) ([256, 1024]).  The three operand arrays are read through total accessors on the naturals, so that the
  statements carry no bound proofs; the output array is the one function whose blocks the writing points leave.
-/
import proofs.«166255_j60060822667534_1_alg».proof.Proof.KI.Region1
import Idealize.ShloMosaic.Lib.Pipeline.Value
import Idealize.ShloMosaic.Lib.ValueIdx

noncomputable section

namespace Cert.KernelIdeal.Fr1

open Cert.KernelIdeal Cert.KernelIdeal.Gen Cert.KernelIdeal.Fr
open Idealize.ShloMosaic Idealize.ShloMosaic.ValueIdx Idealize.ShloMosaic.Pipeline Idealize.ShloMosaic.TcCoe
open Idealize.SL Idealize.SL.Sem

variable (V : (c : Dev nD) → (b : Ref sig .tc) → Buf (Elt Ideal) ((c : Thread nD τ).loc b)) (c : Dev nD)

/-! ## The three operand arrays as total functions of natural coordinates -/

/-- The queries: entry (b, n, e) of the region's first operand, zero outside the array. -/
def qN (b n e : ℕ) : EReal :=
  if h : b < 8 ∧ n < 4096 ∧ e < 32 then
    (V c (Pipeline.arrRef spec1 0) : S8x4096x32.Idx → EReal) (ix3 (⟨b, h.1⟩ : Fin 8) (⟨n, h.2.1⟩ : Fin 4096) (⟨e, h.2.2⟩ : Fin 32))
  else 0

/-- The keys: entry (b, e, m) of the region's second operand, zero outside the array. -/
def kN (b e mm : ℕ) : EReal :=
  if h : b < 8 ∧ e < 32 ∧ mm < 4096 then
    (V c (Pipeline.arrRef spec1 1) : S8x32x4096.Idx → EReal) (ix3 (⟨b, h.1⟩ : Fin 8) (⟨e, h.2.1⟩ : Fin 32) (⟨mm, h.2.2⟩ : Fin 4096))
  else 0

/-- The values: entry (b, c, n) of the region's third operand, zero outside the array. -/
def vN (b cc n : ℕ) : EReal :=
  if h : b < 8 ∧ cc < 256 ∧ n < 4096 then
    (V c (Pipeline.arrRef spec1 2) : S8x256x4096.Idx → EReal) (ix3 (⟨b, h.1⟩ : Fin 8) (⟨cc, h.2.1⟩ : Fin 256) (⟨n, h.2.2⟩ : Fin 4096))
  else 0

/-! ## Where each window's block sits, decided once over the grid -/

theorem idx0_facts : ∀ t : Fin cfg1.N, win1_0.index t (0 : Fin 3) = t.val / 16 ∧ win1_0.index t (1 : Fin 3) = t.val % 4
    ∧ win1_0.index t (2 : Fin 3) = 0 :=
  (by decide +kernel : ∀ t : Fin grid1.N, _)
theorem idx1_facts : ∀ t : Fin cfg1.N, win1_1.index t (0 : Fin 3) = t.val / 16 ∧ win1_1.index t (1 : Fin 3) = 0
    ∧ win1_1.index t (2 : Fin 3) = t.val / 4 % 4 :=
  (by decide +kernel : ∀ t : Fin grid1.N, _)
theorem idx2_facts : ∀ t : Fin cfg1.N, win1_2.index t (0 : Fin 3) = t.val / 16 ∧ win1_2.index t (1 : Fin 3) = 0
    ∧ win1_2.index t (2 : Fin 3) = t.val % 4 :=
  (by decide +kernel : ∀ t : Fin grid1.N, _)
theorem idx3_facts : ∀ t : Fin cfg1.N, win1_3.index t (0 : Fin 3) = t.val / 16 ∧ win1_3.index t (1 : Fin 3) = 0
    ∧ win1_3.index t (2 : Fin 3) = t.val / 4 % 4 :=
  (by decide +kernel : ∀ t : Fin grid1.N, _)

/-! ## The operand blocks, read by coordinates -/

/-- The query block at point t: position n' of the block is position 1024·(t % 4) + n' of the array. -/
theorem blk0_read (t : Fin cfg1.N) (n' : Fin 1024) (e : Fin 32) :
    (iblk1 (F := Ideal) V c 0 t : S1x1024x32.Idx → EReal) (ix3 (0 : Fin 1) n' e)
      = qN V c (t.val / 16) (1024 * (t.val % 4) + n'.val) e.val := by
  obtain ⟨e0, e1, e2⟩ := idx0_facts t
  have hN : t.val < 128 := lt_of_lt_of_eq t.isLt (show cfg1.N = 128 from N_1)
  have hb : t.val / 16 < 8 ∧ 1024 * (t.val % 4) + n'.val < 4096 ∧ e.val < 32 := ⟨by omega, by omega, e.isLt⟩
  unfold qN
  rw [dif_pos hb]
  have hi : ((cfg1.win 0).blk t).view.emb (ix3 (0 : Fin 1) n' e)
      = ix3 (⟨t.val / 16, hb.1⟩ : Fin 8) (⟨1024 * (t.val % 4) + n'.val, hb.2.1⟩ : Fin 4096) (⟨e.val, hb.2.2⟩ : Fin 32) := by
    funext a; apply Fin.ext
    match a with
    | ⟨0, _⟩ => show win1_0.index t (0 : Fin 3) * 1 + 1 * 0 = t.val / 16; omega
    | ⟨1, _⟩ => show win1_0.index t (1 : Fin 3) * 1024 + 1 * n'.val = 1024 * (t.val % 4) + n'.val; omega
    | ⟨2, _⟩ => show win1_0.index t (2 : Fin 3) * 32 + 1 * e.val = e.val; omega
  show (V c (Pipeline.arrRef spec1 0) : S8x4096x32.Idx → EReal) (((cfg1.win 0).blk t).view.emb (ix3 (0 : Fin 1) n' e)) = _
  rw [hi]

/-- The same over a variable that names the block. -/
theorem blk0_read_of (t : Fin cfg1.N) (X : Vec Ideal S1x1024x32 .bf16) (hX : X = iblk1 (F := Ideal) V c 0 t) (n' : Fin 1024) (e : Fin 32) :
    X (ix3 (0 : Fin 1) n' e) = qN V c (t.val / 16) (1024 * (t.val % 4) + n'.val) e.val := by
  subst hX
  exact blk0_read V c t n' e

/-- The key block at point t: position m' of the block is position 1024·(t / 4 % 4) + m' of the array. -/
theorem blk1_read (t : Fin cfg1.N) (e : Fin 32) (mm' : Fin 1024) :
    (iblk1 (F := Ideal) V c 1 t : S1x32x1024.Idx → EReal) (ix3 (0 : Fin 1) e mm')
      = kN V c (t.val / 16) e.val (1024 * (t.val / 4 % 4) + mm'.val) := by
  obtain ⟨e0, e1, e2⟩ := idx1_facts t
  have hN : t.val < 128 := lt_of_lt_of_eq t.isLt (show cfg1.N = 128 from N_1)
  have hb : t.val / 16 < 8 ∧ e.val < 32 ∧ 1024 * (t.val / 4 % 4) + mm'.val < 4096 := ⟨by omega, e.isLt, by omega⟩
  unfold kN
  rw [dif_pos hb]
  have hi : ((cfg1.win 1).blk t).view.emb (ix3 (0 : Fin 1) e mm')
      = ix3 (⟨t.val / 16, hb.1⟩ : Fin 8) (⟨e.val, hb.2.1⟩ : Fin 32) (⟨1024 * (t.val / 4 % 4) + mm'.val, hb.2.2⟩ : Fin 4096) := by
    funext a; apply Fin.ext
    match a with
    | ⟨0, _⟩ => show win1_1.index t (0 : Fin 3) * 1 + 1 * 0 = t.val / 16; omega
    | ⟨1, _⟩ => show win1_1.index t (1 : Fin 3) * 32 + 1 * e.val = e.val; omega
    | ⟨2, _⟩ => show win1_1.index t (2 : Fin 3) * 1024 + 1 * mm'.val = 1024 * (t.val / 4 % 4) + mm'.val; omega
  show (V c (Pipeline.arrRef spec1 1) : S8x32x4096.Idx → EReal) (((cfg1.win 1).blk t).view.emb (ix3 (0 : Fin 1) e mm')) = _
  rw [hi]

/-- The same over a variable that names the block. -/
theorem blk1_read_of (t : Fin cfg1.N) (X : Vec Ideal S1x32x1024 .bf16) (hX : X = iblk1 (F := Ideal) V c 1 t) (e : Fin 32) (mm' : Fin 1024) :
    X (ix3 (0 : Fin 1) e mm') = kN V c (t.val / 16) e.val (1024 * (t.val / 4 % 4) + mm'.val) := by
  subst hX
  exact blk1_read V c t e mm'

/-- The value block at point t: row c, position n' of the block is position 1024·(t % 4) + n' of the array. -/
theorem blk2_read (t : Fin cfg1.N) (cc : Fin 256) (n' : Fin 1024) :
    (iblk1 (F := Ideal) V c 2 t : S1x256x1024.Idx → EReal) (ix3 (0 : Fin 1) cc n')
      = vN V c (t.val / 16) cc.val (1024 * (t.val % 4) + n'.val) := by
  obtain ⟨e0, e1, e2⟩ := idx2_facts t
  have hN : t.val < 128 := lt_of_lt_of_eq t.isLt (show cfg1.N = 128 from N_1)
  have hb : t.val / 16 < 8 ∧ cc.val < 256 ∧ 1024 * (t.val % 4) + n'.val < 4096 := ⟨by omega, cc.isLt, by omega⟩
  unfold vN
  rw [dif_pos hb]
  have hi : ((cfg1.win 2).blk t).view.emb (ix3 (0 : Fin 1) cc n')
      = ix3 (⟨t.val / 16, hb.1⟩ : Fin 8) (⟨cc.val, hb.2.1⟩ : Fin 256) (⟨1024 * (t.val % 4) + n'.val, hb.2.2⟩ : Fin 4096) := by
    funext a; apply Fin.ext
    match a with
    | ⟨0, _⟩ => show win1_2.index t (0 : Fin 3) * 1 + 1 * 0 = t.val / 16; omega
    | ⟨1, _⟩ => show win1_2.index t (1 : Fin 3) * 256 + 1 * cc.val = cc.val; omega
    | ⟨2, _⟩ => show win1_2.index t (2 : Fin 3) * 1024 + 1 * n'.val = 1024 * (t.val % 4) + n'.val; omega
  show (V c (Pipeline.arrRef spec1 2) : S8x256x4096.Idx → EReal) (((cfg1.win 2).blk t).view.emb (ix3 (0 : Fin 1) cc n')) = _
  rw [hi]

/-- The same over a variable that names the block. -/
theorem blk2_read_of (t : Fin cfg1.N) (X : Vec Ideal S1x256x1024 .bf16) (hX : X = iblk1 (F := Ideal) V c 2 t) (cc : Fin 256) (n' : Fin 1024) :
    X (ix3 (0 : Fin 1) cc n') = vN V c (t.val / 16) cc.val (1024 * (t.val % 4) + n'.val) := by
  subst hX
  exact blk2_read V c t cc n'

end Cert.KernelIdeal.Fr1

end
-- ==== Proof.KI.Value1.lean ====
/-
  The second kernel region's accumulation, at the extended reals. Fix a batch b and a key block mi. The block term of
  index j is T_j[c, m'] = Σ_{n' < 1024} ṽ[b, c, 1024 j + n'] · σ(Σ_e q̃ᵀ[b, 1024 j + n', e] · k̃[b, e, 1024 mi + m']). One
  run of the body at the point (b, mi, n) adds T_n to the accumulator; the accumulator starts from zeros at n = 0; so
  after the point (b, mi, n) it holds T_0 + … + T_n, and at n = 3 the output buffer receives T_0 + T_1 + T_2 + T_3.
-/
import proofs.«166255_j60060822667534_1_alg».proof.Proof.KI.Pieces1
import proofs.«166255_j60060822667534_1_alg».proof.Proof.KI.Blocks1
import proofs.«166255_j60060822667534_1_alg».proof.Proof.KernelPurePay
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Fr1 Cert.KernelPure Idealize.ShloMosaic.ValueIdx

variable (V : (c : Dev nD) → (b : Ref sig .tc) → Buf (Elt Ideal) ((c : Thread nD τ).loc b)) (c : Dev nD)

/-- The block term T_j at batch b and key block mi. -/
def term (b mi j : ℕ) (cc : Fin 256) (mm' : Fin 1024) : EReal :=
  ∑ n' : Fin 1024, vN V c b cc.val (1024 * j + n'.val)
    * Ideal.logistic (∑ e : Fin 32, qN V c b (1024 * j + n'.val) e.val * kN V c b e.val (1024 * mi + mm'.val))

/-- One run of the body's arithmetic at point t adds the point's block term to the accumulator. -/
theorem step (t : Fin cfg1.N) (acc : Vec Ideal S256x1024 .f32) (cc : Fin 256) (mm' : Fin 1024) :
    k1_pay2 (F := Ideal) (iblk1 V c 0 t) (iblk1 V c 1 t) (iblk1 V c 2 t) acc (ix2 cc mm')
      = acc (ix2 cc mm') + term V c (t.val / 16) (t.val / 4 % 4) (t.val % 4) cc mm' := by
  refine (pay_acc (iblk1 V c 0 t) (iblk1 V c 1 t) (iblk1 V c 2 t) acc cc mm').trans ?_
  unfold term
  refine congrArg (acc (ix2 cc mm') + ·) (Finset.sum_congr rfl fun n' _ => ?_)
  refine congrArg₂ (· * ·) (blk2_read_of V c t _ rfl cc n') (congrArg Ideal.logistic (Finset.sum_congr rfl fun e _ => ?_))
  exact congrArg₂ (· * ·) (blk0_read_of V c t _ rfl n' e) (blk1_read_of V c t _ rfl e mm')

/-- At a point with n = 0 the accumulator ends at the first block term. -/
theorem scratch_first (t : Fin cfg1.N) (h0 : t.val % 4 = 0) (cc : Fin 256) (mm' : Fin 1024) :
    (outsAt1 (F := Ideal) V c t.val t.isLt).2 (ix2 cc mm') = term V c (t.val / 16) (t.val / 4 % 4) 0 cc mm' := by
  have h1 : ¬t.val % 4 = 3 := by omega
  rw [outsAt1_A V c t h0 h1]
  unfold caseA; dsimp only
  rw [sout1_A_eq]
  refine (step V c t _ cc mm').trans ?_
  rw [pay_zero, zero_add, h0]

/-- At a point with n > 0 the accumulator ends at what the point before left plus the point's block term. -/
theorem scratch_next (t : Fin cfg1.N) (h0 : ¬t.val % 4 = 0) (cc : Fin 256) (mm' : Fin 1024) :
    (outsAt1 (F := Ideal) V c t.val t.isLt).2 (ix2 cc mm')
      = (outsAt1 (F := Ideal) V c (t.val - 1) (Nat.lt_of_le_of_lt (Nat.sub_le _ _) t.isLt)).2 (ix2 cc mm')
        + term V c (t.val / 16) (t.val / 4 % 4) (t.val % 4) cc mm' := by
  by_cases h1 : t.val % 4 = 3
  · rw [outsAt1_C V c t h0 h1]
    unfold caseC; dsimp only
    rw [sout1_C_eq]
    exact step V c t _ cc mm'
  · rw [outsAt1_B V c t h0 h1]
    unfold caseB; dsimp only
    rw [sout1_B_eq]
    exact step V c t _ cc mm'

/-- After the point number n the accumulator holds the block terms 0, …, n % 4 of the point's batch and key block. -/
theorem scratch_at : ∀ (n : ℕ) (hn : n < cfg1.N) (cc : Fin 256) (mm' : Fin 1024),
    (outsAt1 (F := Ideal) V c n hn).2 (ix2 cc mm')
      = ∑ j ∈ Finset.range (n % 4 + 1), term V c (n / 16) (n / 4 % 4) j cc mm' := by
  intro n
  induction n with
  | zero =>
    intro hn cc mm'
    have h : (outsAt1 (F := Ideal) V c 0 hn).2 (ix2 cc mm') = term V c (0 / 16) (0 / 4 % 4) 0 cc mm' :=
      scratch_first V c ⟨0, hn⟩ (Nat.zero_mod 4) cc mm'
    show _ = ∑ j ∈ Finset.range 1, term V c (0 / 16) (0 / 4 % 4) j cc mm'
    rw [Finset.sum_range_one]; exact h
  | succ k ih =>
    intro hn cc mm'
    by_cases h0 : (k + 1) % 4 = 0
    · have h : (outsAt1 (F := Ideal) V c (k + 1) hn).2 (ix2 cc mm') = term V c ((k + 1) / 16) ((k + 1) / 4 % 4) 0 cc mm' :=
        scratch_first V c ⟨k + 1, hn⟩ h0 cc mm'
      rw [h, h0, zero_add, Finset.sum_range_one]
    · have h : (outsAt1 (F := Ideal) V c (k + 1) hn).2 (ix2 cc mm')
          = (outsAt1 (F := Ideal) V c k (Nat.lt_of_succ_lt hn)).2 (ix2 cc mm')
            + term V c ((k + 1) / 16) ((k + 1) / 4 % 4) ((k + 1) % 4) cc mm' :=
        scratch_next V c ⟨k + 1, hn⟩ h0 cc mm'
      have e1 : (k + 1) / 16 = k / 16 := by omega
      have e2 : (k + 1) / 4 % 4 = k / 4 % 4 := by omega
      have e3 : (k + 1) % 4 = k % 4 + 1 := by omega
      rw [h, ih (Nat.lt_of_succ_lt hn) cc mm', e1, e2, e3]
      exact (Finset.sum_range_succ (fun j => term V c (k / 16) (k / 4 % 4) j cc mm') (k % 4 + 1)).symm

/-- At a point with n = 3 the output buffer holds the four block terms' sum. -/
theorem out_at (t : Fin cfg1.N) (h3 : t.val % 4 = 3) (Y : Vec Ideal S1x256x1024 .f32)
    (hY : Y = (dat1 (F := Ideal) V c).after 3 t) (cc : Fin 256) (mm' : Fin 1024) :
    Y (ix3 (0 : Fin 1) cc mm') = ∑ j ∈ Finset.range 4, term V c (t.val / 16) (t.val / 4 % 4) j cc mm' := by
  have h0 : ¬t.val % 4 = 0 := by omega
  subst hY
  rw [after1_3, outsAt1_C V c t h0 h3]
  unfold caseC; dsimp only
  rw [out1_C_3_eq]
  refine (pay_out _ cc mm').trans ?_
  have hs := scratch_at V c t.val t.isLt cc mm'
  rw [outsAt1_C V c t h0 h3] at hs
  unfold caseC at hs; dsimp only at hs
  rw [sout1_C_eq] at hs
  rw [hs, h3]

end Cert.KernelIdeal.Fr

end
-- ==== Proof.KI.Blocks1Out.lean ====
/-
  The second kernel region's output array from its writing points.

  The output block (b, m) is written back at the point t = 16·b + 4·m + 3 and at no other; the 32 writing points'
  blocks tile the [8, 256, 4096] array.  So a function whose block (b, m) is what the point 16·b + 4·m + 3 leaves in
  the output buffer is what the array holds after the region.
-/
import proofs.«166255_j60060822667534_1_alg».proof.Proof.KI.Blocks1

noncomputable section

namespace Cert.KernelIdeal.Fr1

open Cert.KernelIdeal Cert.KernelIdeal.Gen Cert.KernelIdeal.Fr
open Idealize.ShloMosaic Idealize.ShloMosaic.ValueIdx Idealize.ShloMosaic.Pipeline Idealize.ShloMosaic.TcCoe
open Idealize.SL Idealize.SL.Sem

variable (V : (c : Dev nD) → (b : Ref sig .tc) → Buf (Elt Ideal) ((c : Thread nD τ).loc b)) (c : Dev nD)

/-- An index of the output array is in point t's block iff each coordinate is in the block's range on its axis. -/
theorem mem_blk3 (t : Fin cfg1.N) (i : S8x256x4096.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v21).slice (win1_3.rect t)).set ↔ _
  rw [View.set_slice_whole, Rect.mem_set_unit]
  exact Iff.rfl

/-- Where an element of the output block at point t sits in the array. -/
theorem emb_blk3 (t : Fin cfg1.N) (cc : Fin 256) (mm' : Fin 1024) :
    ((cfg1.win 3).blk t).view.emb (ix3 (0 : Fin 1) cc mm')
      = ix3 (⟨t.val / 16, by have := t.isLt; have : cfg1.N = 128 := N_1; omega⟩ : Fin 8) cc
          (⟨1024 * (t.val / 4 % 4) + mm'.val, by omega⟩ : Fin 4096) := by
  obtain ⟨e0, e1, e2⟩ := idx3_facts t
  funext a; apply Fin.ext
  match a with
  | ⟨0, _⟩ => show win1_3.index t (0 : Fin 3) * 1 + 1 * 0 = t.val / 16; omega
  | ⟨1, _⟩ => show win1_3.index t (1 : Fin 3) * 256 + 1 * cc.val = cc.val; omega
  | ⟨2, _⟩ => show win1_3.index t (2 : Fin 3) * 1024 + 1 * mm'.val = 1024 * (t.val / 4 % 4) + mm'.val; omega

/-- THE OUTPUT ARRAY after the region is the function whose blocks the writing points leave. -/
theorem out_final (Go : S8x256x4096.Idx → EReal)
    (hGo : ∀ (t : Fin cfg1.N), t.val % 4 = 3 → ∀ (Y : Vec Ideal S1x256x1024 .f32), Y = (dat1 (F := Ideal) V c).after 3 t →
      ∀ (cc : Fin 256) (mm' : Fin 1024), Y (ix3 (0 : Fin 1) cc mm')
        = Go (ix3 (⟨t.val / 16, by have := t.isLt; have : cfg1.N = 128 := N_1; omega⟩ : Fin 8) cc
            (⟨1024 * (t.val / 4 % 4) + mm'.val, by omega⟩ : Fin 4096)))
    (A : S8x256x4096.Idx → EReal) (hA : A = (dat1 (F := Ideal) V c).arrAt 3 cfg1.N) : A = Go := by
  subst hA
  refine (dat1 (F := Ideal) V c).arrAt_eq_of_cover 3 Go (fun t hf => ?_) (fun i => ?_)
  · have h3 : t.val % 4 = 3 := (flush1_3 t).mp hf
    refine funext fun (j : S1x256x1024.Idx) => ?_
    have hj : j = ix3 (0 : Fin 1) (j 1) (j 2) := by
      funext a
      match a with
      | ⟨0, _⟩ => exact Fin.ext (by show (j 0).val = 0; have h : (j 0).val < 1 := (j 0).isLt; omega)
      | ⟨1, _⟩ => rfl
      | ⟨2, _⟩ => rfl
    obtain ⟨cc, mm', rfl⟩ : ∃ (cc : Fin 256) (mm' : Fin 1024), j = ix3 (0 : Fin 1) cc mm' := ⟨j 1, j 2, hj⟩
    show ((dat1 (F := Ideal) V c).after 3 t : S1x256x1024.Idx → EReal) (ix3 (0 : Fin 1) cc mm')
      = Go (((cfg1.win 3).blk t).view.emb (ix3 (0 : Fin 1) cc mm'))
    rw [emb_blk3]
    exact hGo t h3 _ rfl cc mm'
  · have hi0 : (i 0).val < 8 := (i 0).isLt
    have hi1 : (i 1).val < 256 := (i 1).isLt
    have hi2 : (i 2).val < 4096 := (i 2).isLt
    have hlt : 16 * (i 0).val + 4 * ((i 2).val / 1024) + 3 < cfg1.N := by
      rw [show cfg1.N = 128 from N_1]; omega
    obtain ⟨t, ht⟩ : ∃ t : Fin cfg1.N, t.val = 16 * (i 0).val + 4 * ((i 2).val / 1024) + 3 := ⟨⟨_, hlt⟩, rfl⟩
    obtain ⟨e0, e1, e2⟩ := idx3_facts t
    refine ⟨t, (flush1_3 t).mpr (by omega), ?_⟩
    rw [mem_blk3]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 256 ≤ (i 1).val ∧ (i 1).val < win1_3.index t (1 : Fin 3) * 256 + 256; omega
    | ⟨2, _⟩ => show win1_3.index t (2 : Fin 3) * 1024 ≤ (i 2).val ∧ (i 2).val < win1_3.index t (2 : Fin 3) * 1024 + 1024; omega

end Cert.KernelIdeal.Fr1

end
-- ==== Proof.KernelPureSum.lean ====
/-
  A sum over 4096 consecutive indices, split into 4 consecutive blocks of 1024.
-/
import Mathlib.Algebra.BigOperators.Fin
import Mathlib.Logic.Equiv.Fin.Basic
import Mathlib.Tactic

namespace Cert.KernelPure

/-- The index 1024·j + n' runs over Fin 4096 exactly once as (j, n') runs over Fin 4 × Fin 1024. -/
theorem sum_blocks {M : Type*} [AddCommMonoid M] (f : Fin 4096 → M) :
    ∑ n : Fin 4096, f n
      = ∑ j : Fin 4, ∑ n' : Fin 1024, f (⟨1024 * j.val + n'.val, by omega⟩ : Fin 4096) := by
  rw [← Fintype.sum_prod_type' (fun (j : Fin 4) (n' : Fin 1024) =>
    f (⟨1024 * j.val + n'.val, by omega⟩ : Fin 4096))]
  symm
  refine Fintype.sum_equiv (finProdFinEquiv (m := 4) (n := 1024)) _ _ ?_
  intro p
  congr 1
  apply Fin.ext
  simp [finProdFinEquiv]
  omega

end Cert.KernelPure
-- ==== Proof.KI.Value1Out.lean ====
/-
  The second region's output array: the entry (b, c, m) lies in the block of the key block mi = m / 1024, written back
  at the point (b, mi, 3) with the four block terms' sum; the four blocks of 1024 query rows are the 4096 rows, so the
  entry is Σ_n ṽ[b,c,n] · σ(Σ_e q̃ᵀ[b,n,e] · k̃[b,e,m]) — a sum split into blocks, in any commutative monoid.
-/
import proofs.«166255_j60060822667534_1_alg».proof.Proof.KI.Value1
import proofs.«166255_j60060822667534_1_alg».proof.Proof.KI.Blocks1Out
import proofs.«166255_j60060822667534_1_alg».proof.Proof.KernelPureSum
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Fr1 Cert.KernelPure Idealize.ShloMosaic.ValueIdx

variable (V : (c : Dev nD) → (b : Ref sig .tc) → Buf (Elt Ideal) ((c : Thread nD τ).loc b)) (c : Dev nD)

/-- What the output array ends at: the four block terms of the entry's batch and key block. -/
def GoAt (b : Fin 8) (cc : Fin 256) (mm : Fin 4096) : EReal :=
  ∑ j ∈ Finset.range 4, term V c b.val (mm.val / 1024) j cc (⟨mm.val % 1024, Nat.mod_lt _ (by norm_num)⟩ : Fin 1024)
def Go : S8x256x4096.Idx → EReal := fun i => GoAt V c (i 0) (i 1) (i 2)

/-- On the block a point with n = 3 writes back, Go is the four block terms at the point's batch and key block. -/
theorem Go_block (t : Fin cfg1.N) (cc : Fin 256) (mm' : Fin 1024) (hb : t.val / 16 < 8) (hm : 1024 * (t.val / 4 % 4) + mm'.val < 4096) :
    Go V c (ix3 (⟨t.val / 16, hb⟩ : Fin 8) cc (⟨1024 * (t.val / 4 % 4) + mm'.val, hm⟩ : Fin 4096))
      = ∑ j ∈ Finset.range 4, term V c (t.val / 16) (t.val / 4 % 4) j cc mm' := by
  have e1 : (1024 * (t.val / 4 % 4) + mm'.val) / 1024 = t.val / 4 % 4 := by have := mm'.isLt; omega
  have e2 : (⟨(1024 * (t.val / 4 % 4) + mm'.val) % 1024, Nat.mod_lt _ (by norm_num)⟩ : Fin 1024) = mm' :=
    Fin.ext (by have := mm'.isLt; show (1024 * (t.val / 4 % 4) + mm'.val) % 1024 = mm'.val; omega)
  show GoAt V c (⟨t.val / 16, hb⟩ : Fin 8) cc (⟨1024 * (t.val / 4 % 4) + mm'.val, hm⟩ : Fin 4096) = _
  unfold GoAt
  refine Finset.sum_congr rfl fun j _ => ?_
  show term V c (t.val / 16) ((1024 * (t.val / 4 % 4) + mm'.val) / 1024) j cc
      (⟨(1024 * (t.val / 4 % 4) + mm'.val) % 1024, Nat.mod_lt _ (by norm_num)⟩ : Fin 1024) = _
  rw [e1, e2]

/-- A block term over the arrays themselves. -/
theorem term_arrays (Q : S8x4096x32.Idx → EReal) (K : S8x32x4096.Idx → EReal) (Vv : S8x256x4096.Idx → EReal)
    (hQ : Q = V c (Pipeline.arrRef spec1 0)) (hK : K = V c (Pipeline.arrRef spec1 1)) (hV : Vv = V c (Pipeline.arrRef spec1 2))
    (b : Fin 8) (cc : Fin 256) (mm : Fin 4096) (j : Fin 4) :
    term V c b.val (mm.val / 1024) j.val cc (⟨mm.val % 1024, Nat.mod_lt _ (by norm_num)⟩ : Fin 1024)
      = ∑ n' : Fin 1024, Vv (ix3 b cc (⟨1024 * j.val + n'.val, by omega⟩ : Fin 4096))
          * Ideal.logistic (∑ e : Fin 32, Q (ix3 b (⟨1024 * j.val + n'.val, by omega⟩ : Fin 4096) e) * K (ix3 b e mm)) := by
  subst hQ hK hV
  unfold term
  refine Finset.sum_congr rfl fun n' _ => ?_
  have hn : 1024 * j.val + n'.val < 4096 := by omega
  have hmm : 1024 * (mm.val / 1024) + mm.val % 1024 = mm.val := Nat.div_add_mod _ _
  refine congrArg₂ (· * ·) ?_ (congrArg Ideal.logistic (Finset.sum_congr rfl fun e _ => congrArg₂ (· * ·) ?_ ?_))
  · unfold vN; rw [dif_pos ⟨b.isLt, cc.isLt, hn⟩]
  · unfold qN; rw [dif_pos ⟨b.isLt, hn, e.isLt⟩]
  · show kN V c b.val e.val (1024 * (mm.val / 1024) + mm.val % 1024) = _
    rw [hmm]; unfold kN; rw [dif_pos ⟨b.isLt, e.isLt, mm.isLt⟩]

/-- The output array after the region, read at an index. -/
theorem arr_o (A : S8x256x4096.Idx → EReal) (hA : A = (dat1 (F := Ideal) V c).arrAt 3 cfg1.N)
    (Q : S8x4096x32.Idx → EReal) (K : S8x32x4096.Idx → EReal) (Vv : S8x256x4096.Idx → EReal)
    (hQ : Q = V c (Pipeline.arrRef spec1 0)) (hK : K = V c (Pipeline.arrRef spec1 1)) (hV : Vv = V c (Pipeline.arrRef spec1 2))
    (b : Fin 8) (cc : Fin 256) (mm : Fin 4096) :
    A (ix3 b cc mm) = ∑ n : Fin 4096, Vv (ix3 b cc n) * Ideal.logistic (∑ e : Fin 32, Q (ix3 b n e) * K (ix3 b e mm)) := by
  have hfin : A = Go V c :=
    out_final V c (Go V c) (fun t h3 Y hY cc mm' => (out_at V c t h3 Y hY cc mm').trans (Go_block V c t cc mm' _ _).symm) A hA
  rw [hfin, sum_blocks]
  show GoAt V c b cc mm = _
  unfold GoAt
  rw [Finset.sum_range]
  exact Finset.sum_congr rfl fun j _ => term_arrays V c Q K Vv hQ hK hV b cc mm j

end Cert.KernelIdeal.Fr

end
-- ==== Proof.AttnSpec.lean ====
/-
  The function both programs compute, over the extended reals, index by index.

  x is [8,64,64,256]; a pixel (h, w) is row r = 64·h + w of the [8,4096,256] reading of x. The three projections are
  Q = X·Wq + bq, K = X·Wk + bk ([8,4096,32]) and V = X·Wv + bv ([8,4096,256]). Each is then RE-READ in row-major order
  as [8,D,4096] (no transpose): entry (e, n) of the re-read array is entry number 4096·e + n of the [4096, D] array,
  that is row (4096·e + n) / D, column (4096·e + n) % D. With q̃, k̃ (D = 32) and ṽ (D = 256) the re-read arrays, the
  logits are S[b,n,m] = Σ_e q̃[b,e,n]·k̃[b,e,m], the attention output O[b,c,m] = Σ_n ṽ[b,c,n]·σ(S[b,n,m]) with
  σ(s) = 1/(1+e^(−s)), and the result re-reads O ([8,256,4096]) in row-major order as [8,64,64,256], scales it by γ
  and adds x.
-/
import Idealize.ShloMosaic.PureOps.Ideal
import Idealize.ShloMosaic.Lib.ValueIdx

noncomputable section

namespace Cert.AttnSpec

open Idealize.ShloMosaic Idealize.ShloMosaic.ValueIdx

/-- Arrays of extended reals over literal shapes. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal
abbrev A4 (a b c d : Nat) := (⟨4, ![a, b, c, d]⟩ : Shape).Idx → EReal

/-- Row r of the [8,4096,256] reading of x is the pixel (r / 64, r % 64). -/
def xrow (x : A4 8 64 64 256) (b : Fin 8) (r : Fin 4096) (c : Fin 256) : EReal :=
  x (ix4 b (⟨r.val / 64, by omega⟩ : Fin 64) (⟨r.val % 64, by omega⟩ : Fin 64) c)

/-- A projection of the pixels' channels, plus its bias: (X·W + bias)[b, r, d]. -/
def proj {D : Nat} (x : A4 8 64 64 256) (W : A2 256 D) (bias : A1 D) (b : Fin 8) (r : Fin 4096) (d : Fin D) : EReal :=
  (∑ c : Fin 256, xrow x b r c * W (ix2 c d)) + bias (ix1 d)

/-- The row-major re-reading of a [4096, D] array as [D, 4096]: entry (e, n) is entry number 4096·e + n. -/
def reread {D : Nat} (T : Fin 4096 → Fin D → EReal) (e : Fin D) (n : Fin 4096) : EReal :=
  T (⟨(4096 * e.val + n.val) / D, by
      have he := e.isLt; have hn := n.isLt
      exact Nat.div_lt_of_lt_mul (by nlinarith)⟩ : Fin 4096)
    (⟨(4096 * e.val + n.val) % D, Nat.mod_lt _ (Nat.lt_of_le_of_lt (Nat.zero_le _) e.isLt)⟩ : Fin D)

/-- The logits S[b, n, m] = Σ_e q̃[b,e,n]·k̃[b,e,m]. -/
def logits (x : A4 8 64 64 256) (Wq : A2 256 32) (bq : A1 32) (Wk : A2 256 32) (bk : A1 32)
    (b : Fin 8) (n m : Fin 4096) : EReal :=
  ∑ e : Fin 32, reread (proj x Wq bq b) e n * reread (proj x Wk bk b) e m

/-- The attention output O[b, c, m] = Σ_n ṽ[b,c,n]·σ(S[b,n,m]). -/
def attn (x : A4 8 64 64 256) (Wq : A2 256 32) (bq : A1 32) (Wk : A2 256 32) (bk : A1 32) (Wv : A2 256 256) (bv : A1 256)
    (b : Fin 8) (c : Fin 256) (m : Fin 4096) : EReal :=
  ∑ n : Fin 4096, reread (proj x Wv bv b) c n * Ideal.logistic (logits x Wq bq Wk bk b n m)

/-- The result at the pixel (h, w), channel c: entry number 256·(64·h + w) + c of O[b] read in row-major order as
    [256, 4096], scaled by γ, plus x. -/
def Gat (x : A4 8 64 64 256) (Wq : A2 256 32) (bq : A1 32) (Wk : A2 256 32) (bk : A1 32) (Wv : A2 256 256) (bv : A1 256)
    (γ : A1 1) (b : Fin 8) (h w : Fin 64) (c : Fin 256) : EReal :=
  γ (ix1 (0 : Fin 1)) * attn x Wq bq Wk bk Wv bv b
      (⟨(256 * (64 * h.val + w.val) + c.val) / 4096, by omega⟩ : Fin 256)
      (⟨(256 * (64 * h.val + w.val) + c.val) % 4096, by omega⟩ : Fin 4096)
    + x (ix4 b h w c)

/-- The result array. -/
def G (x : A4 8 64 64 256) (Wq : A2 256 32) (bq : A1 32) (Wk : A2 256 32) (bk : A1 32) (Wv : A2 256 256) (bv : A1 256)
    (γ : A1 1) : A4 8 64 64 256 :=
  fun i => Gat x Wq bq Wk bk Wv bv γ (i 0) (i 1) (i 2) (i 3)

theorem G_apply (x : A4 8 64 64 256) (Wq : A2 256 32) (bq : A1 32) (Wk : A2 256 32) (bk : A1 32) (Wv : A2 256 256) (bv : A1 256)
    (γ : A1 1) (b : Fin 8) (h w : Fin 64) (c : Fin 256) :
    G x Wq bq Wk bk Wv bv γ (ix4 b h w c) = Gat x Wq bq Wk bk Wv bv γ b h w c := rfl

end Cert.AttnSpec

end
-- ==== Proof.KernelPureHostIn.lean ====
/-
  The host operations around the two kernel regions, read at one index over the extended reals.

  Before the first region the input is re-read as [8, 4096, 256]: row r is the pixel (r / 64, r % 64).  Between the
  regions each projection gains its bias and is re-read in row-major order as [8, D, 4096]; the first of the three is
  then transposed.  After the second region the attention output is re-read as [8, 64, 64, 256], scaled and added to
  the input.  A format change is the identity on extended reals.
-/
import proofs.«166255_j60060822667534_1_alg».proof.Proof.Gen.KernelIdeal.Regions
import proofs.«166255_j60060822667534_1_alg».proof.Proof.AttnSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelPure

open Cert.KernelIdeal Cert.KernelIdeal.Gen Idealize.ShloMosaic Idealize.ShloMosaic.ValueIdx Idealize.ShloMosaic.TcCoe
open Idealize.SL Idealize.SL.Sem Idealize.ShloMosaic.StableHlo

variable (W : Valuation τ sig (Elt Ideal))

/-! ## Before the first region -/

/-- Row r of an [8, 64, 64, 256] array re-read as [8, 4096, 256] is the pixel (r / 64, r % 64). -/
theorem reshape_xrow (X : S8x64x64x256.Idx → EReal) (b : Fin 8) (r : Fin 4096) (cc : Fin 256) :
    shapeCast S8x4096x256 X shapeCasts_S8x64x64x256_S8x4096x256 (ix3 b r cc) = Cert.AttnSpec.xrow X b r cc := by
  unfold Cert.AttnSpec.xrow
  refine shapeCast_apply (s := S8x64x64x256) (t := S8x4096x256) X _ _ _ ?_
  rw [Shape.rowMajor_val_four, Shape.rowMajor_val_three]
  show ((b.val * 64 + r.val / 64) * 64 + r.val % 64) * 256 + cc.val = (b.val * 4096 + r.val) * 256 + cc.val
  omega

/-- The first region's input is the program's input re-read as [8, 4096, 256]. -/
theorem v0_eq : (StableHlo.after (hostOps0 (F := Ideal)) W main_v0 : S8x4096x256.Idx → EReal)
    = shapeCast S8x4096x256 (W main_arg0 : S8x64x64x256.Idx → EReal) shapeCasts_S8x64x64x256_S8x4096x256 := by
  after_results
  rfl

/-- Row r of the first region's input is the pixel (r / 64, r % 64) of the program's input. -/
theorem v0_apply (b : Fin 8) (r : Fin 4096) (cc : Fin 256) :
    (StableHlo.after (hostOps0 (F := Ideal)) W main_v0 : S8x4096x256.Idx → EReal) (ix3 b r cc)
      = Cert.AttnSpec.xrow (W main_arg0 : S8x64x64x256.Idx → EReal) b r cc := by
  rw [v0_eq]
  exact reshape_xrow _ b r cc

end Cert.KernelPure

end
-- ==== Proof.KernelPureHostMid.lean ====
/-
  The host operations around the two kernel regions, read at one index over the extended reals.

  Before the first region the input is re-read as [8, 4096, 256]: row r is the pixel (r / 64, r % 64).  Between the
  regions each projection gains its bias and is re-read in row-major order as [8, D, 4096]; the first of the three is
  then transposed.  After the second region the attention output is re-read as [8, 64, 64, 256], scaled and added to
  the input.  A format change is the identity on extended reals.
-/
import proofs.«166255_j60060822667534_1_alg».proof.Proof.Gen.KernelIdeal.Regions
import proofs.«166255_j60060822667534_1_alg».proof.Proof.AttnSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelPure

open Cert.KernelIdeal Cert.KernelIdeal.Gen Idealize.ShloMosaic Idealize.ShloMosaic.ValueIdx Idealize.ShloMosaic.TcCoe
open Idealize.SL Idealize.SL.Sem Idealize.ShloMosaic.StableHlo

variable (W : Valuation τ sig (Elt Ideal))

/-! ## Between the regions -/

/-- A [32] bias broadcast over [8, 4096, 32] reads its entry d at (b, r, d). -/
theorem bias32_apply (B : S32.Idx → EReal) (b : Fin 8) (r : Fin 4096) (d : Fin 32) :
    broadcastInDim S8x4096x32 ![0, 1, 2] bcast_S1x1x32_S8x4096x32_0_1_2
        (broadcastInDim S1x1x32 ![2] bcast_S32_S1x1x32_2 B) (ix3 b r d) = B (ix1 d) := by
  refine (broadcastInDim_apply _ bcast_S1x1x32_S8x4096x32_0_1_2 _ (ix3 b r d)
    (ix3 (0 : Fin 1) (0 : Fin 1) d) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show d.val = if (32 : Nat) = 1 then 0 else d.val; rw [if_neg (by decide)])).trans ?_
  exact broadcastInDim_apply _ bcast_S32_S1x1x32_2 B _ (ix1 d) (fun a => match a with
    | ⟨0, _⟩ => by show d.val = if (32 : Nat) = 1 then 0 else d.val; rw [if_neg (by decide)])

/-- An [8, 4096, 32] array re-read in row-major order as [8, 32, 4096]: entry (e, n) is entry number 4096·e + n. -/
theorem reshape_reread32 (Y : S8x4096x32.Idx → EReal) (b : Fin 8) (e : Fin 32) (n : Fin 4096) :
    shapeCast S8x32x4096 Y shapeCasts_S8x4096x32_S8x32x4096 (ix3 b e n)
      = Cert.AttnSpec.reread (fun r d => Y (ix3 b r d)) e n := by
  unfold Cert.AttnSpec.reread
  refine shapeCast_apply (s := S8x4096x32) (t := S8x32x4096) Y _ _ _ ?_
  rw [Shape.rowMajor_val_three, Shape.rowMajor_val_three]
  show (b.val * 4096 + (4096 * e.val + n.val) / 32) * 32 + (4096 * e.val + n.val) % 32
    = (b.val * 32 + e.val) * 4096 + n.val
  omega

/-- A projection with its bias, through the two format changes, at an index. -/
theorem biased32_apply (X : S8x4096x32.Idx → EReal) (B : S32.Idx → EReal) (b : Fin 8) (r : Fin 4096) (d : Fin 32) :
    truncf (F := Ideal) (s := S8x4096x32) (φ := .f32) .bf16
        (addf (F := Ideal) (s := S8x4096x32) (φ := .f32)
          (extf (F := Ideal) (s := S8x4096x32) (φ := .bf16) .f32 X bitsLt_bf16_f32)
          (broadcastInDim S8x4096x32 ![0, 1, 2] bcast_S1x1x32_S8x4096x32_0_1_2
            (broadcastInDim S1x1x32 ![2] bcast_S32_S1x1x32_2 B)))
        bitsLt_bf16_f32 (ix3 b r d)
      = X (ix3 b r d) + B (ix1 d) := by
  refine (truncf_apply (ψ := .bf16) _ bitsLt_bf16_f32 _).trans ?_
  refine (addf_apply _ _ _).trans ?_
  rw [bias32_apply]
  rfl

/-- A [256] bias broadcast over [8, 4096, 256] reads its entry d at (b, r, d). -/
theorem bias256_apply (B : S256.Idx → EReal) (b : Fin 8) (r : Fin 4096) (d : Fin 256) :
    broadcastInDim S8x4096x256 ![0, 1, 2] bcast_S1x1x256_S8x4096x256_0_1_2
        (broadcastInDim S1x1x256 ![2] bcast_S256_S1x1x256_2 B) (ix3 b r d) = B (ix1 d) := by
  refine (broadcastInDim_apply _ bcast_S1x1x256_S8x4096x256_0_1_2 _ (ix3 b r d)
    (ix3 (0 : Fin 1) (0 : Fin 1) d) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show d.val = if (256 : Nat) = 1 then 0 else d.val; rw [if_neg (by decide)])).trans ?_
  exact broadcastInDim_apply _ bcast_S256_S1x1x256_2 B _ (ix1 d) (fun a => match a with
    | ⟨0, _⟩ => by show d.val = if (256 : Nat) = 1 then 0 else d.val; rw [if_neg (by decide)])

/-- An [8, 4096, 256] array re-read in row-major order as [8, 256, 4096]: entry (e, n) is entry number 4096·e + n. -/
theorem reshape_reread256 (Y : S8x4096x256.Idx → EReal) (b : Fin 8) (e : Fin 256) (n : Fin 4096) :
    shapeCast S8x256x4096 Y shapeCasts_S8x4096x256_S8x256x4096 (ix3 b e n)
      = Cert.AttnSpec.reread (fun r d => Y (ix3 b r d)) e n := by
  unfold Cert.AttnSpec.reread
  refine shapeCast_apply (s := S8x4096x256) (t := S8x256x4096) Y _ _ _ ?_
  rw [Shape.rowMajor_val_three, Shape.rowMajor_val_three]
  show (b.val * 4096 + (4096 * e.val + n.val) / 256) * 256 + (4096 * e.val + n.val) % 256
    = (b.val * 256 + e.val) * 4096 + n.val
  omega

/-- A projection with its bias, through the two format changes, at an index. -/
theorem biased256_apply (X : S8x4096x256.Idx → EReal) (B : S256.Idx → EReal) (b : Fin 8) (r : Fin 4096) (d : Fin 256) :
    truncf (F := Ideal) (s := S8x4096x256) (φ := .f32) .bf16
        (addf (F := Ideal) (s := S8x4096x256) (φ := .f32)
          (extf (F := Ideal) (s := S8x4096x256) (φ := .bf16) .f32 X bitsLt_bf16_f32)
          (broadcastInDim S8x4096x256 ![0, 1, 2] bcast_S1x1x256_S8x4096x256_0_1_2
            (broadcastInDim S1x1x256 ![2] bcast_S256_S1x1x256_2 B)))
        bitsLt_bf16_f32 (ix3 b r d)
      = X (ix3 b r d) + B (ix1 d) := by
  refine (truncf_apply (ψ := .bf16) _ bitsLt_bf16_f32 _).trans ?_
  refine (addf_apply _ _ _).trans ?_
  rw [bias256_apply]
  rfl

/-- The second region's first operand as the host operations' term: the biased projection, re-read, transposed. -/
theorem v18_eq : (StableHlo.after (hostOps1 (F := Ideal)) W main_v18 : S8x4096x32.Idx → EReal)
    = transpose S8x4096x32 [0, 2, 1]
      (shapeCast S8x32x4096
        (truncf (F := Ideal) (s := S8x4096x32) (φ := .f32) .bf16
          (addf (F := Ideal) (s := S8x4096x32) (φ := .f32)
            (extf (F := Ideal) (s := S8x4096x32) (φ := .bf16) .f32 (W main_v1_0 : S8x4096x32.Idx → EReal) bitsLt_bf16_f32)
            (broadcastInDim S8x4096x32 ![0, 1, 2] bcast_S1x1x32_S8x4096x32_0_1_2
              (broadcastInDim S1x1x32 ![2] bcast_S32_S1x1x32_2 (W main_arg2 : S32.Idx → EReal))))
          bitsLt_bf16_f32)
        shapeCasts_S8x4096x32_S8x32x4096)
      transposes_S8x32x4096_S8x4096x32_0_2_1 := by
  after_results
  rfl

/-- Entry (n, e) of the second region's first operand is entry (e, n) of the re-read biased projection — with the two buffers the stretch reads named as arrays of extended reals. -/
theorem v18_apply_of (X : S8x4096x32.Idx → EReal) (B : S32.Idx → EReal)
    (hX : (W main_v1_0 : S8x4096x32.Idx → EReal) = X) (hB : (W main_arg2 : S32.Idx → EReal) = B) (b : Fin 8) (n : Fin 4096) (e : Fin 32) :
    (StableHlo.after (hostOps1 (F := Ideal)) W main_v18 : S8x4096x32.Idx → EReal) (ix3 b n e)
      = Cert.AttnSpec.reread (fun r d => X (ix3 b r d) + B (ix1 d)) e n := by
  subst hX hB
  rw [v18_eq]
  refine (transpose_ix3_021_apply _ transposes_S8x32x4096_S8x4096x32_0_2_1 b n e).trans ?_
  rw [reshape_reread32]
  refine congrArg (fun T : Fin 4096 → Fin 32 → EReal => Cert.AttnSpec.reread T e n) ?_
  funext r d
  exact biased32_apply _ _ b r d

/-- The same with the two buffers read off the valuation. -/
theorem v18_apply (b : Fin 8) (n : Fin 4096) (e : Fin 32) :
    (StableHlo.after (hostOps1 (F := Ideal)) W main_v18 : S8x4096x32.Idx → EReal) (ix3 b n e)
      = Cert.AttnSpec.reread (fun r d => (show S8x4096x32.Idx → EReal from W main_v1_0) (ix3 b r d)
          + (show S32.Idx → EReal from W main_arg2) (ix1 d)) e n :=
  v18_apply_of W _ _ rfl rfl b n e

/-- The second region's second operand as the host operations' term. -/
theorem v19_eq : (StableHlo.after (hostOps1 (F := Ideal)) W main_v19 : S8x32x4096.Idx → EReal)
    = (shapeCast S8x32x4096
        (truncf (F := Ideal) (s := S8x4096x32) (φ := .f32) .bf16
          (addf (F := Ideal) (s := S8x4096x32) (φ := .f32)
            (extf (F := Ideal) (s := S8x4096x32) (φ := .bf16) .f32 (W main_v1_1 : S8x4096x32.Idx → EReal) bitsLt_bf16_f32)
            (broadcastInDim S8x4096x32 ![0, 1, 2] bcast_S1x1x32_S8x4096x32_0_1_2
              (broadcastInDim S1x1x32 ![2] bcast_S32_S1x1x32_2 (W main_arg4 : S32.Idx → EReal))))
          bitsLt_bf16_f32)
        shapeCasts_S8x4096x32_S8x32x4096) := by
  after_results
  rfl

/-- Entry (e, m) of the second region's second operand is entry (e, m) of the re-read biased projection — with the two buffers the stretch reads named as arrays of extended reals. -/
theorem v19_apply_of (X : S8x4096x32.Idx → EReal) (B : S32.Idx → EReal)
    (hX : (W main_v1_1 : S8x4096x32.Idx → EReal) = X) (hB : (W main_arg4 : S32.Idx → EReal) = B) (b : Fin 8) (e : Fin 32) (mm : Fin 4096) :
    (StableHlo.after (hostOps1 (F := Ideal)) W main_v19 : S8x32x4096.Idx → EReal) (ix3 b e mm)
      = Cert.AttnSpec.reread (fun r d => X (ix3 b r d) + B (ix1 d)) e mm := by
  subst hX hB
  rw [v19_eq]
  rw [reshape_reread32]
  refine congrArg (fun T : Fin 4096 → Fin 32 → EReal => Cert.AttnSpec.reread T e mm) ?_
  funext r d
  exact biased32_apply _ _ b r d

/-- The same with the two buffers read off the valuation. -/
theorem v19_apply (b : Fin 8) (e : Fin 32) (mm : Fin 4096) :
    (StableHlo.after (hostOps1 (F := Ideal)) W main_v19 : S8x32x4096.Idx → EReal) (ix3 b e mm)
      = Cert.AttnSpec.reread (fun r d => (show S8x4096x32.Idx → EReal from W main_v1_1) (ix3 b r d)
          + (show S32.Idx → EReal from W main_arg4) (ix1 d)) e mm :=
  v19_apply_of W _ _ rfl rfl b e mm

/-- The second region's third operand as the host operations' term. -/
theorem v20_eq : (StableHlo.after (hostOps1 (F := Ideal)) W main_v20 : S8x256x4096.Idx → EReal)
    = (shapeCast S8x256x4096
        (truncf (F := Ideal) (s := S8x4096x256) (φ := .f32) .bf16
          (addf (F := Ideal) (s := S8x4096x256) (φ := .f32)
            (extf (F := Ideal) (s := S8x4096x256) (φ := .bf16) .f32 (W main_v1_2 : S8x4096x256.Idx → EReal) bitsLt_bf16_f32)
            (broadcastInDim S8x4096x256 ![0, 1, 2] bcast_S1x1x256_S8x4096x256_0_1_2
              (broadcastInDim S1x1x256 ![2] bcast_S256_S1x1x256_2 (W main_arg6 : S256.Idx → EReal))))
          bitsLt_bf16_f32)
        shapeCasts_S8x4096x256_S8x256x4096) := by
  after_results
  rfl

/-- Entry (c, n) of the second region's third operand is entry (c, n) of the re-read biased projection — with the two buffers the stretch reads named as arrays of extended reals. -/
theorem v20_apply_of (X : S8x4096x256.Idx → EReal) (B : S256.Idx → EReal)
    (hX : (W main_v1_2 : S8x4096x256.Idx → EReal) = X) (hB : (W main_arg6 : S256.Idx → EReal) = B) (b : Fin 8) (cc : Fin 256) (n : Fin 4096) :
    (StableHlo.after (hostOps1 (F := Ideal)) W main_v20 : S8x256x4096.Idx → EReal) (ix3 b cc n)
      = Cert.AttnSpec.reread (fun r d => X (ix3 b r d) + B (ix1 d)) cc n := by
  subst hX hB
  rw [v20_eq]
  rw [reshape_reread256]
  refine congrArg (fun T : Fin 4096 → Fin 256 → EReal => Cert.AttnSpec.reread T cc n) ?_
  funext r d
  exact biased256_apply _ _ b r d

/-- The same with the two buffers read off the valuation. -/
theorem v20_apply (b : Fin 8) (cc : Fin 256) (n : Fin 4096) :
    (StableHlo.after (hostOps1 (F := Ideal)) W main_v20 : S8x256x4096.Idx → EReal) (ix3 b cc n)
      = Cert.AttnSpec.reread (fun r d => (show S8x4096x256.Idx → EReal from W main_v1_2) (ix3 b r d)
          + (show S256.Idx → EReal from W main_arg6) (ix1 d)) cc n :=
  v20_apply_of W _ _ rfl rfl b cc n

end Cert.KernelPure

end
-- ==== Proof.KernelPureHostOut.lean ====
/-
  The host operations around the two kernel regions, read at one index over the extended reals.

  Before the first region the input is re-read as [8, 4096, 256]: row r is the pixel (r / 64, r % 64).  Between the
  regions each projection gains its bias and is re-read in row-major order as [8, D, 4096]; the first of the three is
  then transposed.  After the second region the attention output is re-read as [8, 64, 64, 256], scaled and added to
  the input.  A format change is the identity on extended reals.
-/
import proofs.«166255_j60060822667534_1_alg».proof.Proof.Gen.KernelIdeal.Regions
import proofs.«166255_j60060822667534_1_alg».proof.Proof.AttnSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelPure

open Cert.KernelIdeal Cert.KernelIdeal.Gen Idealize.ShloMosaic Idealize.ShloMosaic.ValueIdx Idealize.ShloMosaic.TcCoe
open Idealize.SL Idealize.SL.Sem Idealize.ShloMosaic.StableHlo

variable (W : Valuation τ sig (Elt Ideal))

/-! ## After the second region -/

/-- Entry (h, w, c) of an [8, 256, 4096] array re-read as [8, 64, 64, 256] is entry number 256·(64·h + w) + c of the
    [256, 4096] slab. -/
theorem reshape_out (Y : S8x256x4096.Idx → EReal) (b : Fin 8) (h w : Fin 64) (cc : Fin 256) :
    shapeCast S8x64x64x256 Y shapeCasts_S8x256x4096_S8x64x64x256 (ix4 b h w cc)
      = Y (ix3 b (⟨(256 * (64 * h.val + w.val) + cc.val) / 4096, by omega⟩ : Fin 256)
          (⟨(256 * (64 * h.val + w.val) + cc.val) % 4096, by omega⟩ : Fin 4096)) := by
  refine shapeCast_apply (s := S8x256x4096) (t := S8x64x64x256) Y _ _ _ ?_
  rw [Shape.rowMajor_val_three, Shape.rowMajor_val_four]
  show (b.val * 256 + (256 * (64 * h.val + w.val) + cc.val) / 4096) * 4096 + (256 * (64 * h.val + w.val) + cc.val) % 4096
    = ((b.val * 64 + h.val) * 64 + w.val) * 256 + cc.val
  omega

/-- A one-entry array broadcast over [8, 64, 64, 256] reads its entry everywhere. -/
theorem scale_apply (g : S1.Idx → EReal) (b : Fin 8) (h w : Fin 64) (cc : Fin 256) :
    broadcastInDim S8x64x64x256 ![0, 1, 2, 3] bcast_S1x1x1x1_S8x64x64x256_0_1_2_3
        (broadcastInDim S1x1x1x1 ![3] bcast_S1_S1x1x1x1_3 g) (ix4 b h w cc) = g (ix1 (0 : Fin 1)) := by
  refine (broadcastInDim_apply _ bcast_S1x1x1x1_S8x64x64x256_0_1_2_3 _ (ix4 b h w cc)
    (ix4 (0 : Fin 1) (0 : Fin 1) (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl]
    | ⟨3, _⟩ => by show 0 = if (1 : Nat) = 1 then 0 else _; rw [if_pos rfl])).trans ?_
  exact broadcastInDim_apply _ bcast_S1_S1x1x1x1_3 g _ (ix1 (0 : Fin 1)) (fun a => match a with
    | ⟨0, _⟩ => by show 0 = if (1 : Nat) = 1 then 0 else _; rw [if_pos rfl])

/-- The result array as the host operations' term over the buffers the stretch starts from. -/
theorem v26_eq : (StableHlo.after (hostOps2 (F := Ideal)) W main_v26 : S8x64x64x256.Idx → EReal)
    = addf (F := Ideal) (s := S8x64x64x256) (φ := .f32)
        (mulf (F := Ideal) (s := S8x64x64x256) (φ := .f32)
          (broadcastInDim S8x64x64x256 ![0, 1, 2, 3] bcast_S1x1x1x1_S8x64x64x256_0_1_2_3
            (broadcastInDim S1x1x1x1 ![3] bcast_S1_S1x1x1x1_3 (W main_arg7 : S1.Idx → EReal)))
          (shapeCast S8x64x64x256 (W main_v21 : S8x256x4096.Idx → EReal) shapeCasts_S8x256x4096_S8x64x64x256))
        (W main_arg0 : S8x64x64x256.Idx → EReal) := by
  after_results
  rfl

/-- The result at the pixel (h, w), channel c: the scale times the re-read attention output, plus the input — with the
    three buffers the stretch reads named as arrays of extended reals. -/
theorem v26_apply_of (g : S1.Idx → EReal) (o : S8x256x4096.Idx → EReal) (x : S8x64x64x256.Idx → EReal)
    (hg : (W main_arg7 : S1.Idx → EReal) = g) (ho : (W main_v21 : S8x256x4096.Idx → EReal) = o)
    (hx : (W main_arg0 : S8x64x64x256.Idx → EReal) = x) (b : Fin 8) (h w : Fin 64) (cc : Fin 256) :
    (StableHlo.after (hostOps2 (F := Ideal)) W main_v26 : S8x64x64x256.Idx → EReal) (ix4 b h w cc)
      = g (ix1 (0 : Fin 1))
          * o (ix3 b (⟨(256 * (64 * h.val + w.val) + cc.val) / 4096, by omega⟩ : Fin 256)
                (⟨(256 * (64 * h.val + w.val) + cc.val) % 4096, by omega⟩ : Fin 4096))
        + x (ix4 b h w cc) := by
  subst hg ho hx
  rw [v26_eq]
  refine (addf_apply _ _ _).trans ?_
  refine congrArg (· + (W main_arg0 : S8x64x64x256.Idx → EReal) (ix4 b h w cc)) ?_
  refine (mulf_apply _ _ _).trans ?_
  rw [scale_apply, reshape_out]

/-- The same with the three buffers read off the valuation. -/
theorem v26_apply (b : Fin 8) (h w : Fin 64) (cc : Fin 256) :
    (StableHlo.after (hostOps2 (F := Ideal)) W main_v26 : S8x64x64x256.Idx → EReal) (ix4 b h w cc)
      = (show S1.Idx → EReal from W main_arg7) (ix1 (0 : Fin 1))
          * (show S8x256x4096.Idx → EReal from W main_v21)
              (ix3 b (⟨(256 * (64 * h.val + w.val) + cc.val) / 4096, by omega⟩ : Fin 256)
                (⟨(256 * (64 * h.val + w.val) + cc.val) % 4096, by omega⟩ : Fin 4096))
        + (show S8x64x64x256.Idx → EReal from W main_arg0) (ix4 b h w cc) :=
  v26_apply_of W _ _ _ rfl rfl rfl b h w cc

end Cert.KernelPure

end
-- ==== Proof.KernelPure.lean ====
/-
  The kernel program's pure side over the extended reals: the two bodies' arithmetic at an index, the host operations
  around the two regions at an index, and the split of a sum over 4096 positions into four blocks of 1024.
-/
import proofs.«166255_j60060822667534_1_alg».proof.Proof.KernelPureSum
import proofs.«166255_j60060822667534_1_alg».proof.Proof.KernelPurePay
import proofs.«166255_j60060822667534_1_alg».proof.Proof.KernelPureHostIn
import proofs.«166255_j60060822667534_1_alg».proof.Proof.KernelPureHostMid
import proofs.«166255_j60060822667534_1_alg».proof.Proof.KernelPureHostOut
-- ==== Proof.Compose.lean ====
/-
  The composition, over plain arrays of extended reals: if the re-read input is x's rows, the three first-region outputs
  are the products with the weights, the second region's inputs are the biased products re-read row-major (the queries
  transposed), its output is the sigmoid-weighted product, and the result is that output re-read, scaled and added to
  x, then the result is the specification's G. Only the definitions are unfolded: no law of arithmetic is used.
-/
import proofs.«166255_j60060822667534_1_alg».proof.Proof.AttnSpec

noncomputable section

namespace Cert.AttnSpec

open Idealize.ShloMosaic Idealize.ShloMosaic.ValueIdx

variable (x : A4 8 64 64 256) (wq : A2 256 32) (bq : A1 32) (wk : A2 256 32) (bk : A1 32) (wv : A2 256 256) (bv : A1 256) (g : A1 1)

/-- A biased product of the rows, re-read row-major, is the re-reading of the projection. -/
theorem reread_proj {D : Nat} (W : A2 256 D) (bias : A1 D) (X0 : A3 8 4096 256) (P : A3 8 4096 D)
    (hX0 : ∀ (b : Fin 8) (r : Fin 4096) (k : Fin 256), X0 (ix3 b r k) = xrow x b r k)
    (hP : ∀ (b : Fin 8) (r : Fin 4096) (d : Fin D), P (ix3 b r d) = ∑ k : Fin 256, X0 (ix3 b r k) * W (ix2 k d))
    (b : Fin 8) (e : Fin D) (n : Fin 4096) :
    reread (fun r d => P (ix3 b r d) + bias (ix1 d)) e n = reread (proj x W bias b) e n := by
  have h : (fun r d => P (ix3 b r d) + bias (ix1 d)) = proj x W bias b := by
    funext r d
    unfold proj
    rw [hP b r d]
    exact congrArg (· + bias (ix1 d)) (Finset.sum_congr rfl fun k _ => by rw [hX0 b r k])
  rw [h]

theorem compose (X0 : A3 8 4096 256) (Qr Kr : A3 8 4096 32) (Vr : A3 8 4096 256)
    (q18 : A3 8 4096 32) (k19 : A3 8 32 4096) (v20 : A3 8 256 4096) (O : A3 8 256 4096) (R : A4 8 64 64 256)
    (hX0 : ∀ (b : Fin 8) (r : Fin 4096) (k : Fin 256), X0 (ix3 b r k) = xrow x b r k)
    (hQ : ∀ (b : Fin 8) (r : Fin 4096) (d : Fin 32), Qr (ix3 b r d) = ∑ k : Fin 256, X0 (ix3 b r k) * wq (ix2 k d))
    (hK : ∀ (b : Fin 8) (r : Fin 4096) (d : Fin 32), Kr (ix3 b r d) = ∑ k : Fin 256, X0 (ix3 b r k) * wk (ix2 k d))
    (hV : ∀ (b : Fin 8) (r : Fin 4096) (d : Fin 256), Vr (ix3 b r d) = ∑ k : Fin 256, X0 (ix3 b r k) * wv (ix2 k d))
    (hq : ∀ (b : Fin 8) (n : Fin 4096) (e : Fin 32), q18 (ix3 b n e) = reread (fun r d => Qr (ix3 b r d) + bq (ix1 d)) e n)
    (hk : ∀ (b : Fin 8) (e : Fin 32) (mm : Fin 4096), k19 (ix3 b e mm) = reread (fun r d => Kr (ix3 b r d) + bk (ix1 d)) e mm)
    (hv : ∀ (b : Fin 8) (cc : Fin 256) (n : Fin 4096), v20 (ix3 b cc n) = reread (fun r d => Vr (ix3 b r d) + bv (ix1 d)) cc n)
    (hO : ∀ (b : Fin 8) (cc : Fin 256) (mm : Fin 4096), O (ix3 b cc mm)
      = ∑ n : Fin 4096, v20 (ix3 b cc n) * Ideal.logistic (∑ e : Fin 32, q18 (ix3 b n e) * k19 (ix3 b e mm)))
    (hR : ∀ (b : Fin 8) (h w : Fin 64) (cc : Fin 256), R (ix4 b h w cc)
      = g (ix1 (0 : Fin 1)) * O (ix3 b (⟨(256 * (64 * h.val + w.val) + cc.val) / 4096, by omega⟩ : Fin 256)
          (⟨(256 * (64 * h.val + w.val) + cc.val) % 4096, by omega⟩ : Fin 4096)) + x (ix4 b h w cc)) :
    R = G x wq bq wk bk wv bv g := by
  have hattn : ∀ (b : Fin 8) (cc : Fin 256) (mm : Fin 4096), O (ix3 b cc mm) = attn x wq bq wk bk wv bv b cc mm := by
    intro b cc mm
    rw [hO b cc mm]
    unfold attn logits
    refine Finset.sum_congr rfl fun n _ => ?_
    rw [hv b cc n, reread_proj x wv bv X0 Vr hX0 hV b cc n]
    refine congrArg (reread (proj x wv bv b) cc n * ·) (congrArg Ideal.logistic (Finset.sum_congr rfl fun e _ => ?_))
    rw [hq b n e, hk b e mm, reread_proj x wq bq X0 Qr hX0 hQ b e n, reread_proj x wk bk X0 Kr hX0 hK b e mm]
  funext i
  obtain ⟨b, h, w, cc, rfl⟩ : ∃ (b : Fin 8) (h w : Fin 64) (cc : Fin 256), i = ix4 b h w cc := ⟨i 0, i 1, i 2, i 3, eq_ix4 i⟩
  rw [G_apply, hR b h w cc, hattn]
  rfl

end Cert.AttnSpec

end
-- ==== Proof.KI.Result.lean ====
/-
  The idealized kernel's result is the specification's G: the composition lemma instantiated at the buffers of the
  run — the host stretches read at an index, the two regions' output arrays read at an index — and the run restated
  with the result buffer named.
-/
import proofs.«166255_j60060822667534_1_alg».proof.Proof.KI.Run
import proofs.«166255_j60060822667534_1_alg».proof.Proof.KI.Value0
import proofs.«166255_j60060822667534_1_alg».proof.Proof.KI.Value1Out
import proofs.«166255_j60060822667534_1_alg».proof.Proof.KernelPure
import proofs.«166255_j60060822667534_1_alg».proof.Proof.Compose
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Fr0 Cert.KernelIdeal.Fr1 Cert.KernelPure Cert.AttnSpec Idealize.ShloMosaic.ValueIdx

variable (m : (ℓ : Loc nD τ sig) → Buf (Elt Ideal) ℓ) (c : Dev nD)

/-- A buffer neither stretch before the second region writes, and that is no array of either region, holds its launch
    contents when the second region ends. -/
theorem W4_keep (r : Ref sig .tc) (h1 : ∀ w, Pipeline.arrRef spec1 w ≠ r) (h2 : r ∉ hostOps1_W)
    (h3 : ∀ w, Pipeline.arrRef spec0 w ≠ r) (h4 : r ∉ hostOps0_W) :
    W4 (F := Ideal) m c (Proc.devRef .tc r) = m ((c : Thread nD τ).loc r) :=
  (W4_of_ne m c r h1).trans ((keep1 (W2 m c) r h2).trans ((W2_of_ne m c r h3).trans ((keep0 (V0 m c) r h4).trans rfl)))
theorem W2_keep (r : Ref sig .tc) (h3 : ∀ w, Pipeline.arrRef spec0 w ≠ r) (h4 : r ∉ hostOps0_W) :
    W2 (F := Ideal) m c (Proc.devRef .tc r) = m ((c : Thread nD τ).loc r) :=
  (W2_of_ne m c r h3).trans ((keep0 (V0 m c) r h4).trans rfl)
theorem W1_keep (r : Ref sig .tc) (h4 : r ∉ hostOps0_W) :
    W1 (F := Ideal) m c (Proc.devRef .tc r) = m ((c : Thread nD τ).loc r) :=
  (keep0 (V0 m c) r h4).trans rfl

/-- Equal weight arrays give equal products. -/
theorem sum_w_congr {D : Nat} (X : A3 8 4096 256) (W W' : A2 256 D) (h : W = W') (b : Fin 8) (r : Fin 4096) (d : Fin D) :
    ∑ k : Fin 256, X (ix3 b r k) * W (ix2 k d) = ∑ k : Fin 256, X (ix3 b r k) * W' (ix2 k d) := by rw [h]

theorem result_eq :
    W5 (F := Ideal) m c (Proc.devRef .tc main_v26)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine compose (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (W1 m c (Proc.devRef .tc main_v0)) (W2 m c (Proc.devRef .tc main_v1_0)) (W2 m c (Proc.devRef .tc main_v1_1)) (W2 m c (Proc.devRef .tc main_v1_2))
    (W3 m c (Proc.devRef .tc main_v18)) (W3 m c (Proc.devRef .tc main_v19)) (W3 m c (Proc.devRef .tc main_v20)) (W4 m c (Proc.devRef .tc main_v21)) _
    ?hX0 ?hQ ?hK ?hV ?hq ?hk ?hv ?hO ?hR
  case hX0 => exact fun b r k => v0_apply (V0 m c) b r k
  case hQ =>
    intro b r d
    exact (congrFun (W2_arr m c 4) (ix3 b r d)).trans ((arr_q (U1 m) c b r d).trans ((PqAt_def _ _ b r d).trans
      (sum_w_congr _ _ _ (W1_keep m c main_arg1 (by decide)) b r d)))
  case hK =>
    intro b r d
    exact (congrFun (W2_arr m c 5) (ix3 b r d)).trans ((arr_k (U1 m) c b r d).trans ((PqAt_def _ _ b r d).trans
      (sum_w_congr _ _ _ (W1_keep m c main_arg3 (by decide)) b r d)))
  case hV =>
    intro b r d
    exact (congrFun (W2_arr m c 6) (ix3 b r d)).trans ((arr_v (U1 m) c b r d).trans ((PvAt_def _ _ b r d).trans
      (sum_w_congr _ _ _ (W1_keep m c main_arg5 (by decide)) b r d)))
  case hq => exact fun b n e => v18_apply_of (W2 m c) _ _ rfl (W2_keep m c main_arg2 (by decide) (by decide)) b n e
  case hk => exact fun b e mm => v19_apply_of (W2 m c) _ _ rfl (W2_keep m c main_arg4 (by decide) (by decide)) b e mm
  case hv => exact fun b cc n => v20_apply_of (W2 m c) _ _ rfl (W2_keep m c main_arg6 (by decide) (by decide)) b cc n
  case hO => exact fun b cc mm => arr_o (U3 m) c _ (W4_arr m c 3) _ _ _ rfl rfl rfl b cc mm
  case hR =>
    exact fun b h w cc => v26_apply_of (W4 m c) _ _ _ (W4_keep m c main_arg7 (by decide) (by decide) (by decide) (by decide)) rfl
      (W4_keep m c main_arg0 (by decide) (by decide) (by decide) (by decide)) b h w cc

variable (ρ : Dev nD → PrngReg)

/-- Every weakly fair execution of the idealized kernel program terminates with its result buffer holding G of the
    arguments' launch contents, the arguments unchanged. -/
theorem run_G : θ_run (defs (F := Ideal)) (onTc (τ := τ) (main (F := Ideal))) ⟨m, fun _ => 0, ρ⟩ (fun r => ∀ c : Dev nD,
      r.2.mem ((c.tc : Thread nD τ).loc main_v26) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v26 (by decide))).trans (result_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩)
    (run_all m ρ)

end Cert.KernelIdeal.Fr

end
-- ==== Proof.RefSide.lean ====
/-
  The reference program computes the specification's function G.

  Read one operation at a time, at an index whose coordinates are known: a projection X·W + bias at a pixel, the
  row-major re-readings [8,64,64,D] → [8,D,4096] and [8,256,4096] → [8,64,64,256] as the arithmetic of entry numbers,
  the logits as a sum over the 32 channels, 1/(1+e^(−s)) as the logistic function, the attention output as a sum over
  the 4096 positions, and the final scaling by γ and addition of x.
-/
import proofs.«166255_j60060822667534_1_alg».proof.Proof.Gen.ReferenceIdeal.Read
import proofs.«166255_j60060822667534_1_alg».proof.Proof.AttnSpec
import Idealize.ShloMosaic.Lib.ValueIdx
import Idealize.ShloMosaic.PureOps.Ideal.Laws

noncomputable section

namespace Cert.RefSide

open Cert.ReferenceIdeal Cert.ReferenceIdeal.Read Cert.AttnSpec Idealize.ShloMosaic Idealize.ShloMosaic.ValueIdx

/-- The query projection at a pixel: at an index whose coordinates are (b, r / 64, r % 64, d) the reference's
    X·Wq + bq is the specification's projection at row r. -/
theorem projQ_at (x0 : (⟨S8x64x64x256, .f32⟩ : BufTy).Contents (Elt Ideal)) (x1 : (⟨S256x32, .f32⟩ : BufTy).Contents (Elt Ideal))
    (x2 : (⟨S32, .f32⟩ : BufTy).Contents (Elt Ideal)) (i : S8x64x64x32.Idx) (b : Fin 8) (r : Fin 4096) (d : Fin 32)
    (h0 : (i 0).val = b.val) (h1 : (i 1).val = r.val / 64) (h2 : (i 2).val = r.val % 64) (h3 : (i 3).val = d.val) :
    val_main_v3 (F := Ideal) x0 x1 x2 i = proj x0 x1 x2 b r d := by
  rw [val_main_v3_apply, val_main_v0_apply, val_main_v2_apply, val_main_v1_apply]
  unfold proj xrow
  show (∑ k : Fin 256, x0 (lidx_main_v0 i k) * x1 (ridx_main_v0 i k)) + x2 (idx_main_v1 (idx_main_v2 i)) = _
  congr 1
  · refine Finset.sum_congr rfl fun k _ => ?_
    congr 2
    · funext a
      refine Fin.ext ?_
      match a with
      | ⟨0, _⟩ => exact h0
      | ⟨1, _⟩ => exact h1
      | ⟨2, _⟩ => exact h2
      | ⟨3, _⟩ => rfl
    · funext a
      refine Fin.ext ?_
      match a with
      | ⟨0, _⟩ => rfl
      | ⟨1, _⟩ => exact h3
  · congr 1
    funext a
    refine Fin.ext ?_
    match a with
    | ⟨0, _⟩ => exact h3

/-- The re-read query array: at an index with coordinates (b, e, n) the reference's reshape of X·Wq + bq to
    [8,32,4096] is the specification's re-reading of the projection. -/
theorem rereadQ_at (x0 : (⟨S8x64x64x256, .f32⟩ : BufTy).Contents (Elt Ideal)) (x1 : (⟨S256x32, .f32⟩ : BufTy).Contents (Elt Ideal))
    (x2 : (⟨S32, .f32⟩ : BufTy).Contents (Elt Ideal)) (i : S8x32x4096.Idx) (b : Fin 8) (e : Fin 32) (n : Fin 4096)
    (h0 : (i 0).val = b.val) (h1 : (i 1).val = e.val) (h2 : (i 2).val = n.val) :
    val_main_v12 (F := Ideal) x0 x1 x2 i = reread (proj x0 x1 x2 b) e n := by
  have hb := b.isLt; have he := e.isLt; have hn := n.isLt
  rw [val_main_v12_apply]
  unfold reread
  refine projQ_at x0 x1 x2 _ b _ _ ?_ ?_ ?_ ?_
  · show (((i 0).val * 32 + (i 1).val) * 4096 + (i 2).val) / 131072 = b.val
    rw [h0, h1, h2]; omega
  · show (((i 0).val * 32 + (i 1).val) * 4096 + (i 2).val) / 2048 % 64 = (4096 * e.val + n.val) / 32 / 64
    rw [h0, h1, h2]; omega
  · show (((i 0).val * 32 + (i 1).val) * 4096 + (i 2).val) / 32 % 64 = (4096 * e.val + n.val) / 32 % 64
    rw [h0, h1, h2]; omega
  · show (((i 0).val * 32 + (i 1).val) * 4096 + (i 2).val) % 32 = (4096 * e.val + n.val) % 32
    rw [h0, h1, h2]; omega

/-- The key projection is the same operation as the query projection, on Wk and bk. -/
theorem rereadK_eq (x0 : (⟨S8x64x64x256, .f32⟩ : BufTy).Contents (Elt Ideal)) (x3 : (⟨S256x32, .f32⟩ : BufTy).Contents (Elt Ideal))
    (x4 : (⟨S32, .f32⟩ : BufTy).Contents (Elt Ideal)) :
    val_main_v14 (F := Ideal) x0 x3 x4 = val_main_v12 (F := Ideal) x0 x3 x4 := rfl

/-- The value projection at a pixel: at an index whose coordinates are (b, r / 64, r % 64, d) the reference's
    X·Wv + bv is the specification's projection at row r. -/
theorem projV_at (x0 : (⟨S8x64x64x256, .f32⟩ : BufTy).Contents (Elt Ideal)) (x5 : (⟨S256x256, .f32⟩ : BufTy).Contents (Elt Ideal))
    (x6 : (⟨S256, .f32⟩ : BufTy).Contents (Elt Ideal)) (i : S8x64x64x256.Idx) (b : Fin 8) (r : Fin 4096) (d : Fin 256)
    (h0 : (i 0).val = b.val) (h1 : (i 1).val = r.val / 64) (h2 : (i 2).val = r.val % 64) (h3 : (i 3).val = d.val) :
    val_main_v11 (F := Ideal) x0 x5 x6 i = proj x0 x5 x6 b r d := by
  rw [val_main_v11_apply, val_main_v8_apply, val_main_v10_apply, val_main_v9_apply]
  unfold proj xrow
  show (∑ k : Fin 256, x0 (lidx_main_v8 i k) * x5 (ridx_main_v8 i k)) + x6 (idx_main_v9 (idx_main_v10 i)) = _
  congr 1
  · refine Finset.sum_congr rfl fun k _ => ?_
    congr 2
    · funext a
      refine Fin.ext ?_
      match a with
      | ⟨0, _⟩ => exact h0
      | ⟨1, _⟩ => exact h1
      | ⟨2, _⟩ => exact h2
      | ⟨3, _⟩ => rfl
    · funext a
      refine Fin.ext ?_
      match a with
      | ⟨0, _⟩ => rfl
      | ⟨1, _⟩ => exact h3
  · congr 1
    funext a
    refine Fin.ext ?_
    match a with
    | ⟨0, _⟩ => exact h3

/-- The re-read value array: at an index with coordinates (b, c, n) the reference's reshape of X·Wv + bv to
    [8,256,4096] is the specification's re-reading of the projection. -/
theorem rereadV_at (x0 : (⟨S8x64x64x256, .f32⟩ : BufTy).Contents (Elt Ideal)) (x5 : (⟨S256x256, .f32⟩ : BufTy).Contents (Elt Ideal))
    (x6 : (⟨S256, .f32⟩ : BufTy).Contents (Elt Ideal)) (i : S8x256x4096.Idx) (b : Fin 8) (c : Fin 256) (n : Fin 4096)
    (h0 : (i 0).val = b.val) (h1 : (i 1).val = c.val) (h2 : (i 2).val = n.val) :
    val_main_v15 (F := Ideal) x0 x5 x6 i = reread (proj x0 x5 x6 b) c n := by
  have hb := b.isLt; have hc := c.isLt; have hn := n.isLt
  rw [val_main_v15_apply]
  unfold reread
  refine projV_at x0 x5 x6 _ b _ _ ?_ ?_ ?_ ?_
  · show (((i 0).val * 256 + (i 1).val) * 4096 + (i 2).val) / 1048576 = b.val
    rw [h0, h1, h2]; omega
  · show (((i 0).val * 256 + (i 1).val) * 4096 + (i 2).val) / 16384 % 64 = (4096 * c.val + n.val) / 256 / 64
    rw [h0, h1, h2]; omega
  · show (((i 0).val * 256 + (i 1).val) * 4096 + (i 2).val) / 256 % 64 = (4096 * c.val + n.val) / 256 % 64
    rw [h0, h1, h2]; omega
  · show (((i 0).val * 256 + (i 1).val) * 4096 + (i 2).val) % 256 = (4096 * c.val + n.val) % 256
    rw [h0, h1, h2]; omega

/-- The logits: at an index with coordinates (b, n, m) the reference's batched product of the transposed re-read
    queries with the re-read keys is the specification's sum over the 32 channels. -/
theorem logits_at (x0 : (⟨S8x64x64x256, .f32⟩ : BufTy).Contents (Elt Ideal)) (x1 : (⟨S256x32, .f32⟩ : BufTy).Contents (Elt Ideal))
    (x2 : (⟨S32, .f32⟩ : BufTy).Contents (Elt Ideal)) (x3 : (⟨S256x32, .f32⟩ : BufTy).Contents (Elt Ideal))
    (x4 : (⟨S32, .f32⟩ : BufTy).Contents (Elt Ideal)) (i : S8x4096x4096.Idx) (b : Fin 8) (n m : Fin 4096)
    (h0 : (i 0).val = b.val) (h1 : (i 1).val = n.val) (h2 : (i 2).val = m.val) :
    val_main_v16 (F := Ideal) x0 x1 x2 x3 x4 i = logits x0 x1 x2 x3 x4 b n m := by
  rw [val_main_v16_apply]
  unfold logits
  refine Finset.sum_congr rfl fun k _ => ?_
  rw [val_main_v13_apply, rereadK_eq,
    rereadQ_at x0 x1 x2 (idx_main_v13 (lidx_main_v16 i k)) b k n h0 rfl h1,
    rereadQ_at x0 x3 x4 (ridx_main_v16 i k) b k m h0 rfl h2]

/-- The word 0x3F800000 is the float 1. -/
theorem ofBits_one_f32 : Ideal.ofBits .f32 0x3F800000#32 = 1 := by
  simp [Ideal.ofBits, Ideal.ieee, -EReal.coe_mul]; norm_num

/-- The attention weights: the reference's 1 / (1 + e^(−s)) of the logits is the logistic function of the
    specification's logits. -/
theorem sigmoid_at (x0 : (⟨S8x64x64x256, .f32⟩ : BufTy).Contents (Elt Ideal)) (x1 : (⟨S256x32, .f32⟩ : BufTy).Contents (Elt Ideal))
    (x2 : (⟨S32, .f32⟩ : BufTy).Contents (Elt Ideal)) (x3 : (⟨S256x32, .f32⟩ : BufTy).Contents (Elt Ideal))
    (x4 : (⟨S32, .f32⟩ : BufTy).Contents (Elt Ideal)) (i : S8x4096x4096.Idx) (b : Fin 8) (n m : Fin 4096)
    (h0 : (i 0).val = b.val) (h1 : (i 1).val = n.val) (h2 : (i 2).val = m.val) :
    val_main_v22 (F := Ideal) x0 x1 x2 x3 x4 i = Ideal.logistic (logits x0 x1 x2 x3 x4 b n m) := by
  rw [val_main_v22_apply, val_main_v21_apply, val_main_cst_0_apply, val_main_v20_apply, val_main_v19_apply,
    val_main_cst_apply, val_main_v18_apply, val_main_v17_apply, logits_at x0 x1 x2 x3 x4 i b n m h0 h1 h2,
    Ideal.ofBits_def, ofBits_one_f32]
  rfl

/-- The attention output: at an index with coordinates (b, c, m) the reference's batched product of the re-read
    values with the attention weights is the specification's sum over the 4096 positions. -/
theorem attn_at (x0 : (⟨S8x64x64x256, .f32⟩ : BufTy).Contents (Elt Ideal)) (x1 : (⟨S256x32, .f32⟩ : BufTy).Contents (Elt Ideal))
    (x2 : (⟨S32, .f32⟩ : BufTy).Contents (Elt Ideal)) (x3 : (⟨S256x32, .f32⟩ : BufTy).Contents (Elt Ideal))
    (x4 : (⟨S32, .f32⟩ : BufTy).Contents (Elt Ideal)) (x5 : (⟨S256x256, .f32⟩ : BufTy).Contents (Elt Ideal))
    (x6 : (⟨S256, .f32⟩ : BufTy).Contents (Elt Ideal)) (i : S8x256x4096.Idx) (b : Fin 8) (c : Fin 256) (m : Fin 4096)
    (h0 : (i 0).val = b.val) (h1 : (i 1).val = c.val) (h2 : (i 2).val = m.val) :
    val_main_v23 (F := Ideal) x0 x1 x2 x3 x4 x5 x6 i = attn x0 x1 x2 x3 x4 x5 x6 b c m := by
  rw [val_main_v23_apply]
  unfold attn
  refine Finset.sum_congr rfl fun k _ => ?_
  rw [rereadV_at x0 x5 x6 (lidx_main_v23 i k) b c k h0 h1 rfl,
    sigmoid_at x0 x1 x2 x3 x4 (ridx_main_v23 i k) b k m h0 rfl h2]

/-- The reference computes G. -/
theorem ref_is_G (x0 : (⟨S8x64x64x256, .f32⟩ : BufTy).Contents (Elt Ideal)) (x1 : (⟨S256x32, .f32⟩ : BufTy).Contents (Elt Ideal))
    (x2 : (⟨S32, .f32⟩ : BufTy).Contents (Elt Ideal)) (x3 : (⟨S256x32, .f32⟩ : BufTy).Contents (Elt Ideal))
    (x4 : (⟨S32, .f32⟩ : BufTy).Contents (Elt Ideal)) (x5 : (⟨S256x256, .f32⟩ : BufTy).Contents (Elt Ideal))
    (x6 : (⟨S256, .f32⟩ : BufTy).Contents (Elt Ideal)) (x7 : (⟨S1, .f32⟩ : BufTy).Contents (Elt Ideal)) :
    val_main_v28 (F := Ideal) x0 x1 x2 x3 x4 x5 x6 x7 = G x0 x1 x2 x3 x4 x5 x6 x7 := by
  funext i
  obtain ⟨b, h, w, c, rfl⟩ : ∃ (b : Fin 8) (h w : Fin 64) (c : Fin 256), i = ix4 b h w c := ⟨i 0, i 1, i 2, i 3, eq_ix4 i⟩
  have hb := b.isLt; have hh := h.isLt; have hw := w.isLt; have hc := c.isLt
  rw [G_apply]
  unfold Gat
  rw [val_main_v28_apply, val_main_v27_apply, val_main_v26_apply, val_main_v25_apply, val_main_v24_apply,
    attn_at x0 x1 x2 x3 x4 x5 x6 (idx_main_v24 (ix4 b h w c)) b
      (⟨(256 * (64 * h.val + w.val) + c.val) / 4096, by omega⟩ : Fin 256)
      (⟨(256 * (64 * h.val + w.val) + c.val) % 4096, by omega⟩ : Fin 4096)
      (by show (((b.val * 64 + h.val) * 64 + w.val) * 256 + c.val) / 1048576 = b.val; omega)
      (by show (((b.val * 64 + h.val) * 64 + w.val) * 256 + c.val) / 4096 % 256 = (256 * (64 * h.val + w.val) + c.val) / 4096; omega)
      (by show (((b.val * 64 + h.val) * 64 + w.val) * 256 + c.val) % 4096 = (256 * (64 * h.val + w.val) + c.val) % 4096; omega)]
  show x7 (idx_main_v25 (idx_main_v26 (ix4 b h w c))) * _ + _ = _
  congr 3
  funext a
  refine Fin.ext ?_
  match a with
  | ⟨0, _⟩ => rfl

open Idealize.ShloMosaic.TcCoe Idealize.SL.Sem in
/-- Every weakly fair execution of the reference terminates with its result buffer holding G of the arguments' launch
    contents, the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc main_v28)
        = G (m ((c.tc : Thread Cert.ReferenceIdeal.nD Cert.ReferenceIdeal.τ).loc main_arg0))
            (m ((c.tc : Thread Cert.ReferenceIdeal.nD Cert.ReferenceIdeal.τ).loc main_arg1))
            (m ((c.tc : Thread Cert.ReferenceIdeal.nD Cert.ReferenceIdeal.τ).loc main_arg2))
            (m ((c.tc : Thread Cert.ReferenceIdeal.nD Cert.ReferenceIdeal.τ).loc main_arg3))
            (m ((c.tc : Thread Cert.ReferenceIdeal.nD Cert.ReferenceIdeal.τ).loc main_arg4))
            (m ((c.tc : Thread Cert.ReferenceIdeal.nD Cert.ReferenceIdeal.τ).loc main_arg5))
            (m ((c.tc : Thread Cert.ReferenceIdeal.nD Cert.ReferenceIdeal.τ).loc main_arg6))
            (m ((c.tc : Thread Cert.ReferenceIdeal.nD Cert.ReferenceIdeal.τ).loc main_arg7))
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4)
      ∧ r.2.mem ((c.tc : Thread Cert.ReferenceIdeal.nD Cert.ReferenceIdeal.τ).loc main_arg5) = m ((c.tc : Thread Cert.ReferenceIdeal.nD Cert.ReferenceIdeal.τ).loc main_arg5)
      ∧ r.2.mem ((c.tc : Thread Cert.ReferenceIdeal.nD Cert.ReferenceIdeal.τ).loc main_arg6) = m ((c.tc : Thread Cert.ReferenceIdeal.nD Cert.ReferenceIdeal.τ).loc main_arg6)
      ∧ r.2.mem ((c.tc : Thread Cert.ReferenceIdeal.nD Cert.ReferenceIdeal.τ).loc main_arg7) = m ((c.tc : Thread Cert.ReferenceIdeal.nD Cert.ReferenceIdeal.τ).loc main_arg7) :=
  (θ_run (Cert.ReferenceIdeal.defs (F := Ideal)) _ _).mono
    (fun _ h c => ⟨(h c).1.trans ((val_main_v28_eq (F := Ideal) _ _ _ _ _ _ _ _).trans (ref_is_G _ _ _ _ _ _ _ _)), (h c).2⟩)
    (Cert.ReferenceIdeal.Value.run (F := Ideal) m ρ)

end Cert.RefSide

end
-- ==== Proof.lean ====
/-
  The certificate. The kernel computes sigmoid attention in two passes: three projections of the pixels' channels
  (matrix products over 1024-row blocks), then, per batch and per block of 1024 key columns, the product of the re-read
  values with the sigmoid of the logits, accumulated over four blocks of 1024 query rows. The reference computes the same
  products whole. At the extended reals a change of float format is the identity, the kernel's sigmoid and the
  reference's 1 / (1 + exp(−s)) are one function, and a sum over 4096 terms is the sum of its four blocks of 1024 — the
  one law that joins the two sides, valid for any extended reals, so the finiteness of the inputs is never used.
  Both kernel programs' frames are the run of @main as five segments (three host stretches, two kernel regions), the
  second region's accumulator carried from grid point to grid point by the region's invariant; the reference's frame
  is its run with the result dropped; the idealization rewrote nothing.
-/
import proofs.«166255_j60060822667534_1_alg».proof.Defs
import proofs.«166255_j60060822667534_1_alg».proof.Proof.Gen.Kernel
import proofs.«166255_j60060822667534_1_alg».proof.Proof.Gen.KernelIdeal
import proofs.«166255_j60060822667534_1_alg».proof.Proof.Gen.ReferenceIdeal
import proofs.«166255_j60060822667534_1_alg».proof.Proof.Gen.Pre_finite_inputs
import proofs.«166255_j60060822667534_1_alg».proof.Proof.KB.Run
import proofs.«166255_j60060822667534_1_alg».proof.Proof.KI.Result
import proofs.«166255_j60060822667534_1_alg».proof.Proof.RefSide
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Both idealized programs end with their result at the specification's function of the arguments, which agree. -/
theorem algebraic : Cert.algebraic_KernelIdeal_ReferenceIdeal := by
  intro m ρ m' ρ' _ hagree
  refine ⟨_, Cert.KernelIdeal.Fr.run_G m ρ, ?_⟩
  refine (θ_run Cert.ReferenceIdeal.defs _ _).mono (fun _ h c => ⟨(h c).1.trans ?_, (h c).2⟩) (Cert.RefSide.run_G m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
